-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x32x32 : Shape := ⟨4, ![8, 3, 32, 32]⟩
abbrev S1 : Shape := ⟨1, ![1]⟩
abbrev S3x32x32 : Shape := ⟨3, ![3, 32, 32]⟩
abbrev S2048x3x32x32 : Shape := ⟨4, ![2048, 3, 32, 32]⟩
abbrev S_ : Shape := ⟨0, ![]⟩

class Facts : Prop where
  bcast_S_S8x3x32x32 : S_.BroadcastsInDim S8x3x32x32 (![] : Fin 0 → Fin S8x3x32x32.rank)
  reducesTo_S8x3x32x32_S_d0_1_2_3 : S8x3x32x32.ReducesTo [0, 1, 2, 3] S_
  h_S_ : 0 < S_.numel
  bcast_S_S1 : S_.BroadcastsInDim S1 (![] : Fin 0 → Fin S1.rank)
  reducesTo_S1_S_d0 : S1.ReducesTo [0] S_
  bcast_S_S3x32x32 : S_.BroadcastsInDim S3x32x32 (![] : Fin 0 → Fin S3x32x32.rank)
  reducesTo_S3x32x32_S_d0_1_2 : S3x32x32.ReducesTo [0, 1, 2] S_
  bcast_S_S2048x3x32x32 : S_.BroadcastsInDim S2048x3x32x32 (![] : Fin 0 → Fin S2048x3x32x32.rank)
  reducesTo_S2048x3x32x32_S_d0_1_2_3 : S2048x3x32x32.ReducesTo [0, 1, 2, 3] S_

variable [Facts]

def fn_part1 {F : FTy → Type} [FloatOps F] (main_v13 : IVec S_ 1) (main_v16 : IVec S2048x3x32x32 1) : IVec S_ 1 :=
  let main_c_5 : IVec S_ 1 := constantI S_ 1 1#1
  let main_v17 : IVec S_ 1 := (fun x v => Host.reduce IntOp.andi x v reducesTo_S2048x3x32x32_S_d0_1_2_3 h_S_) main_v16 main_c_5
  let main_v18 : IVec S_ 1 := andi main_v13 main_v17
  main_v18

def fn {F : FTy → Type} [FloatOps F] (main_arg0 : FVec F S8x3x32x32 .f32) (main_arg1 : FVec F S1 .f32) (main_arg2 : FVec F S3x32x32 .f32) (main_arg3 : FVec F S2048x3x32x32 .f32) : IVec S_ 1 :=
  let main_v0 : FVec F S8x3x32x32 .f32 := Host.absf main_arg0
  let main_cst : FVec F S_ .f32 := constant S_ .f32 0x7F800000#32
  let main_v1 : FVec F S8x3x32x32 .f32 := broadcastInDim S8x3x32x32 ![] bcast_S_S8x3x32x32 main_cst
  let main_v2 : IVec S8x3x32x32 1 := cmpf .olt main_v0 main_v1
  let main_c : IVec S_ 1 := constantI S_ 1 1#1
  let main_v3 : IVec S_ 1 := (fun x v => Host.reduce IntOp.andi x v reducesTo_S8x3x32x32_S_d0_1_2_3 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S3x32x32 .f32 := Host.absf main_arg2
  let main_cst_2 : FVec F S_ .f32 := constant S_ .f32 0x7F800000#32
  let main_v10 : FVec F S3x32x32 .f32 := broadcastInDim S3x32x32 ![] bcast_S_S3x32x32 main_cst_2
  let main_v11 : IVec S3x32x32 1 := cmpf .olt main_v9 main_v10
  let main_c_3 : IVec S_ 1 := constantI S_ 1 1#1
  let main_v12 : IVec S_ 1 := (fun x v => Host.reduce IntOp.andi x v reducesTo_S3x32x32_S_d0_1_2 h_S_) main_v11 main_c_3
  let main_v13 : IVec S_ 1 := andi main_v8 main_v12
  let main_v14 : FVec F S2048x3x32x32 .f32 := Host.absf main_arg3
  let main_cst_4 : FVec F S_ .f32 := constant S_ .f32 0x7F800000#32
  let main_v15 : FVec F S2048x3x32x32 .f32 := broadcastInDim S2048x3x32x32 ![] bcast_S_S2048x3x32x32 main_cst_4
  let main_v16 : IVec S2048x3x32x32 1 := cmpf .olt main_v14 main_v15
  fn_part1 (F := F) main_v13 main_v16
-- ==== Kernel.lean ====
abbrev S8x3x32x32 : Shape := ⟨4, ![8, 3, 32, 32]⟩
abbrev S1 : Shape := ⟨1, ![1]⟩
abbrev S3x32x32 : Shape := ⟨3, ![3, 32, 32]⟩
abbrev S2048x3x32x32 : Shape := ⟨4, ![2048, 3, 32, 32]⟩
abbrev S_ : Shape := ⟨0, ![]⟩
abbrev S8x3072 : Shape := ⟨2, ![8, 3072]⟩
abbrev S1x3072 : Shape := ⟨2, ![1, 3072]⟩
abbrev S8 : Shape := ⟨1, ![8]⟩
abbrev S8x1 : Shape := ⟨2, ![8, 1]⟩
abbrev S2048x3072 : Shape := ⟨2, ![2048, 3072]⟩
abbrev S1x1 : Shape := ⟨2, ![1, 1]⟩
abbrev S2x8x1 : Shape := ⟨3, ![2, 8, 1]⟩
abbrev S2x8x3072 : Shape := ⟨3, ![2, 8, 3072]⟩
abbrev S512x3072 : Shape := ⟨2, ![512, 3072]⟩
abbrev S1x8x1 : Shape := ⟨3, ![1, 8, 1]⟩
abbrev S1x8x3072 : Shape := ⟨3, ![1, 8, 3072]⟩
abbrev S8x512 : Shape := ⟨2, ![8, 512]⟩
abbrev S1x512 : Shape := ⟨2, ![1, 512]⟩
abbrev S1x3x32x32 : Shape := ⟨4, ![1, 3, 32, 32]⟩

abbrev nBuf : Space → Nat
  | .hbm => 83
  | .vmem => 16
  | .smem => 0
  | _ => 0

abbrev bufTy : (tb : Table) → Fin (tcTables nBuf tb) → BufTy
  | .hbm, ⟨0, _⟩ => ⟨S8x3x32x32, .f32⟩
  | .hbm, ⟨1, _⟩ => ⟨S1, .f32⟩
  | .hbm, ⟨2, _⟩ => ⟨S3x32x32, .f32⟩
  | .hbm, ⟨3, _⟩ => ⟨S2048x3x32x32, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x3x32x32, .f32⟩
  | .hbm, ⟨26, _⟩ => ⟨S8x3x32x32, .f32⟩
  | .hbm, ⟨27, _⟩ => ⟨S8x3072, .f32⟩
  | .hbm, ⟨28, _⟩ => ⟨S1x3072, .f32⟩
  | .hbm, ⟨29, _⟩ => ⟨S1x3072, .f32⟩
  | .hbm, ⟨30, _⟩ => ⟨S8x3072, .f32⟩
  | .hbm, ⟨31, _⟩ => ⟨S8x3072, .f32⟩
  | .hbm, ⟨32, _⟩ => ⟨S8x3072, .f32⟩
  | .hbm, ⟨33, _⟩ => ⟨S_, .f32⟩
  | .hbm, ⟨34, _⟩ => ⟨S8, .f32⟩
  | .hbm, ⟨35, _⟩ => ⟨S8x1, .f32⟩
  | .hbm, ⟨36, _⟩ => ⟨S2048x3072, .f32⟩
  | .hbm, ⟨37, _⟩ => ⟨S_, .f32⟩
  | .hbm, ⟨38, _⟩ => ⟨S1x3072, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x1, .f32⟩
  | .hbm, ⟨44, _⟩ => ⟨S2x8x1, .f32⟩
  | .hbm, ⟨45, _⟩ => ⟨S2x8x1, .f32⟩
  | .hbm, ⟨46, _⟩ => ⟨S2x8x3072, .f32⟩
  | .hbm, ⟨47, _⟩ => ⟨S1x8x1, .f32⟩
  | .hbm, ⟨48, _⟩ => ⟨S8x1, .f32⟩
  | .hbm, ⟨49, _⟩ => ⟨S1x8x1, .f32⟩
  | .hbm, ⟨50, _⟩ => ⟨S8x1, .f32⟩
  | .hbm, ⟨51, _⟩ => ⟨S1x8x1, .f32⟩
  | .hbm, ⟨52, _⟩ => ⟨S8x1, .f32⟩
  | .hbm, ⟨53, _⟩ => ⟨S1x8x1, .f32⟩
  | .hbm, ⟨54, _⟩ => ⟨S8x1, .f32⟩
  | .hbm, ⟨55, _⟩ => ⟨S1x8x3072, .f32⟩
  | .hbm, ⟨56, _⟩ => ⟨S8x3072, .f32⟩
  | .hbm, ⟨57, _⟩ => ⟨S1x8x3072, .f32⟩
  | .hbm, ⟨58, _⟩ => ⟨S8x3072, .f32⟩
  | .hbm, ⟨59, _⟩ => ⟨S8x1, .f32⟩
  | .hbm, ⟨60, _⟩ => ⟨S8x1, .f32⟩
  | .hbm, ⟨61, _⟩ => ⟨S8x1, .f32⟩
  | .hbm, ⟨62, _⟩ => ⟨S8x1, .f32⟩
  | .hbm, ⟨63, _⟩ => ⟨S8x1, .f32⟩
  | .hbm, ⟨64, _⟩ => ⟨S8x1, .f32⟩
  | .hbm, ⟨65, _⟩ => ⟨S8x1, .f32⟩
  | .hbm, ⟨66, _⟩ => ⟨S8x1, .f32⟩
  | .hbm, ⟨67, _⟩ => ⟨S8x3072, .f32⟩
  | .hbm, ⟨68, _⟩ => ⟨S8x3072, .f32⟩
  | .hbm, ⟨69, _⟩ => ⟨S8x3072, .f32⟩
  | .hbm, ⟨70, _⟩ => ⟨S8x3072, .f32⟩
  | .hbm, ⟨71, _⟩ => ⟨S8x3072, .f32⟩
  | .hbm, ⟨72, _⟩ => ⟨S8x3072, .f32⟩
  | .hbm, ⟨73, _⟩ => ⟨S8x3072, .f32⟩
  | .hbm, ⟨74, _⟩ => ⟨S8x3x32x32, .f32⟩
  | .hbm, ⟨75, _⟩ => ⟨S8x3x32x32, .f32⟩
  | .hbm, ⟨76, _⟩ => ⟨S8x3x32x32, .f32⟩
  | .hbm, ⟨77, _⟩ => ⟨S8x3x32x32, .f32⟩
  | .hbm, ⟨78, _⟩ => ⟨S8x3x32x32, .f32⟩
  | .hbm, ⟨79, _⟩ => ⟨S8x3x32x32, .f32⟩
  | .hbm, ⟨80, _⟩ => ⟨S1x3x32x32, .f32⟩
  | .hbm, ⟨81, _⟩ => ⟨S8x3x32x32, .f32⟩
  | .hbm, ⟨82, _⟩ => ⟨S8x3x32x32, .f32⟩
  | .local _ .vmem, ⟨0, _⟩ => ⟨S8x3072, .f32⟩
  | .local _ .vmem, ⟨1, _⟩ => ⟨S8x1, .f32⟩
  | .local _ .vmem, ⟨2, _⟩ => ⟨S1x3072, .f32⟩
  | .local _ .vmem, ⟨3, _⟩ => ⟨S1x3072, .f32⟩
  | .local _ .vmem, ⟨4, _⟩ => ⟨S1x1, .f32⟩
  | .local _ .vmem, ⟨5, _⟩ => ⟨S512x3072, .f32⟩
  | .local _ .vmem, ⟨6, _⟩ => ⟨S512x3072, .f32⟩
  | .local _ .vmem, ⟨7, _⟩ => ⟨S1x8x1, .f32⟩
  | .local _ .vmem, ⟨8, _⟩ => ⟨S1x8x1, .f32⟩
  | .local _ .vmem, ⟨9, _⟩ => ⟨S1x8x1, .f32⟩
  | .local _ .vmem, ⟨10, _⟩ => ⟨S1x8x1, .f32⟩
  | .local _ .vmem, ⟨11, _⟩ => ⟨S1x8x3072, .f32⟩
  | .local _ .vmem, ⟨12, _⟩ => ⟨S1x8x3072, .f32⟩
  | .local _ .vmem, ⟨13, _⟩ => ⟨S8x1, .f32⟩
  | .local _ .vmem, ⟨14, _⟩ => ⟨S8x1, .f32⟩
  | .local _ .vmem, ⟨15, _⟩ => ⟨S8x3072, .f32⟩
  | _, _ => ⟨S8x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v58 : BitVec 1 := Scalar.cmpi .eq arg1 c1_i32
  let v59 : BitVec 32 := Scalar.extui v58
  let c0_i32_30 : BitVec 32 := 0#32
  let v60 : BitVec 1 := Scalar.cmpi .ne v59 c0_i32_30
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S1_S_ : S1.ShapeCasts S_
  bcast_S_S8x3x32x32 : S_.BroadcastsInDim S8x3x32x32 (![] : Fin 0 → Fin S8x3x32x32.rank)
  shapeCasts_S8x3x32x32_S8x3072 : S8x3x32x32.ShapeCasts S8x3072
  shapeCasts_S3x32x32_S1x3072 : S3x32x32.ShapeCasts S1x3072
  bcast_S1x3072_S8x3072_0_1 : S1x3072.BroadcastsInDim S8x3072 (![0, 1] : Fin 2 → Fin S8x3072.rank)
  reducesTo_S8x3072_S8_d1 : S8x3072.ReducesTo [1] S8
  h_S_ : 0 < S_.numel
  bcast_S8_S8x1_0 : S8.BroadcastsInDim S8x1 (![0] : Fin 1 → Fin S8x1.rank)
  shapeCasts_S2048x3x32x32_S2048x3072 : S2048x3x32x32.ShapeCasts S2048x3072
  bcast_S_S1x3072 : S_.BroadcastsInDim S1x3072 (![] : Fin 0 → Fin S1x3072.rank)
  shapeCasts_S_S1x1 : S_.ShapeCasts S1x1
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x3072_S8x3072_0_0 : ∀ a, (![0, 0] : Fin 2 → Nat) a + S8x3072.size a ≤ S8x3072.size a
  h_S8x3072 : 0 < S8x3072.numel
  shapeCasts_S8x3072_S8x3072 : S8x3072.ShapeCasts S8x3072
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1x3072_S512x3072 : S1x3072.Broadcasts S512x3072
  broadcasts_S8x1_S8x512 : S8x1.Broadcasts S8x512
  broadcasts_S1x512_S8x512 : S1x512.Broadcasts S8x512
  reduces_S8x512_S8 : S8x512.Reduces [1] S8
  shapeCasts_S8_S8x1 : S8.ShapeCasts S8x1
  broadcasts_S8x1_S8x3072 : S8x1.Broadcasts S8x3072
  inb_S1x8x1_S1x8x1_0_0_0 : ∀ a, (![0, 0, 0] : Fin 3 → Nat) a + S1x8x1.size a ≤ S1x8x1.size a
  h_S1x8x1 : 0 < S1x8x1.numel
  shapeCasts_S1x8x1_S8x1 : S1x8x1.ShapeCasts S8x1
  shapeCasts_S8x1_S1x8x1 : S8x1.ShapeCasts S1x8x1
  inb_S1x8x3072_S1x8x3072_0_0_0 : ∀ a, (![0, 0, 0] : Fin 3 → Nat) a + S1x8x3072.size a ≤ S1x8x3072.size a
  h_S1x8x3072 : 0 < S1x8x3072.numel
  shapeCasts_S1x8x3072_S8x3072 : S1x8x3072.ShapeCasts S8x3072
  shapeCasts_S8x3072_S1x8x3072 : S8x3072.ShapeCasts S1x8x3072
  slices_S2x8x1_S1x8x1_0_0_0 : S2x8x1.Slices ![0, 0, 0] S1x8x1
  slices_S2x8x1_S1x8x1_1_0_0 : S2x8x1.Slices ![1, 0, 0] S1x8x1
  slices_S2x8x3072_S1x8x3072_0_0_0 : S2x8x3072.Slices ![0, 0, 0] S1x8x3072
  slices_S2x8x3072_S1x8x3072_1_0_0 : S2x8x3072.Slices ![1, 0, 0] S1x8x3072
  bcast_S8x1_S8x3072_0_1 : S8x1.BroadcastsInDim S8x3072 (![0, 1] : Fin 2 → Fin S8x3072.rank)
  shapeCasts_S8x3072_S8x3x32x32 : S8x3072.ShapeCasts S8x3x32x32
  bcast_S3x32x32_S1x3x32x32_1_2_3 : S3x32x32.BroadcastsInDim S1x3x32x32 (![1, 2, 3] : Fin 3 → Fin S1x3x32x32.rank)
  bcast_S1x3x32x32_S8x3x32x32_0_1_2_3 : S1x3x32x32.BroadcastsInDim S8x3x32x32 (![0, 1, 2, 3] : Fin 4 → Fin S8x3x32x32.rank)
  dot_S8x3072_S512x3072_S8x512_1_1_0_0_n_n_wf : DotDims.WF S8x3072 S512x3072 S8x512 [1] [1] [0] [0] [] []
  dot_S1x3072_S512x3072_S1x512_1_1_0_0_n_n_wf : DotDims.WF S1x3072 S512x3072 S1x512 [1] [1] [0] [0] [] []
  dot_S8x512_S512x3072_S8x3072_1_0_0_1_n_n_wf : DotDims.WF S8x512 S512x3072 S8x3072 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x3072.size a ≤ S8x3072.size a
  hwx0_0 : ∀ i : grid0.Coords, EltTy.bits .f32 = 32 ∨ (Rect.block (s := S8x3072) S8x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1.size a ≤ S8x1.size a
  hwx0_1 : ∀ i : grid0.Coords, EltTy.bits .f32 = 32 ∨ (Rect.block (s := S8x1) S8x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3072.size a ≤ S1x3072.size a
  hwx0_3 : ∀ i : grid0.Coords, EltTy.bits .f32 = 32 ∨ (Rect.block (s := S1x3072) S1x3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x3072.size a ≤ S2048x3072.size a
  hwx0_5 : ∀ i : grid0.Coords, EltTy.bits .f32 = 32 ∨ (Rect.block (s := S2048x3072) S512x3072.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x1.size a ≤ S2x8x1.size a
  hwx0_6 : ∀ i : grid0.Coords, EltTy.bits .f32 = 32 ∨ (Rect.block (s := S2x8x1) S1x8x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x1.size a ≤ S2x8x1.size a
  hwx0_7 : ∀ i : grid0.Coords, EltTy.bits .f32 = 32 ∨ (Rect.block (s := S2x8x1) S1x8x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x3072.size a ≤ S2x8x3072.size a
  hwx0_8 : ∀ i : grid0.Coords, EltTy.bits .f32 = 32 ∨ (Rect.block (s := S2x8x3072) S1x8x3072.size (cc0_transform_8 i) (hinb0_8 i)).WholeWords (EltTy.packing .f32)

variable [Facts₀]

def dot_S8x3072_S512x3072_S8x512_1_1_0_0_n_n : DotDims S8x3072 S512x3072 S8x512 where
  lhsContracting := [1]
  rhsContracting := [1]
  lhsNonContracting := [0]
  rhsNonContracting := [0]
  lhsBatch := []
  rhsBatch := []
  wf := dot_S8x3072_S512x3072_S8x512_1_1_0_0_n_n_wf
def dot_S1x3072_S512x3072_S1x512_1_1_0_0_n_n : DotDims S1x3072 S512x3072 S1x512 where
  lhsContracting := [1]
  rhsContracting := [1]
  lhsNonContracting := [0]
  rhsNonContracting := [0]
  lhsBatch := []
  rhsBatch := []
  wf := dot_S1x3072_S512x3072_S1x512_1_1_0_0_n_n_wf
def dot_S8x512_S512x3072_S8x3072_1_0_0_1_n_n : DotDims S8x512 S512x3072 S8x3072 where
  lhsContracting := [1]
  rhsContracting := [0]
  lhsNonContracting := [0]
  rhsNonContracting := [1]
  lhsBatch := []
  rhsBatch := []
  wf := dot_S8x512_S512x3072_S8x3072_1_0_0_1_n_n_wf

abbrev win0_0 : Pipeline.Window sig grid0 :=
  Pipeline.Window.ofSpec (Memref.whole main_v21) S8x3072.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v24) S8x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S512x3072.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v30_0) S1x8x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v30_1) S1x8x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v30_2) S1x8x3072.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8x3x32x32 : Shape := ⟨4, ![8, 3, 32, 32]⟩
abbrev S1 : Shape := ⟨1, ![1]⟩
abbrev S3x32x32 : Shape := ⟨3, ![3, 32, 32]⟩
abbrev S2048x3x32x32 : Shape := ⟨4, ![2048, 3, 32, 32]⟩
abbrev S_ : Shape := ⟨0, ![]⟩
abbrev S8x1x3x32x32 : Shape := ⟨5, ![8, 1, 3, 32, 32]⟩
abbrev S1x2048x3x32x32 : Shape := ⟨5, ![1, 2048, 3, 32, 32]⟩
abbrev S8x2048x3x32x32 : Shape := ⟨5, ![8, 2048, 3, 32, 32]⟩
abbrev S1x1x3x32x32 : Shape := ⟨5, ![1, 1, 3, 32, 32]⟩
abbrev S8x2048 : Shape := ⟨2, ![8, 2048]⟩
abbrev S8x2048x1x1x1 : Shape := ⟨5, ![8, 2048, 1, 1, 1]⟩
abbrev S8x1x1x1 : Shape := ⟨4, ![8, 1, 1, 1]⟩
abbrev S8x1x1x1x1 : Shape := ⟨5, ![8, 1, 1, 1, 1]⟩
abbrev S1x3x32x32 : Shape := ⟨4, ![1, 3, 32, 32]⟩

abbrev nBuf : Space → Nat
  | .hbm => 72
  | .vmem => 0
  | .smem => 0
  | _ => 0

abbrev bufTy : (tb : Table) → Fin (tcTables nBuf tb) → BufTy
  | .hbm, ⟨0, _⟩ => ⟨S8x3x32x32, .f32⟩
  | .hbm, ⟨1, _⟩ => ⟨S1, .f32⟩
  | .hbm, ⟨2, _⟩ => ⟨S3x32x32, .f32⟩
  | .hbm, ⟨3, _⟩ => ⟨S2048x3x32x32, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x3x32x32, .f32⟩
  | .hbm, ⟨26, _⟩ => ⟨S8x3x32x32, .f32⟩
  | .hbm, ⟨27, _⟩ => ⟨S8x1x3x32x32, .f32⟩
  | .hbm, ⟨28, _⟩ => ⟨S1x2048x3x32x32, .f32⟩
  | .hbm, ⟨29, _⟩ => ⟨S8x2048x3x32x32, .f32⟩
  | .hbm, ⟨30, _⟩ => ⟨S8x2048x3x32x32, .f32⟩
  | .hbm, ⟨31, _⟩ => ⟨S8x2048x3x32x32, .f32⟩
  | .hbm, ⟨32, _⟩ => ⟨S1x1x3x32x32, .f32⟩
  | .hbm, ⟨33, _⟩ => ⟨S8x2048x3x32x32, .f32⟩
  | .hbm, ⟨34, _⟩ => ⟨S8x2048x3x32x32, .f32⟩
  | .hbm, ⟨35, _⟩ => ⟨S8x2048x3x32x32, .f32⟩
  | .hbm, ⟨36, _⟩ => ⟨S_, .f32⟩
  | .hbm, ⟨37, _⟩ => ⟨S8x2048, .f32⟩
  | .hbm, ⟨38, _⟩ => ⟨S8x2048x1x1x1, .f32⟩
  | .hbm, ⟨39, _⟩ => ⟨S8x2048x1x1x1, .f32⟩
  | .hbm, ⟨40, _⟩ => ⟨S_, .f32⟩
  | .hbm, ⟨41, _⟩ => ⟨S_, .f32⟩
  | .hbm, ⟨42, _⟩ => ⟨S8x2048x1x1x1, .f32⟩
  | .hbm, ⟨43, _⟩ => ⟨S8x2048x1x1x1, .f32⟩
  | .hbm, ⟨44, _⟩ => ⟨S_, .f32⟩
  | .hbm, ⟨45, _⟩ => ⟨S8x1x1x1, .f32⟩
  | .hbm, ⟨46, _⟩ => ⟨S_, .f32⟩
  | .hbm, ⟨47, _⟩ => ⟨S8x1x1x1, .f32⟩
  | .hbm, ⟨48, _⟩ => ⟨S8x1x1x1, .f32⟩
  | .hbm, ⟨49, _⟩ => ⟨S8x1x1x1x1, .f32⟩
  | .hbm, ⟨50, _⟩ => ⟨S8x2048x1x1x1, .f32⟩
  | .hbm, ⟨51, _⟩ => ⟨S8x2048x1x1x1, .f32⟩
  | .hbm, ⟨52, _⟩ => ⟨S8x2048x1x1x1, .f32⟩
  | .hbm, ⟨53, _⟩ => ⟨S_, .f32⟩
  | .hbm, ⟨54, _⟩ => ⟨S8x1x1x1, .f32⟩
  | .hbm, ⟨55, _⟩ => ⟨S8x1x1x1x1, .f32⟩
  | .hbm, ⟨56, _⟩ => ⟨S8x2048x1x1x1, .f32⟩
  | .hbm, ⟨57, _⟩ => ⟨S8x2048x1x1x1, .f32⟩
  | .hbm, ⟨58, _⟩ => ⟨S1x2048x3x32x32, .f32⟩
  | .hbm, ⟨59, _⟩ => ⟨S8x2048x3x32x32, .f32⟩
  | .hbm, ⟨60, _⟩ => ⟨S8x2048x3x32x32, .f32⟩
  | .hbm, ⟨61, _⟩ => ⟨S8x2048x3x32x32, .f32⟩
  | .hbm, ⟨62, _⟩ => ⟨S_, .f32⟩
  | .hbm, ⟨63, _⟩ => ⟨S8x3x32x32, .f32⟩
  | .hbm, ⟨64, _⟩ => ⟨S8x3x32x32, .f32⟩
  | .hbm, ⟨65, _⟩ => ⟨S8x3x32x32, .f32⟩
  | .hbm, ⟨66, _⟩ => ⟨S8x3x32x32, .f32⟩
  | .hbm, ⟨67, _⟩ => ⟨S8x3x32x32, .f32⟩
  | .hbm, ⟨68, _⟩ => ⟨S8x3x32x32, .f32⟩
  | .hbm, ⟨69, _⟩ => ⟨S1x3x32x32, .f32⟩
  | .hbm, ⟨70, _⟩ => ⟨S8x3x32x32, .f32⟩
  | .hbm, ⟨71, _⟩ => ⟨S8x3x32x32, .f32⟩
  | _, _ => ⟨S8x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]

class Facts₀ : Prop where
  shapeCasts_S1_S_ : S1.ShapeCasts S_
  bcast_S_S8x3x32x32 : S_.BroadcastsInDim S8x3x32x32 (![] : Fin 0 → Fin S8x3x32x32.rank)
  bcast_S8x3x32x32_S8x1x3x32x32_0_2_3_4 : S8x3x32x32.BroadcastsInDim S8x1x3x32x32 (![0, 2, 3, 4] : Fin 4 → Fin S8x1x3x32x32.rank)
  bcast_S2048x3x32x32_S1x2048x3x32x32_1_2_3_4 : S2048x3x32x32.BroadcastsInDim S1x2048x3x32x32 (![1, 2, 3, 4] : Fin 4 → Fin S1x2048x3x32x32.rank)
  bcast_S8x1x3x32x32_S8x2048x3x32x32_0_1_2_3_4 : S8x1x3x32x32.BroadcastsInDim S8x2048x3x32x32 (![0, 1, 2, 3, 4] : Fin 5 → Fin S8x2048x3x32x32.rank)
  bcast_S1x2048x3x32x32_S8x2048x3x32x32_0_1_2_3_4 : S1x2048x3x32x32.BroadcastsInDim S8x2048x3x32x32 (![0, 1, 2, 3, 4] : Fin 5 → Fin S8x2048x3x32x32.rank)
  bcast_S3x32x32_S1x1x3x32x32_2_3_4 : S3x32x32.BroadcastsInDim S1x1x3x32x32 (![2, 3, 4] : Fin 3 → Fin S1x1x3x32x32.rank)
  bcast_S1x1x3x32x32_S8x2048x3x32x32_0_1_2_3_4 : S1x1x3x32x32.BroadcastsInDim S8x2048x3x32x32 (![0, 1, 2, 3, 4] : Fin 5 → Fin S8x2048x3x32x32.rank)
  reducesTo_S8x2048x3x32x32_S8x2048_d2_3_4 : S8x2048x3x32x32.ReducesTo [2, 3, 4] S8x2048
  h_S_ : 0 < S_.numel
  bcast_S8x2048_S8x2048x1x1x1_0_1 : S8x2048.BroadcastsInDim S8x2048x1x1x1 (![0, 1] : Fin 2 → Fin S8x2048x1x1x1.rank)
  bcast_S_S8x2048x1x1x1 : S_.BroadcastsInDim S8x2048x1x1x1 (![] : Fin 0 → Fin S8x2048x1x1x1.rank)
  reducesTo_S8x2048x1x1x1_S8x1x1x1_d1 : S8x2048x1x1x1.ReducesTo [1] S8x1x1x1
  bcast_S_S8x1x1x1 : S_.BroadcastsInDim S8x1x1x1 (![] : Fin 0 → Fin S8x1x1x1.rank)
  bcast_S8x1x1x1_S8x1x1x1x1_0_2_3_4 : S8x1x1x1.BroadcastsInDim S8x1x1x1x1 (![0, 2, 3, 4] : Fin 4 → Fin S8x1x1x1x1.rank)
  bcast_S8x1x1x1x1_S8x2048x1x1x1_0_1_2_3_4 : S8x1x1x1x1.BroadcastsInDim S8x2048x1x1x1 (![0, 1, 2, 3, 4] : Fin 5 → Fin S8x2048x1x1x1.rank)
  bcast_S8x2048x1x1x1_S8x2048x3x32x32_0_1_2_3_4 : S8x2048x1x1x1.BroadcastsInDim S8x2048x3x32x32 (![0, 1, 2, 3, 4] : Fin 5 → Fin S8x2048x3x32x32.rank)
  reducesTo_S8x2048x3x32x32_S8x3x32x32_d1 : S8x2048x3x32x32.ReducesTo [1] S8x3x32x32
  bcast_S3x32x32_S1x3x32x32_1_2_3 : S3x32x32.BroadcastsInDim S1x3x32x32 (![1, 2, 3] : Fin 3 → Fin S1x3x32x32.rank)
  bcast_S1x3x32x32_S8x3x32x32_0_1_2_3 : S1x3x32x32.BroadcastsInDim S8x3x32x32 (![0, 1, 2, 3] : Fin 4 → Fin S8x3x32x32.rank)

variable [Facts₀]

class Facts : Prop extends Facts₀ where

variable [Facts]
-- ==== Proof.KerPieces.lean ====
import proofs.«134671_j4312147165196_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case of the body leaves, as payload terms of its input blocks and the carried state -/

theorem soutA0 (c : Dev nD) (i : grid0.Coords) (arg2 : Memref sig .tc .vmem S8x3072 .f32) (harg2 : arg2.IsWhole) (arg3 : Memref sig .tc .vmem S8x1 .f32) (harg3 : arg3.IsWhole) (arg4 : Memref sig .tc .vmem S1x3072 .f32) (harg4 : arg4.IsWhole) (arg5 : Memref sig .tc .vmem S1x3072 .f32) (harg5 : arg5.IsWhole) (arg6 : Memref sig .tc .vmem S1x1 .f32) (harg6 : arg6.IsWhole) (arg7 : Memref sig .tc .vmem S512x3072 .f32) (harg7 : arg7.IsWhole) (arg8 : Memref sig .tc .vmem S1x8x1 .f32) (harg8 : arg8.IsWhole) (arg9 : Memref sig .tc .vmem S1x8x1 .f32) (harg9 : arg9.IsWhole) (arg10 : Memref sig .tc .vmem S1x8x3072 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x3072 .f32) (harg13 : arg13.IsWhole) (hc0 : cond0_0 i) (hc1 : ¬cond0_1 i) (x0 : Vec F S8x3072 .f32) (x1 : Vec F S8x1 .f32) (x2 : Vec F S1x3072 .f32) (x3 : Vec F S1x3072 .f32) (x4 : Vec F S1x1 .f32) (x5 : Vec F S512x3072 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay4 (k0_pay13 x5 x0 x2 x3 x4 x1 k0_pay8) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S8x1) hz2]
  simp only [View.readAt_eq_ld, harg2.read_unread, harg3.read_unread, harg4.read_unread, harg5.read_unread, harg6.read_unread, harg7.read_unread, harg11.read_unread, harg12.read_unread, harg13.read_unread,
    View.ld_unit_zero (S := S8x3072) hz2, View.ld_unit_zero (S := S8x1) hz2, View.ld_unit_zero (S := S1x3072) hz2, View.ld_unit_zero (S := S1x1) hz2, View.ld_unit_zero (S := S512x3072) hz2,
    View.readCov_unit_zero (S := S8x1) _ hz2, View.readCov_unit_zero (S := S8x3072) _ hz2]

theorem soutA1 (c : Dev nD) (i : grid0.Coords) (arg2 : Memref sig .tc .vmem S8x3072 .f32) (harg2 : arg2.IsWhole) (arg3 : Memref sig .tc .vmem S8x1 .f32) (harg3 : arg3.IsWhole) (arg4 : Memref sig .tc .vmem S1x3072 .f32) (harg4 : arg4.IsWhole) (arg5 : Memref sig .tc .vmem S1x3072 .f32) (harg5 : arg5.IsWhole) (arg6 : Memref sig .tc .vmem S1x1 .f32) (harg6 : arg6.IsWhole) (arg7 : Memref sig .tc .vmem S512x3072 .f32) (harg7 : arg7.IsWhole) (arg8 : Memref sig .tc .vmem S1x8x1 .f32) (harg8 : arg8.IsWhole) (arg9 : Memref sig .tc .vmem S1x8x1 .f32) (harg9 : arg9.IsWhole) (arg10 : Memref sig .tc .vmem S1x8x3072 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x3072 .f32) (harg13 : arg13.IsWhole) (hc0 : cond0_0 i) (hc1 : ¬cond0_1 i) (x0 : Vec F S8x3072 .f32) (x1 : Vec F S8x1 .f32) (x2 : Vec F S1x3072 .f32) (x3 : Vec F S1x3072 .f32) (x4 : Vec F S1x1 .f32) (x5 : Vec F S512x3072 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay2 (k0_pay12 x5 x0 x2 x3 x4 x1) (k0_pay13 x5 x0 x2 x3 x4 x1 k0_pay8) (k0_pay14 x5 x0 x2 x3 x4 x1 k0_pay8) k0_pay9 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S8x1) hz2]
  simp only [View.readAt_eq_ld, harg2.read_unread, harg3.read_unread, harg4.read_unread, harg5.read_unread, harg6.read_unread, harg7.read_unread, harg11.read_unread, harg12.read_unread, harg13.read_unread,
    View.ld_unit_zero (S := S8x3072) hz2, View.ld_unit_zero (S := S8x1) hz2, View.ld_unit_zero (S := S1x3072) hz2, View.ld_unit_zero (S := S1x1) hz2, View.ld_unit_zero (S := S512x3072) hz2,
    View.readCov_unit_zero (S := S8x1) _ hz2, View.readCov_unit_zero (S := S8x3072) _ hz2]

theorem soutA2 (c : Dev nD) (i : grid0.Coords) (arg2 : Memref sig .tc .vmem S8x3072 .f32) (harg2 : arg2.IsWhole) (arg3 : Memref sig .tc .vmem S8x1 .f32) (harg3 : arg3.IsWhole) (arg4 : Memref sig .tc .vmem S1x3072 .f32) (harg4 : arg4.IsWhole) (arg5 : Memref sig .tc .vmem S1x3072 .f32) (harg5 : arg5.IsWhole) (arg6 : Memref sig .tc .vmem S1x1 .f32) (harg6 : arg6.IsWhole) (arg7 : Memref sig .tc .vmem S512x3072 .f32) (harg7 : arg7.IsWhole) (arg8 : Memref sig .tc .vmem S1x8x1 .f32) (harg8 : arg8.IsWhole) (arg9 : Memref sig .tc .vmem S1x8x1 .f32) (harg9 : arg9.IsWhole) (arg10 : Memref sig .tc .vmem S1x8x3072 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x3072 .f32) (harg13 : arg13.IsWhole) (hc0 : cond0_0 i) (hc1 : ¬cond0_1 i) (x0 : Vec F S8x3072 .f32) (x1 : Vec F S8x1 .f32) (x2 : Vec F S1x3072 .f32) (x3 : Vec F S1x3072 .f32) (x4 : Vec F S1x1 .f32) (x5 : Vec F S512x3072 .f32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay3 (k0_pay11 x5) (k0_pay12 x5 x0 x2 x3 x4 x1) (k0_pay13 x5 x0 x2 x3 x4 x1 k0_pay8) (k0_pay14 x5 x0 x2 x3 x4 x1 k0_pay8) k0_pay10 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S8x3072) hz2]
  simp only [View.readAt_eq_ld, harg2.read_unread, harg3.read_unread, harg4.read_unread, harg5.read_unread, harg6.read_unread, harg7.read_unread, harg11.read_unread, harg12.read_unread, harg13.read_unread,
    View.ld_unit_zero (S := S8x3072) hz2, View.ld_unit_zero (S := S8x1) hz2, View.ld_unit_zero (S := S1x3072) hz2, View.ld_unit_zero (S := S1x1) hz2, View.ld_unit_zero (S := S512x3072) hz2,
    View.readCov_unit_zero (S := S8x1) _ hz2, View.readCov_unit_zero (S := S8x3072) _ hz2]

theorem soutB0 (c : Dev nD) (i : grid0.Coords) (arg2 : Memref sig .tc .vmem S8x3072 .f32) (harg2 : arg2.IsWhole) (arg3 : Memref sig .tc .vmem S8x1 .f32) (harg3 : arg3.IsWhole) (arg4 : Memref sig .tc .vmem S1x3072 .f32) (harg4 : arg4.IsWhole) (arg5 : Memref sig .tc .vmem S1x3072 .f32) (harg5 : arg5.IsWhole) (arg6 : Memref sig .tc .vmem S1x1 .f32) (harg6 : arg6.IsWhole) (arg7 : Memref sig .tc .vmem S512x3072 .f32) (harg7 : arg7.IsWhole) (arg8 : Memref sig .tc .vmem S1x8x1 .f32) (harg8 : arg8.IsWhole) (arg9 : Memref sig .tc .vmem S1x8x1 .f32) (harg9 : arg9.IsWhole) (arg10 : Memref sig .tc .vmem S1x8x3072 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x3072 .f32) (harg13 : arg13.IsWhole) (hc0 : ¬cond0_0 i) (hc1 : cond0_1 i) (x0 : Vec F S8x3072 .f32) (x1 : Vec F S8x1 .f32) (x2 : Vec F S1x3072 .f32) (x3 : Vec F S1x3072 .f32) (x4 : Vec F S1x1 .f32) (x5 : Vec F S512x3072 .f32) (xs0 : Vec F S8x1 .f32) (xs1 : Vec F S8x1 .f32) (xs2 : Vec F S8x3072 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay4 (k0_pay13 x5 x0 x2 x3 x4 x1 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg11.read_unread, harg12.read_unread, harg13.read_unread,
    View.ld_unit_zero (S := S8x3072) hz2, View.ld_unit_zero (S := S8x1) hz2, View.ld_unit_zero (S := S1x3072) hz2, View.ld_unit_zero (S := S1x1) hz2, View.ld_unit_zero (S := S512x3072) hz2,
    View.readCov_unit_zero (S := S8x1) _ hz2, View.readCov_unit_zero (S := S8x3072) _ hz2]

theorem soutB1 (c : Dev nD) (i : grid0.Coords) (arg2 : Memref sig .tc .vmem S8x3072 .f32) (harg2 : arg2.IsWhole) (arg3 : Memref sig .tc .vmem S8x1 .f32) (harg3 : arg3.IsWhole) (arg4 : Memref sig .tc .vmem S1x3072 .f32) (harg4 : arg4.IsWhole) (arg5 : Memref sig .tc .vmem S1x3072 .f32) (harg5 : arg5.IsWhole) (arg6 : Memref sig .tc .vmem S1x1 .f32) (harg6 : arg6.IsWhole) (arg7 : Memref sig .tc .vmem S512x3072 .f32) (harg7 : arg7.IsWhole) (arg8 : Memref sig .tc .vmem S1x8x1 .f32) (harg8 : arg8.IsWhole) (arg9 : Memref sig .tc .vmem S1x8x1 .f32) (harg9 : arg9.IsWhole) (arg10 : Memref sig .tc .vmem S1x8x3072 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x3072 .f32) (harg13 : arg13.IsWhole) (hc0 : ¬cond0_0 i) (hc1 : cond0_1 i) (x0 : Vec F S8x3072 .f32) (x1 : Vec F S8x1 .f32) (x2 : Vec F S1x3072 .f32) (x3 : Vec F S1x3072 .f32) (x4 : Vec F S1x1 .f32) (x5 : Vec F S512x3072 .f32) (xs0 : Vec F S8x1 .f32) (xs1 : Vec F S8x1 .f32) (xs2 : Vec F S8x3072 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay2 (k0_pay12 x5 x0 x2 x3 x4 x1) (k0_pay13 x5 x0 x2 x3 x4 x1 xs0) (k0_pay14 x5 x0 x2 x3 x4 x1 xs0) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg11.read_unread, harg12.read_unread, harg13.read_unread,
    View.ld_unit_zero (S := S8x3072) hz2, View.ld_unit_zero (S := S8x1) hz2, View.ld_unit_zero (S := S1x3072) hz2, View.ld_unit_zero (S := S1x1) hz2, View.ld_unit_zero (S := S512x3072) hz2,
    View.readCov_unit_zero (S := S8x1) _ hz2, View.readCov_unit_zero (S := S8x3072) _ hz2]

theorem soutB2 (c : Dev nD) (i : grid0.Coords) (arg2 : Memref sig .tc .vmem S8x3072 .f32) (harg2 : arg2.IsWhole) (arg3 : Memref sig .tc .vmem S8x1 .f32) (harg3 : arg3.IsWhole) (arg4 : Memref sig .tc .vmem S1x3072 .f32) (harg4 : arg4.IsWhole) (arg5 : Memref sig .tc .vmem S1x3072 .f32) (harg5 : arg5.IsWhole) (arg6 : Memref sig .tc .vmem S1x1 .f32) (harg6 : arg6.IsWhole) (arg7 : Memref sig .tc .vmem S512x3072 .f32) (harg7 : arg7.IsWhole) (arg8 : Memref sig .tc .vmem S1x8x1 .f32) (harg8 : arg8.IsWhole) (arg9 : Memref sig .tc .vmem S1x8x1 .f32) (harg9 : arg9.IsWhole) (arg10 : Memref sig .tc .vmem S1x8x3072 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x3072 .f32) (harg13 : arg13.IsWhole) (hc0 : ¬cond0_0 i) (hc1 : cond0_1 i) (x0 : Vec F S8x3072 .f32) (x1 : Vec F S8x1 .f32) (x2 : Vec F S1x3072 .f32) (x3 : Vec F S1x3072 .f32) (x4 : Vec F S1x1 .f32) (x5 : Vec F S512x3072 .f32) (xs0 : Vec F S8x1 .f32) (xs1 : Vec F S8x1 .f32) (xs2 : Vec F S8x3072 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay3 (k0_pay11 x5) (k0_pay12 x5 x0 x2 x3 x4 x1) (k0_pay13 x5 x0 x2 x3 x4 x1 xs0) (k0_pay14 x5 x0 x2 x3 x4 x1 xs0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg11.read_unread, harg12.read_unread, harg13.read_unread,
    View.ld_unit_zero (S := S8x3072) hz2, View.ld_unit_zero (S := S8x1) hz2, View.ld_unit_zero (S := S1x3072) hz2, View.ld_unit_zero (S := S1x1) hz2, View.ld_unit_zero (S := S512x3072) hz2,
    View.readCov_unit_zero (S := S8x1) _ hz2, View.readCov_unit_zero (S := S8x3072) _ hz2]

theorem outB6 (c : Dev nD) (i : grid0.Coords) (arg2 : Memref sig .tc .vmem S8x3072 .f32) (harg2 : arg2.IsWhole) (arg3 : Memref sig .tc .vmem S8x1 .f32) (harg3 : arg3.IsWhole) (arg4 : Memref sig .tc .vmem S1x3072 .f32) (harg4 : arg4.IsWhole) (arg5 : Memref sig .tc .vmem S1x3072 .f32) (harg5 : arg5.IsWhole) (arg6 : Memref sig .tc .vmem S1x1 .f32) (harg6 : arg6.IsWhole) (arg7 : Memref sig .tc .vmem S512x3072 .f32) (harg7 : arg7.IsWhole) (arg8 : Memref sig .tc .vmem S1x8x1 .f32) (harg8 : arg8.IsWhole) (arg9 : Memref sig .tc .vmem S1x8x1 .f32) (harg9 : arg9.IsWhole) (arg10 : Memref sig .tc .vmem S1x8x3072 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x3072 .f32) (harg13 : arg13.IsWhole) (hc0 : ¬cond0_0 i) (hc1 : cond0_1 i) (x0 : Vec F S8x3072 .f32) (x1 : Vec F S8x1 .f32) (x2 : Vec F S1x3072 .f32) (x3 : Vec F S1x3072 .f32) (x4 : Vec F S1x1 .f32) (x5 : Vec F S512x3072 .f32) (xs0 : Vec F S8x1 .f32) (xs1 : Vec F S8x1 .f32) (xs2 : Vec F S8x3072 .f32) :
    out0_B_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay5 (k0_pay4 (k0_pay13 x5 x0 x2 x3 x4 x1 xs0)) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg11.read_unread, harg12.read_unread, harg13.read_unread,
    View.ld_unit_zero (S := S8x3072) hz2, View.ld_unit_zero (S := S8x1) hz2, View.ld_unit_zero (S := S1x3072) hz2, View.ld_unit_zero (S := S1x1) hz2, View.ld_unit_zero (S := S512x3072) hz2,
    View.readCov_unit_zero (S := S8x1) _ hz2, View.readCov_unit_zero (S := S8x3072) _ hz2]

theorem outB7 (c : Dev nD) (i : grid0.Coords) (arg2 : Memref sig .tc .vmem S8x3072 .f32) (harg2 : arg2.IsWhole) (arg3 : Memref sig .tc .vmem S8x1 .f32) (harg3 : arg3.IsWhole) (arg4 : Memref sig .tc .vmem S1x3072 .f32) (harg4 : arg4.IsWhole) (arg5 : Memref sig .tc .vmem S1x3072 .f32) (harg5 : arg5.IsWhole) (arg6 : Memref sig .tc .vmem S1x1 .f32) (harg6 : arg6.IsWhole) (arg7 : Memref sig .tc .vmem S512x3072 .f32) (harg7 : arg7.IsWhole) (arg8 : Memref sig .tc .vmem S1x8x1 .f32) (harg8 : arg8.IsWhole) (arg9 : Memref sig .tc .vmem S1x8x1 .f32) (harg9 : arg9.IsWhole) (arg10 : Memref sig .tc .vmem S1x8x3072 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x3072 .f32) (harg13 : arg13.IsWhole) (hc0 : ¬cond0_0 i) (hc1 : cond0_1 i) (x0 : Vec F S8x3072 .f32) (x1 : Vec F S8x1 .f32) (x2 : Vec F S1x3072 .f32) (x3 : Vec F S1x3072 .f32) (x4 : Vec F S1x1 .f32) (x5 : Vec F S512x3072 .f32) (xs0 : Vec F S8x1 .f32) (xs1 : Vec F S8x1 .f32) (xs2 : Vec F S8x3072 .f32) :
    out0_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay6 (k0_pay2 (k0_pay12 x5 x0 x2 x3 x4 x1) (k0_pay13 x5 x0 x2 x3 x4 x1 xs0) (k0_pay14 x5 x0 x2 x3 x4 x1 xs0) xs1) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg11.read_unread, harg12.read_unread, harg13.read_unread,
    View.ld_unit_zero (S := S8x3072) hz2, View.ld_unit_zero (S := S8x1) hz2, View.ld_unit_zero (S := S1x3072) hz2, View.ld_unit_zero (S := S1x1) hz2, View.ld_unit_zero (S := S512x3072) hz2,
    View.readCov_unit_zero (S := S8x1) _ hz2, View.readCov_unit_zero (S := S8x3072) _ hz2]

theorem outB8 (c : Dev nD) (i : grid0.Coords) (arg2 : Memref sig .tc .vmem S8x3072 .f32) (harg2 : arg2.IsWhole) (arg3 : Memref sig .tc .vmem S8x1 .f32) (harg3 : arg3.IsWhole) (arg4 : Memref sig .tc .vmem S1x3072 .f32) (harg4 : arg4.IsWhole) (arg5 : Memref sig .tc .vmem S1x3072 .f32) (harg5 : arg5.IsWhole) (arg6 : Memref sig .tc .vmem S1x1 .f32) (harg6 : arg6.IsWhole) (arg7 : Memref sig .tc .vmem S512x3072 .f32) (harg7 : arg7.IsWhole) (arg8 : Memref sig .tc .vmem S1x8x1 .f32) (harg8 : arg8.IsWhole) (arg9 : Memref sig .tc .vmem S1x8x1 .f32) (harg9 : arg9.IsWhole) (arg10 : Memref sig .tc .vmem S1x8x3072 .f32) (harg10 : arg10.IsWhole) (arg11 : Memref sig .tc .vmem S8x1 .f32) (harg11 : arg11.IsWhole) (arg12 : Memref sig .tc .vmem S8x1 .f32) (harg12 : arg12.IsWhole) (arg13 : Memref sig .tc .vmem S8x3072 .f32) (harg13 : arg13.IsWhole) (hc0 : ¬cond0_0 i) (hc1 : cond0_1 i) (x0 : Vec F S8x3072 .f32) (x1 : Vec F S8x1 .f32) (x2 : Vec F S1x3072 .f32) (x3 : Vec F S1x3072 .f32) (x4 : Vec F S1x1 .f32) (x5 : Vec F S512x3072 .f32) (xs0 : Vec F S8x1 .f32) (xs1 : Vec F S8x1 .f32) (xs2 : Vec F S8x3072 .f32) :
    out0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay7 (k0_pay3 (k0_pay11 x5) (k0_pay12 x5 x0 x2 x3 x4 x1) (k0_pay13 x5 x0 x2 x3 x4 x1 xs0) (k0_pay14 x5 x0 x2 x3 x4 x1 xs0) xs2) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg11.read_unread, harg12.read_unread, harg13.read_unread,
    View.ld_unit_zero (S := S8x3072) hz2, View.ld_unit_zero (S := S8x1) hz2, View.ld_unit_zero (S := S1x3072) hz2, View.ld_unit_zero (S := S1x1) hz2, View.ld_unit_zero (S := S512x3072) hz2,
    View.readCov_unit_zero (S := S8x1) _ hz2, View.readCov_unit_zero (S := S8x3072) _ hz2]

end Cert.KernelIdeal.Pieces

end
-- ==== Proof.KerStep.lean ====
/-
  The state the kernel carries from tile to tile — running maximum, normaliser, weighted sum — and one tile's step
  on it, as the body's payload terms.
-/
import proofs.«134671_j4312147165196_2_alg».proof.Proof.Gen.KernelIdeal.Skeleton

noncomputable section

namespace Cert.KernelIdeal.Arrays

open Cert.KernelIdeal Cert.KernelIdeal.Gen Idealize.ShloMosaic

variable {F : FTy → Type} [FloatOps F]

/-- The carried state: running maximum, normaliser, weighted sum. -/
abbrev St (F : FTy → Type) : Type := Vec F S8x1 .f32 × Vec F S8x1 .f32 × Vec F S8x3072 .f32

/-- One tile's step on the carried state, from the point's six input blocks. -/
def step (x0 : Vec F S8x3072 .f32) (x1 : Vec F S8x1 .f32) (x2 x3 : Vec F S1x3072 .f32) (x4 : Vec F S1x1 .f32)
    (x5 : Vec F S512x3072 .f32) (s : St F) : St F :=
  (k0_pay4 (k0_pay13 x5 x0 x2 x3 x4 x1 s.1),
   k0_pay2 (k0_pay12 x5 x0 x2 x3 x4 x1) (k0_pay13 x5 x0 x2 x3 x4 x1 s.1) (k0_pay14 x5 x0 x2 x3 x4 x1 s.1) s.2.1,
   k0_pay3 (k0_pay11 x5) (k0_pay12 x5 x0 x2 x3 x4 x1) (k0_pay13 x5 x0 x2 x3 x4 x1 s.1) (k0_pay14 x5 x0 x2 x3 x4 x1 s.1) s.2.2)

/-- The state a half starts from. -/
def init : St F := (k0_pay8, k0_pay9, k0_pay10)

end Cert.KernelIdeal.Arrays

end
-- ==== Proof.KerArrays.lean ====
/-
  What the kernel's three result arrays hold after the run.

  Each point of the grid (half c, tile j) takes the carried state (running maximum, normaliser, weighted sum) one
  tile further; the first tile of a half starts from (−∞, 0, 0); the second tile's point copies the state into the
  half's block of the three result arrays. So block c of each array is the state after the half's two tiles.
-/
import proofs.«134671_j4312147165196_2_alg».proof.Proof.KerPieces
import proofs.«134671_j4312147165196_2_alg».proof.Proof.KerStep
import Idealize.ShloMosaic.Lib.ValueLayout

noncomputable section

namespace Cert.KernelIdeal.Arrays

open Cert.KernelIdeal Cert.KernelIdeal.Gen Cert.KernelIdeal.Pieces Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The step at grid point t, on that point's blocks. -/
def stepAt (c : Dev nD) (t : Fin cfg0.N) (s : St F) : St F :=
  step (iblk m c 0 t) (iblk m c 1 t) (iblk m c 2 t) (iblk m c 3 t) (iblk m c 4 t) (iblk m c 5 t) s

/-- Grid point (half, tile): 2·half + tile. -/
def pt (h j : Fin 2) : Fin cfg0.N := ⟨2 * h.val + j.val, by have : cfg0.N = 4 := N_0; have := h.isLt; have := j.isLt; omega⟩

/-- The state after a half's two tiles. -/
def halfState (c : Dev nD) (h : Fin 2) : St F := stepAt m c (pt h 1) (stepAt m c (pt h 0) init)

/-- After a first-tile point, carried scratch 0 is component 0 of one step from the initial state. -/
theorem scr_even_0 (c : Dev nD) (t : Fin cfg0.N) (h0 : t.val % 2 = 0) :
    (outsAt0 m c t.val t.isLt).2.2.2.1 = (stepAt m c t init).1 := by
  have h1 : ¬t.val % 2 = 1 := by omega
  have e := congrArg (fun x => x.2.2.2.1) (outsAt0_A m c t h0 h1)
  dsimp only at e
  refine e.trans ?_
  exact soutA0 ..

/-- After a first-tile point, carried scratch 1 is component 1 of one step from the initial state. -/
theorem scr_even_1 (c : Dev nD) (t : Fin cfg0.N) (h0 : t.val % 2 = 0) :
    (outsAt0 m c t.val t.isLt).2.2.2.2.1 = (stepAt m c t init).2.1 := by
  have h1 : ¬t.val % 2 = 1 := by omega
  have e := congrArg (fun x => x.2.2.2.2.1) (outsAt0_A m c t h0 h1)
  dsimp only at e
  refine e.trans ?_
  exact soutA1 ..

/-- After a first-tile point, carried scratch 2 is component 2 of one step from the initial state. -/
theorem scr_even_2 (c : Dev nD) (t : Fin cfg0.N) (h0 : t.val % 2 = 0) :
    (outsAt0 m c t.val t.isLt).2.2.2.2.2 = (stepAt m c t init).2.2 := by
  have h1 : ¬t.val % 2 = 1 := by omega
  have e := congrArg (fun x => x.2.2.2.2.2) (outsAt0_A m c t h0 h1)
  dsimp only at e
  refine e.trans ?_
  exact soutA2 ..

/-- After a second-tile point, output 6's staging buffer holds component 0 of the state after the half's two tiles, recast. -/
theorem out6_odd (c : Dev nD) (t : Fin cfg0.N) (h1 : t.val % 2 = 1) (hp : t.val - 1 < cfg0.N) :
    (outsAt0 m c t.val t.isLt).1 = k0_pay5 (stepAt m c t (stepAt m c ⟨t.val - 1, hp⟩ init)).1 := by
  have h0 : ¬t.val % 2 = 0 := by omega
  have hp0 : (⟨t.val - 1, hp⟩ : Fin cfg0.N).val % 2 = 0 := by show (t.val - 1) % 2 = 0; omega
  have e := congrArg (fun x => x.1) (outsAt0_B m c t h0 h1)
  dsimp only at e
  refine e.trans ?_
  refine (outB6 ..).trans ?_
  have e0 := scr_even_0 m c ⟨t.val - 1, hp⟩ hp0
  have e1 := scr_even_1 m c ⟨t.val - 1, hp⟩ hp0
  have e2 := scr_even_2 m c ⟨t.val - 1, hp⟩ hp0
  dsimp only at e0 e1 e2
  rw [e0]
  rfl

/-- After a second-tile point, output 7's staging buffer holds component 1 of the state after the half's two tiles, recast. -/
theorem out7_odd (c : Dev nD) (t : Fin cfg0.N) (h1 : t.val % 2 = 1) (hp : t.val - 1 < cfg0.N) :
    (outsAt0 m c t.val t.isLt).2.1 = k0_pay6 (stepAt m c t (stepAt m c ⟨t.val - 1, hp⟩ init)).2.1 := by
  have h0 : ¬t.val % 2 = 0 := by omega
  have hp0 : (⟨t.val - 1, hp⟩ : Fin cfg0.N).val % 2 = 0 := by show (t.val - 1) % 2 = 0; omega
  have e := congrArg (fun x => x.2.1) (outsAt0_B m c t h0 h1)
  dsimp only at e
  refine e.trans ?_
  refine (outB7 ..).trans ?_
  have e0 := scr_even_0 m c ⟨t.val - 1, hp⟩ hp0
  have e1 := scr_even_1 m c ⟨t.val - 1, hp⟩ hp0
  have e2 := scr_even_2 m c ⟨t.val - 1, hp⟩ hp0
  dsimp only at e0 e1 e2
  rw [e0, e1]
  rfl

/-- After a second-tile point, output 8's staging buffer holds component 2 of the state after the half's two tiles, recast. -/
theorem out8_odd (c : Dev nD) (t : Fin cfg0.N) (h1 : t.val % 2 = 1) (hp : t.val - 1 < cfg0.N) :
    (outsAt0 m c t.val t.isLt).2.2.1 = k0_pay7 (stepAt m c t (stepAt m c ⟨t.val - 1, hp⟩ init)).2.2 := by
  have h0 : ¬t.val % 2 = 0 := by omega
  have hp0 : (⟨t.val - 1, hp⟩ : Fin cfg0.N).val % 2 = 0 := by show (t.val - 1) % 2 = 0; omega
  have e := congrArg (fun x => x.2.2.1) (outsAt0_B m c t h0 h1)
  dsimp only at e
  refine e.trans ?_
  refine (outB8 ..).trans ?_
  have e0 := scr_even_0 m c ⟨t.val - 1, hp⟩ hp0
  have e1 := scr_even_1 m c ⟨t.val - 1, hp⟩ hp0
  have e2 := scr_even_2 m c ⟨t.val - 1, hp⟩ hp0
  dsimp only at e0 e1 e2
  rw [e0, e2]
  rfl

/-! ## Output window 6 -/

/-- The printed index map of window 6, decided over the grid: block (half, 0, 0). -/
theorem idx_facts6 : ∀ t : Fin cfg0.N, win0_6.index t (0 : Fin 3) = t.val / 2 ∧ win0_6.index t (1 : Fin 3) = 0 ∧ win0_6.index t (2 : Fin 3) = 0 :=
  (by decide +kernel : ∀ t : Fin grid0.N, _)

/-- What result array 0 ends holding: at (half, p, z) component 0 of the half's final state at (p, z). -/
def G6 (c : Dev nD) : S2x8x1.Idx → Elt F .f32 := fun i =>
  (halfState m c (i 0)).1 (ValueIdx.ix2 (i 1) (i 2))

/-- What a second-tile point writes back is its half's block of that array. -/
theorem flushed6_eq (c : Dev nD) (t : Fin cfg0.N) (hf : (cfg0.win 6).flush t = true) :
    (dats m 0 c).flushed 6 t = ((cfg0.win 6).blk t).view.read (Elt F) (G6 m c) := by
  have h1 : t.val % 2 = 1 := (flush0_6 t).mp hf
  have hN : cfg0.N = 4 := N_0
  have hp : t.val - 1 < cfg0.N := by have := t.isLt; omega
  show (cfg0.win 6).cut (grid0.coords t) ((dats m 0 c).after 6 t) = _
  rw [after0_6, out6_odd m c t h1 hp]
  obtain ⟨i0, i1, i2⟩ := idx_facts6 t
  funext j
  obtain ⟨u, p, z, rfl⟩ : ∃ (u : Fin 1) (p : Fin 8) (z : Fin 1), j = ValueIdx.ix3 u p z := ⟨j 0, j 1, j 2, ValueIdx.eq_ix3 j⟩
  show k0_pay5 (stepAt m c t (stepAt m c ⟨t.val - 1, hp⟩ init)).1 (ValueIdx.ix3 u p z)
    = (halfState m c ((((cfg0.win 6).blk t).view.emb (ValueIdx.ix3 u p z)) 0)).1
        (ValueIdx.ix2 ((((cfg0.win 6).blk t).view.emb (ValueIdx.ix3 u p z)) 1) ((((cfg0.win 6).blk t).view.emb (ValueIdx.ix3 u p z)) 2))
  have e0 : (((cfg0.win 6).blk t).view.emb (ValueIdx.ix3 u p z)) 0 = (⟨t.val / 2, by have := t.isLt; omega⟩ : Fin 2) := by
    apply Fin.ext
    show win0_6.index t (0 : Fin 3) * 1 + 1 * u.val = t.val / 2
    have := u.isLt; omega
  have e1 : (((cfg0.win 6).blk t).view.emb (ValueIdx.ix3 u p z)) 1 = p := by
    apply Fin.ext
    show win0_6.index t (1 : Fin 3) * 8 + 1 * p.val = p.val
    omega
  have e2 : (((cfg0.win 6).blk t).view.emb (ValueIdx.ix3 u p z)) 2 = z := by
    apply Fin.ext
    show win0_6.index t (2 : Fin 3) * 1 + 1 * z.val = z.val
    omega
  rw [e0, e1, e2]
  unfold k0_pay5
  rw [ValueIdx.shapeCast_ab_1ab_apply]
  unfold halfState
  have ea : pt ⟨t.val / 2, by have := t.isLt; omega⟩ 1 = t := Fin.ext (by show 2 * (t.val / 2) + 1 = t.val; omega)
  have eb : pt ⟨t.val / 2, by have := t.isLt; omega⟩ 0 = ⟨t.val - 1, hp⟩ := Fin.ext (by show 2 * (t.val / 2) + 0 = t.val - 1; omega)
  rw [ea, eb]

/-- Every index of the array is in its half's second-tile block. -/
theorem cover6 (c : Dev nD) (i : S2x8x1.Idx) :
    ∃ t : Fin cfg0.N, (cfg0.win 6).flush t = true ∧ i ∈ ((cfg0.win 6).blk t).view.set := by
  have hN : cfg0.N = 4 := N_0
  have hi0 : (i 0).val < 2 := (i 0).isLt
  have hi1 : (i 1).val < 8 := (i 1).isLt
  have hi2 : (i 2).val < 1 := (i 2).isLt
  refine ⟨pt (i 0) 1, (flush0_6 _).mpr (by show (2 * (i 0).val + 1) % 2 = 1; omega), ?_⟩
  obtain ⟨i0, i1, i2⟩ := idx_facts6 (pt (i 0) 1)
  have hv : (pt (i 0) 1).val = 2 * (i 0).val + 1 := rfl
  show i ∈ ((View.whole main_v30_0).slice (win0_6.rect (pt (i 0) 1))).set
  rw [View.set_slice_whole, Rect.mem_set_unit]
  intro a
  match a with
  | ⟨0, _⟩ => show win0_6.index (pt (i 0) 1) (0 : Fin 3) * 1 ≤ (i 0).val ∧ (i 0).val < win0_6.index (pt (i 0) 1) (0 : Fin 3) * 1 + 1
              omega
  | ⟨1, _⟩ => show win0_6.index (pt (i 0) 1) (1 : Fin 3) * 8 ≤ (i 1).val ∧ (i 1).val < win0_6.index (pt (i 0) 1) (1 : Fin 3) * 8 + 8
              omega
  | ⟨2, _⟩ => show win0_6.index (pt (i 0) 1) (2 : Fin 3) * 1 ≤ (i 2).val ∧ (i 2).val < win0_6.index (pt (i 0) 1) (2 : Fin 3) * 1 + 1
              omega

/-- The array after the run. -/
theorem final6 (c : Dev nD) : (dats m 0 c).arrAt 6 cfg0.N = G6 m c :=
  (dats m 0 c).arrAt_eq_of_cover 6 (G6 m c) (fun t hf => flushed6_eq m c t hf) (cover6 c)

/-! ## Output window 7 -/

/-- The printed index map of window 7, decided over the grid: block (half, 0, 0). -/
theorem idx_facts7 : ∀ t : Fin cfg0.N, win0_7.index t (0 : Fin 3) = t.val / 2 ∧ win0_7.index t (1 : Fin 3) = 0 ∧ win0_7.index t (2 : Fin 3) = 0 :=
  (by decide +kernel : ∀ t : Fin grid0.N, _)

/-- What result array 1 ends holding: at (half, p, z) component 1 of the half's final state at (p, z). -/
def G7 (c : Dev nD) : S2x8x1.Idx → Elt F .f32 := fun i =>
  (halfState m c (i 0)).2.1 (ValueIdx.ix2 (i 1) (i 2))

/-- What a second-tile point writes back is its half's block of that array. -/
theorem flushed7_eq (c : Dev nD) (t : Fin cfg0.N) (hf : (cfg0.win 7).flush t = true) :
    (dats m 0 c).flushed 7 t = ((cfg0.win 7).blk t).view.read (Elt F) (G7 m c) := by
  have h1 : t.val % 2 = 1 := (flush0_7 t).mp hf
  have hN : cfg0.N = 4 := N_0
  have hp : t.val - 1 < cfg0.N := by have := t.isLt; omega
  show (cfg0.win 7).cut (grid0.coords t) ((dats m 0 c).after 7 t) = _
  rw [after0_7, out7_odd m c t h1 hp]
  obtain ⟨i0, i1, i2⟩ := idx_facts7 t
  funext j
  obtain ⟨u, p, z, rfl⟩ : ∃ (u : Fin 1) (p : Fin 8) (z : Fin 1), j = ValueIdx.ix3 u p z := ⟨j 0, j 1, j 2, ValueIdx.eq_ix3 j⟩
  show k0_pay6 (stepAt m c t (stepAt m c ⟨t.val - 1, hp⟩ init)).2.1 (ValueIdx.ix3 u p z)
    = (halfState m c ((((cfg0.win 7).blk t).view.emb (ValueIdx.ix3 u p z)) 0)).2.1
        (ValueIdx.ix2 ((((cfg0.win 7).blk t).view.emb (ValueIdx.ix3 u p z)) 1) ((((cfg0.win 7).blk t).view.emb (ValueIdx.ix3 u p z)) 2))
  have e0 : (((cfg0.win 7).blk t).view.emb (ValueIdx.ix3 u p z)) 0 = (⟨t.val / 2, by have := t.isLt; omega⟩ : Fin 2) := by
    apply Fin.ext
    show win0_7.index t (0 : Fin 3) * 1 + 1 * u.val = t.val / 2
    have := u.isLt; omega
  have e1 : (((cfg0.win 7).blk t).view.emb (ValueIdx.ix3 u p z)) 1 = p := by
    apply Fin.ext
    show win0_7.index t (1 : Fin 3) * 8 + 1 * p.val = p.val
    omega
  have e2 : (((cfg0.win 7).blk t).view.emb (ValueIdx.ix3 u p z)) 2 = z := by
    apply Fin.ext
    show win0_7.index t (2 : Fin 3) * 1 + 1 * z.val = z.val
    omega
  rw [e0, e1, e2]
  unfold k0_pay6
  rw [ValueIdx.shapeCast_ab_1ab_apply]
  unfold halfState
  have ea : pt ⟨t.val / 2, by have := t.isLt; omega⟩ 1 = t := Fin.ext (by show 2 * (t.val / 2) + 1 = t.val; omega)
  have eb : pt ⟨t.val / 2, by have := t.isLt; omega⟩ 0 = ⟨t.val - 1, hp⟩ := Fin.ext (by show 2 * (t.val / 2) + 0 = t.val - 1; omega)
  rw [ea, eb]

/-- Every index of the array is in its half's second-tile block. -/
theorem cover7 (c : Dev nD) (i : S2x8x1.Idx) :
    ∃ t : Fin cfg0.N, (cfg0.win 7).flush t = true ∧ i ∈ ((cfg0.win 7).blk t).view.set := by
  have hN : cfg0.N = 4 := N_0
  have hi0 : (i 0).val < 2 := (i 0).isLt
  have hi1 : (i 1).val < 8 := (i 1).isLt
  have hi2 : (i 2).val < 1 := (i 2).isLt
  refine ⟨pt (i 0) 1, (flush0_7 _).mpr (by show (2 * (i 0).val + 1) % 2 = 1; omega), ?_⟩
  obtain ⟨i0, i1, i2⟩ := idx_facts7 (pt (i 0) 1)
  have hv : (pt (i 0) 1).val = 2 * (i 0).val + 1 := rfl
  show i ∈ ((View.whole main_v30_1).slice (win0_7.rect (pt (i 0) 1))).set
  rw [View.set_slice_whole, Rect.mem_set_unit]
  intro a
  match a with
  | ⟨0, _⟩ => show win0_7.index (pt (i 0) 1) (0 : Fin 3) * 1 ≤ (i 0).val ∧ (i 0).val < win0_7.index (pt (i 0) 1) (0 : Fin 3) * 1 + 1
              omega
  | ⟨1, _⟩ => show win0_7.index (pt (i 0) 1) (1 : Fin 3) * 8 ≤ (i 1).val ∧ (i 1).val < win0_7.index (pt (i 0) 1) (1 : Fin 3) * 8 + 8
              omega
  | ⟨2, _⟩ => show win0_7.index (pt (i 0) 1) (2 : Fin 3) * 1 ≤ (i 2).val ∧ (i 2).val < win0_7.index (pt (i 0) 1) (2 : Fin 3) * 1 + 1
              omega

/-- The array after the run. -/
theorem final7 (c : Dev nD) : (dats m 0 c).arrAt 7 cfg0.N = G7 m c :=
  (dats m 0 c).arrAt_eq_of_cover 7 (G7 m c) (fun t hf => flushed7_eq m c t hf) (cover7 c)

/-! ## Output window 8 -/

/-- The printed index map of window 8, decided over the grid: block (half, 0, 0). -/
theorem idx_facts8 : ∀ t : Fin cfg0.N, win0_8.index t (0 : Fin 3) = t.val / 2 ∧ win0_8.index t (1 : Fin 3) = 0 ∧ win0_8.index t (2 : Fin 3) = 0 :=
  (by decide +kernel : ∀ t : Fin grid0.N, _)

/-- What result array 2 ends holding: at (half, p, z) component 2 of the half's final state at (p, z). -/
def G8 (c : Dev nD) : S2x8x3072.Idx → Elt F .f32 := fun i =>
  (halfState m c (i 0)).2.2 (ValueIdx.ix2 (i 1) (i 2))

/-- What a second-tile point writes back is its half's block of that array. -/
theorem flushed8_eq (c : Dev nD) (t : Fin cfg0.N) (hf : (cfg0.win 8).flush t = true) :
    (dats m 0 c).flushed 8 t = ((cfg0.win 8).blk t).view.read (Elt F) (G8 m c) := by
  have h1 : t.val % 2 = 1 := (flush0_8 t).mp hf
  have hN : cfg0.N = 4 := N_0
  have hp : t.val - 1 < cfg0.N := by have := t.isLt; omega
  show (cfg0.win 8).cut (grid0.coords t) ((dats m 0 c).after 8 t) = _
  rw [after0_8, out8_odd m c t h1 hp]
  obtain ⟨i0, i1, i2⟩ := idx_facts8 t
  funext j
  obtain ⟨u, p, z, rfl⟩ : ∃ (u : Fin 1) (p : Fin 8) (z : Fin 3072), j = ValueIdx.ix3 u p z := ⟨j 0, j 1, j 2, ValueIdx.eq_ix3 j⟩
  show k0_pay7 (stepAt m c t (stepAt m c ⟨t.val - 1, hp⟩ init)).2.2 (ValueIdx.ix3 u p z)
    = (halfState m c ((((cfg0.win 8).blk t).view.emb (ValueIdx.ix3 u p z)) 0)).2.2
        (ValueIdx.ix2 ((((cfg0.win 8).blk t).view.emb (ValueIdx.ix3 u p z)) 1) ((((cfg0.win 8).blk t).view.emb (ValueIdx.ix3 u p z)) 2))
  have e0 : (((cfg0.win 8).blk t).view.emb (ValueIdx.ix3 u p z)) 0 = (⟨t.val / 2, by have := t.isLt; omega⟩ : Fin 2) := by
    apply Fin.ext
    show win0_8.index t (0 : Fin 3) * 1 + 1 * u.val = t.val / 2
    have := u.isLt; omega
  have e1 : (((cfg0.win 8).blk t).view.emb (ValueIdx.ix3 u p z)) 1 = p := by
    apply Fin.ext
    show win0_8.index t (1 : Fin 3) * 8 + 1 * p.val = p.val
    omega
  have e2 : (((cfg0.win 8).blk t).view.emb (ValueIdx.ix3 u p z)) 2 = z := by
    apply Fin.ext
    show win0_8.index t (2 : Fin 3) * 3072 + 1 * z.val = z.val
    omega
  rw [e0, e1, e2]
  unfold k0_pay7
  rw [ValueIdx.shapeCast_ab_1ab_apply]
  unfold halfState
  have ea : pt ⟨t.val / 2, by have := t.isLt; omega⟩ 1 = t := Fin.ext (by show 2 * (t.val / 2) + 1 = t.val; omega)
  have eb : pt ⟨t.val / 2, by have := t.isLt; omega⟩ 0 = ⟨t.val - 1, hp⟩ := Fin.ext (by show 2 * (t.val / 2) + 0 = t.val - 1; omega)
  rw [ea, eb]

/-- Every index of the array is in its half's second-tile block. -/
theorem cover8 (c : Dev nD) (i : S2x8x3072.Idx) :
    ∃ t : Fin cfg0.N, (cfg0.win 8).flush t = true ∧ i ∈ ((cfg0.win 8).blk t).view.set := by
  have hN : cfg0.N = 4 := N_0
  have hi0 : (i 0).val < 2 := (i 0).isLt
  have hi1 : (i 1).val < 8 := (i 1).isLt
  have hi2 : (i 2).val < 3072 := (i 2).isLt
  refine ⟨pt (i 0) 1, (flush0_8 _).mpr (by show (2 * (i 0).val + 1) % 2 = 1; omega), ?_⟩
  obtain ⟨i0, i1, i2⟩ := idx_facts8 (pt (i 0) 1)
  have hv : (pt (i 0) 1).val = 2 * (i 0).val + 1 := rfl
  show i ∈ ((View.whole main_v30_2).slice (win0_8.rect (pt (i 0) 1))).set
  rw [View.set_slice_whole, Rect.mem_set_unit]
  intro a
  match a with
  | ⟨0, _⟩ => show win0_8.index (pt (i 0) 1) (0 : Fin 3) * 1 ≤ (i 0).val ∧ (i 0).val < win0_8.index (pt (i 0) 1) (0 : Fin 3) * 1 + 1
              omega
  | ⟨1, _⟩ => show win0_8.index (pt (i 0) 1) (1 : Fin 3) * 8 ≤ (i 1).val ∧ (i 1).val < win0_8.index (pt (i 0) 1) (1 : Fin 3) * 8 + 8
              omega
  | ⟨2, _⟩ => show win0_8.index (pt (i 0) 1) (2 : Fin 3) * 3072 ≤ (i 2).val ∧ (i 2).val < win0_8.index (pt (i 0) 1) (2 : Fin 3) * 3072 + 3072
              omega

/-- The array after the run. -/
theorem final8 (c : Dev nD) : (dats m 0 c).arrAt 8 cfg0.N = G8 m c :=
  (dats m 0 c).arrAt_eq_of_cover 8 (G8 m c) (fun t hf => flushed8_eq m c t hf) (cover8 c)

end Cert.KernelIdeal.Arrays

end
-- ==== Proof.SoftmaxLaw.lean ====
/-
  The algebra that joins a softmax-weighted mean taken in one pass to the same mean accumulated tile by tile,
  and a masked squared distance to its expansion into three sums, on the extended reals.

  A tile-by-tile ("online") softmax keeps a running maximum m, a running normaliser l = Σ exp (x − m) and a running
  weighted sum a = Σ exp (x − m) · t. Meeting a new tile with scores x it moves to m' = max m (max x), rescales
  the two sums by exp (m − m') and adds the tile's terms taken against m'. Started from m = −∞, l = 0, a = 0,
  after any number of tiles the state is the maximum, the normaliser and the weighted sum of all rows met, so
  a / l is the softmax-weighted mean. Two such states over disjoint row sets merge the same way. All of it is
  the functional equation exp (u − w) = exp (u − v) · exp (v − w) for real u, v, w; exp (−∞) = 0 makes the start
  harmless.
-/
import Idealize.ShloMosaic.PureOps.Ideal
import Mathlib.Data.Finset.Fold
import Mathlib.Tactic

noncomputable section

namespace Cert.OnlineSoftmax

open Idealize.ShloMosaic

section defs
variable {ι : Type} [Fintype ι]

/-- The maximum of a tile's scores (−∞ for no score). -/
def tmax (x : ι → EReal) : EReal := (Finset.univ : Finset ι).fold max ⊥ x

/-- The running maximum after a tile. -/
def newM (m : EReal) (x : ι → EReal) : EReal := max m (tmax x)

/-- The running normaliser after a tile. -/
def newL (m l : EReal) (x : ι → EReal) : EReal :=
  Ideal.exp (m - newM m x) * l + ∑ r, Ideal.exp (x r - newM m x)

/-- One coordinate of the running weighted sum after a tile with values t. -/
def newA (m a : EReal) (x t : ι → EReal) : EReal :=
  Ideal.exp (m - newM m x) * a + ∑ r, Ideal.exp (x r - newM m x) * t r

/-- One half of the rows (two tiles), from the empty state. -/
def halfM (x : Fin 2 → ι → EReal) : EReal := newM (newM ⊥ (x 0)) (x 1)
def halfL (x : Fin 2 → ι → EReal) : EReal := newL (newM ⊥ (x 0)) (newL ⊥ 0 (x 0)) (x 1)
def halfA (x t : Fin 2 → ι → EReal) : EReal := newA (newM ⊥ (x 0)) (newA ⊥ 0 (x 0) (t 0)) (x 1) (t 1)

/-- The maximum of all four tiles. -/
def allMax (x : Fin 2 → Fin 2 → ι → EReal) : EReal :=
  (Finset.univ : Finset (Fin 2 × Fin 2 × ι)).fold max ⊥ (fun p => x p.1 p.2.1 p.2.2)

end defs

section aux
variable {ι : Type} [Fintype ι]

/-- The coercion of a finite sum of reals is the sum of the coercions. -/
theorem coe_sum' {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of two reals is the maximum of the coercions. -/
theorem coe_max' (a b : ℝ) : ((max a b : ℝ) : EReal) = max (a : EReal) (b : EReal) :=
  EReal.coe_strictMono.monotone.map_max

/-- The maximum of a non-empty finite family of reals. -/
def rmax [Nonempty ι] (f : ι → ℝ) : ℝ := Finset.univ.sup' Finset.univ_nonempty f

/-- The maximum of a non-empty tile of real scores is real. -/
theorem tmax_coe [Nonempty ι] (f : ι → ℝ) : tmax (fun r => (f r : EReal)) = (rmax f : EReal) := by
  unfold tmax rmax
  apply le_antisymm
  · rw [Finset.fold_max_le]
    exact ⟨bot_le, fun i _ => EReal.coe_le_coe_iff.mpr (Finset.le_sup' f (Finset.mem_univ i))⟩
  · obtain ⟨i, hi, h⟩ := Finset.exists_mem_eq_sup' Finset.univ_nonempty f
    rw [Finset.le_fold_max]
    exact Or.inr ⟨i, hi, by rw [h]⟩

/-- The normaliser of a tile against a reference point M. -/
def rL (f : ι → ℝ) (M : ℝ) : ℝ := ∑ r, Real.exp (f r - M)

/-- The weighted sum of a tile against a reference point M. -/
def rA (f g : ι → ℝ) (M : ℝ) : ℝ := ∑ r, Real.exp (f r - M) * g r

/-- Moving the reference point from a to b multiplies the normaliser by exp (a − b). -/
theorem rL_rescale (f : ι → ℝ) (a b : ℝ) : Real.exp (a - b) * rL f a = rL f b := by
  unfold rL
  rw [Finset.mul_sum]
  refine Finset.sum_congr rfl fun r _ => ?_
  rw [← Real.exp_add]
  congr 1
  ring

theorem rA_rescale (f g : ι → ℝ) (a b : ℝ) : Real.exp (a - b) * rA f g a = rA f g b := by
  unfold rA
  rw [Finset.mul_sum]
  refine Finset.sum_congr rfl fun r _ => ?_
  rw [← mul_assoc, ← Real.exp_add]
  congr 2
  ring

theorem rL_pos [Nonempty ι] (f : ι → ℝ) (M : ℝ) : 0 < rL f M :=
  Finset.sum_pos (fun r _ => Real.exp_pos _) Finset.univ_nonempty

variable [Nonempty ι]

theorem newM_bot (f : ι → ℝ) : newM ⊥ (fun r => (f r : EReal)) = (rmax f : EReal) := by
  rw [newM, tmax_coe, max_eq_right bot_le]

theorem newM_coe (m : ℝ) (f : ι → ℝ) :
    newM (m : EReal) (fun r => (f r : EReal)) = ((max m (rmax f) : ℝ) : EReal) := by
  rw [newM, tmax_coe, coe_max']

theorem newL_bot (f : ι → ℝ) : newL ⊥ 0 (fun r => (f r : EReal)) = (rL f (rmax f) : EReal) := by
  rw [newL, newM_bot, mul_zero, zero_add]
  simp only [← EReal.coe_sub, Ideal.exp_coe]
  rw [← coe_sum']
  rfl

theorem newA_bot (f g : ι → ℝ) :
    newA ⊥ 0 (fun r => (f r : EReal)) (fun r => (g r : EReal)) = (rA f g (rmax f) : EReal) := by
  rw [newA, newM_bot, mul_zero, zero_add]
  simp only [← EReal.coe_sub, Ideal.exp_coe, ← EReal.coe_mul]
  rw [← coe_sum']
  rfl

theorem newL_coe (m l : ℝ) (f : ι → ℝ) :
    newL (m : EReal) (l : EReal) (fun r => (f r : EReal))
      = ((Real.exp (m - max m (rmax f)) * l + rL f (max m (rmax f)) : ℝ) : EReal) := by
  rw [newL, newM_coe]
  simp only [← EReal.coe_sub, Ideal.exp_coe, ← EReal.coe_mul]
  rw [← coe_sum', ← EReal.coe_add]
  rfl

theorem newA_coe (m a : ℝ) (f g : ι → ℝ) :
    newA (m : EReal) (a : EReal) (fun r => (f r : EReal)) (fun r => (g r : EReal))
      = ((Real.exp (m - max m (rmax f)) * a + rA f g (max m (rmax f)) : ℝ) : EReal) := by
  rw [newA, newM_coe]
  simp only [← EReal.coe_sub, Ideal.exp_coe, ← EReal.coe_mul]
  rw [← coe_sum', ← EReal.coe_add]
  rfl

/-- The maximum of a half (two tiles) of real scores. -/
def hM (f : Fin 2 → ι → ℝ) : ℝ := max (rmax (f 0)) (rmax (f 1))

theorem halfM_coe (f : Fin 2 → ι → ℝ) : halfM (fun j r => (f j r : EReal)) = (hM f : EReal) := by
  simp only [halfM]
  rw [newM_bot, newM_coe]
  rfl

theorem halfL_coe (f : Fin 2 → ι → ℝ) :
    halfL (fun j r => (f j r : EReal)) = ((rL (f 0) (hM f) + rL (f 1) (hM f) : ℝ) : EReal) := by
  simp only [halfL]
  rw [newM_bot, newL_bot, newL_coe, rL_rescale]
  rfl

theorem halfA_coe (f g : Fin 2 → ι → ℝ) :
    halfA (fun j r => (f j r : EReal)) (fun j r => (g j r : EReal))
      = ((rA (f 0) (g 0) (hM f) + rA (f 1) (g 1) (hM f) : ℝ) : EReal) := by
  simp only [halfA]
  rw [newM_bot, newA_bot, newA_coe, rA_rescale]
  rfl

/-- The maximum over all four tiles is the maximum of the four tile maxima. -/
theorem allMax_eq (x : Fin 2 → Fin 2 → ι → EReal) :
    allMax x = max (max (tmax (x 0 0)) (tmax (x 0 1))) (max (tmax (x 1 0)) (tmax (x 1 1))) := by
  apply eq_of_forall_ge_iff
  intro c
  simp only [allMax, tmax, Finset.fold_max_le, max_le_iff, bot_le, true_and, Finset.mem_univ,
    forall_true_left, Prod.forall, Fin.forall_fin_two]

theorem allMax_coe (x : Fin 2 → Fin 2 → ι → ℝ) :
    allMax (fun c j r => (x c j r : EReal)) = ((max (hM (x 0)) (hM (x 1)) : ℝ) : EReal) := by
  rw [allMax_eq]
  simp only [tmax_coe, ← coe_max']
  rfl

end aux

/-- Two halves of two tiles each, merged, against the one-pass softmax-weighted mean over all four tiles. -/
theorem merged_eq_softmax {ι : Type} [Fintype ι] [Nonempty ι] (x t : Fin 2 → Fin 2 → ι → EReal)
    (hx : ∀ c j r, x c j r ≠ ⊥ ∧ x c j r ≠ ⊤) (ht : ∀ c j r, t c j r ≠ ⊥ ∧ t c j r ≠ ⊤) :
    Ideal.div
        (Ideal.exp (halfM (x 0) - max (halfM (x 0)) (halfM (x 1))) * halfA (x 0) (t 0)
          + Ideal.exp (halfM (x 1) - max (halfM (x 0)) (halfM (x 1))) * halfA (x 1) (t 1))
        (Ideal.exp (halfM (x 0) - max (halfM (x 0)) (halfM (x 1))) * halfL (x 0)
          + Ideal.exp (halfM (x 1) - max (halfM (x 0)) (halfM (x 1))) * halfL (x 1))
      = ∑ p : Fin 2 × Fin 2 × ι,
          Ideal.div (Ideal.exp (x p.1 p.2.1 p.2.2 - allMax x))
            (∑ q : Fin 2 × Fin 2 × ι, Ideal.exp (x q.1 q.2.1 q.2.2 - allMax x)) * t p.1 p.2.1 p.2.2 := by
  obtain ⟨xr, rfl⟩ : ∃ xr : Fin 2 → Fin 2 → ι → ℝ, x = fun c j r => (xr c j r : EReal) :=
    ⟨fun c j r => (x c j r).toReal, by
      funext c j r; exact (EReal.coe_toReal (hx c j r).2 (hx c j r).1).symm⟩
  obtain ⟨tr, rfl⟩ : ∃ tr : Fin 2 → Fin 2 → ι → ℝ, t = fun c j r => (tr c j r : EReal) :=
    ⟨fun c j r => (t c j r).toReal, by
      funext c j r; exact (EReal.coe_toReal (ht c j r).2 (ht c j r).1).symm⟩
  have hM0 := halfM_coe (xr 0)
  have hM1 := halfM_coe (xr 1)
  have hL0 := halfL_coe (xr 0)
  have hL1 := halfL_coe (xr 1)
  have hA0 := halfA_coe (xr 0) (tr 0)
  have hA1 := halfA_coe (xr 1) (tr 1)
  have hAll := allMax_coe xr
  rw [hM0, hM1, hL0, hL1, hA0, hA1, hAll]
  -- every quantity is now the coercion of a real one
  simp only [← coe_max', ← EReal.coe_sub, Ideal.exp_coe, ← EReal.coe_mul, ← EReal.coe_add, ← coe_sum']
  -- bring the two halves to the common reference point M, the maximum of all rows
  simp only [mul_add, rL_rescale, rA_rescale]
  generalize max (hM (xr 0)) (hM (xr 1)) = M
  have hZ : (∑ i : Fin 2 × Fin 2 × ι, Real.exp (xr i.1 i.2.1 i.2.2 - M))
      = rL (xr 0 0) M + rL (xr 0 1) M + (rL (xr 1 0) M + rL (xr 1 1) M) := by
    simp only [Fintype.sum_prod_type, Fin.sum_univ_two, rL]
  have hpos : 0 < rL (xr 0 0) M + rL (xr 0 1) M + (rL (xr 1 0) M + rL (xr 1 1) M) := by
    have h1 := rL_pos (xr 0 0) M
    have h2 := rL_pos (xr 0 1) M
    have h3 := rL_pos (xr 1 0) M
    have h4 := rL_pos (xr 1 1) M
    linarith
  rw [hZ]
  generalize rL (xr 0 0) M + rL (xr 0 1) M + (rL (xr 1 0) M + rL (xr 1 1) M) = Z at hpos
  rw [Ideal.div_coe hpos.ne']
  simp only [Ideal.div_coe hpos.ne', ← EReal.coe_mul, ← coe_sum']
  congr 1
  have key : ∀ f g : ι → ℝ, rA f g M * (1 / Z) = ∑ r, Real.exp (f r - M) * (1 / Z) * g r := by
    intro f g
    rw [rA, Finset.sum_mul]
    exact Finset.sum_congr rfl fun r _ => by ring
  rw [add_mul, add_mul, add_mul, key, key, key, key]
  simp only [Fintype.sum_prod_type, Fin.sum_univ_two]

/-- The masked squared distance Σ ((s − T)·μ)², negated and divided by v, against its expansion
    (Σ (s μ²) s − 2 Σ (s μ²) T + Σ 1·((T μ²) T)), negated as 0 − · and multiplied by 1 / v. -/
theorem scores_eq {δ : Type} [Fintype δ] (s μ T : δ → EReal) (v : EReal)
    (hs : ∀ d, s d ≠ ⊥ ∧ s d ≠ ⊤) (hμ : ∀ d, μ d ≠ ⊥ ∧ μ d ≠ ⊤) (hT : ∀ d, T d ≠ ⊥ ∧ T d ≠ ⊤)
    (hv : v ≠ ⊥ ∧ v ≠ ⊤) (hv0 : v ≠ 0) :
    (0 - (((0 + ∑ d, (s d * (μ d * μ d)) * s d) - 2 * ∑ d, (s d * (μ d * μ d)) * T d)
            + ∑ d, 1 * ((T d * (μ d * μ d)) * T d))) * Ideal.div 1 v
      = Ideal.div (-(0 + ∑ d, ((s d - T d) * μ d) * ((s d - T d) * μ d))) v := by
  obtain ⟨sr, rfl⟩ : ∃ sr : δ → ℝ, s = fun d => (sr d : EReal) :=
    ⟨fun d => (s d).toReal, by funext d; exact (EReal.coe_toReal (hs d).2 (hs d).1).symm⟩
  obtain ⟨μr, rfl⟩ : ∃ μr : δ → ℝ, μ = fun d => (μr d : EReal) :=
    ⟨fun d => (μ d).toReal, by funext d; exact (EReal.coe_toReal (hμ d).2 (hμ d).1).symm⟩
  obtain ⟨Tr, rfl⟩ : ∃ Tr : δ → ℝ, T = fun d => (Tr d : EReal) :=
    ⟨fun d => (T d).toReal, by funext d; exact (EReal.coe_toReal (hT d).2 (hT d).1).symm⟩
  obtain ⟨vr, rfl⟩ : ∃ vr : ℝ, v = (vr : EReal) := ⟨v.toReal, (EReal.coe_toReal hv.2 hv.1).symm⟩
  have hvr : vr ≠ 0 := fun h => hv0 (by rw [h, EReal.coe_zero])
  have h2 : (2 : EReal) = ((2 : ℝ) : EReal) := by norm_cast
  rw [Ideal.div_coe hvr, Ideal.div_coe hvr, h2, ← EReal.coe_zero, ← EReal.coe_one]
  simp only [← EReal.coe_mul, ← coe_sum', ← EReal.coe_add, ← EReal.coe_sub, ← EReal.coe_neg]
  congr 1
  -- the square expands term by term: ((s − T) μ)² = s μ² s − 2 s μ² T + T μ² T
  have key : ∑ i, (sr i - Tr i) * μr i * ((sr i - Tr i) * μr i)
      = ∑ i, sr i * (μr i * μr i) * sr i - 2 * ∑ i, sr i * (μr i * μr i) * Tr i
        + ∑ i, 1 * (Tr i * (μr i * μr i) * Tr i) := by
    rw [Finset.mul_sum, ← Finset.sum_sub_distrib, ← Finset.sum_add_distrib]
    exact Finset.sum_congr rfl fun i _ => by ring
  rw [key]
  ring

/-- Such a score is a real number. -/
theorem score_real {δ : Type} [Fintype δ] (s μ T : δ → EReal) (v : EReal)
    (hs : ∀ d, s d ≠ ⊥ ∧ s d ≠ ⊤) (hμ : ∀ d, μ d ≠ ⊥ ∧ μ d ≠ ⊤) (hT : ∀ d, T d ≠ ⊥ ∧ T d ≠ ⊤)
    (hv : v ≠ ⊥ ∧ v ≠ ⊤) (hv0 : v ≠ 0) :
    Ideal.div (-(0 + ∑ d, ((s d - T d) * μ d) * ((s d - T d) * μ d))) v ≠ ⊥
      ∧ Ideal.div (-(0 + ∑ d, ((s d - T d) * μ d) * ((s d - T d) * μ d))) v ≠ ⊤ := by
  obtain ⟨sr, rfl⟩ : ∃ sr : δ → ℝ, s = fun d => (sr d : EReal) :=
    ⟨fun d => (s d).toReal, by funext d; exact (EReal.coe_toReal (hs d).2 (hs d).1).symm⟩
  obtain ⟨μr, rfl⟩ : ∃ μr : δ → ℝ, μ = fun d => (μr d : EReal) :=
    ⟨fun d => (μ d).toReal, by funext d; exact (EReal.coe_toReal (hμ d).2 (hμ d).1).symm⟩
  obtain ⟨Tr, rfl⟩ : ∃ Tr : δ → ℝ, T = fun d => (Tr d : EReal) :=
    ⟨fun d => (T d).toReal, by funext d; exact (EReal.coe_toReal (hT d).2 (hT d).1).symm⟩
  obtain ⟨vr, rfl⟩ : ∃ vr : ℝ, v = (vr : EReal) := ⟨v.toReal, (EReal.coe_toReal hv.2 hv.1).symm⟩
  have hvr : vr ≠ 0 := fun h => hv0 (by rw [h, EReal.coe_zero])
  rw [Ideal.div_coe hvr, ← EReal.coe_zero]
  simp only [← EReal.coe_mul, ← coe_sum', ← EReal.coe_add, ← EReal.coe_sub, ← EReal.coe_neg]
  exact ⟨EReal.coe_ne_bot _, EReal.coe_ne_top _⟩

/-- 2048 rows as two halves of two tiles of 512: row (c·2 + j)·512 + r. -/
def rowOf (c j : Fin 2) (r : Fin 512) : Fin 2048 := ⟨(c.val * 2 + j.val) * 512 + r.val, by omega⟩

/-- Halves, tiles and rows of a tile number the 2048 rows one to one. -/
def rowEquiv : Fin 2 × Fin 2 × Fin 512 ≃ Fin 2048 where
  toFun p := rowOf p.1 p.2.1 p.2.2
  invFun n := (⟨n.val / 1024, by omega⟩, ⟨n.val / 512 % 2, by omega⟩, ⟨n.val % 512, by omega⟩)
  left_inv := by
    rintro ⟨c, j, r⟩
    simp only [rowOf]
    ext <;> simp <;> omega
  right_inv := by
    intro n
    simp only [rowOf]
    ext
    simp
    omega

/-- A sum over the 2048 rows is the sum over halves, tiles and rows of a tile. -/
theorem sum_rows (f : Fin 2048 → EReal) :
    ∑ n, f n = ∑ p : Fin 2 × Fin 2 × Fin 512, f (rowOf p.1 p.2.1 p.2.2) := by
  exact (Equiv.sum_comp rowEquiv f).symm

/-- A maximum over the 2048 rows likewise. -/
theorem fold_max_rows (f : Fin 2048 → EReal) :
    (Finset.univ : Finset (Fin 2048)).fold max ⊥ f
      = (Finset.univ : Finset (Fin 2 × Fin 2 × Fin 512)).fold max ⊥ (fun p => f (rowOf p.1 p.2.1 p.2.2)) := by
  rw [← Finset.map_univ_equiv rowEquiv, Finset.fold_map]
  rfl

end Cert.OnlineSoftmax

end
-- ==== Proof.LibTransposedDot.lean ====
/-
  A matrix product M×K by N×K — the right operand contracted on its LAST axis, so that no transpose is formed — into a
  zero accumulator, read at an entry over the extended reals: entry (p, q) is the sum over c of lhs (p, c) · rhs (q, c).
  The contraction index, a one-axis multi-index, is re-indexed to its one coordinate.
-/
import Idealize.ShloMosaic.Lib.ValueIdx
import Idealize.ShloMosaic.PureOps.Ideal.Laws

namespace Cert.LibTransposedDot

open Idealize.ShloMosaic Idealize.ShloMosaic.ValueIdx

/-- The left operand's index at result entry `(p, q)` and contraction coordinate `c` is `(p, c)`. -/
theorem tr_lhsIdx (M K N : ℕ) (p : Fin M) (q : Fin N) (c : Fin K) :
    (DotDims.transposedRhs M K N).lhsIdx (ix2 p q) ((contrEquiv1 (DotDims.transposedRhs M K N) K rfl rfl).symm c) = ix2 p c := by
  funext a
  refine Fin.ext ?_
  match a with
  | ⟨0, _⟩ => rfl
  | ⟨1, _⟩ =>
    show ((DotDims.transposedRhs M K N).lhsIdx (ix2 p q) ((contrEquiv1 (DotDims.transposedRhs M K N) K rfl rfl).symm c) 1).val = c.val
    rw [(DotDims.transposedRhs M K N).lhsIdx_val_of_single (cl := 1) rfl]
    exact contrEquiv1_symm_val (DotDims.transposedRhs M K N) K rfl rfl c

/-- The right operand's index there is `(q, c)`: its rows are the result's columns. -/
theorem tr_rhsIdx (M K N : ℕ) (p : Fin M) (q : Fin N) (c : Fin K) :
    (DotDims.transposedRhs M K N).rhsIdx (ix2 p q) ((contrEquiv1 (DotDims.transposedRhs M K N) K rfl rfl).symm c) = ix2 q c := by
  funext a
  refine Fin.ext ?_
  match a with
  | ⟨0, _⟩ => rfl
  | ⟨1, _⟩ =>
    show ((DotDims.transposedRhs M K N).rhsIdx (ix2 p q) ((contrEquiv1 (DotDims.transposedRhs M K N) K rfl rfl).symm c) 1).val = c.val
    rw [(DotDims.transposedRhs M K N).rhsIdx_val_of_single (cr := 1) rfl]
    exact contrEquiv1_symm_val (DotDims.transposedRhs M K N) K rfl rfl c

/-- Entry `(p, q)` of the product into the zero accumulator is `∑ c, lhs (p, c) · rhs (q, c)`. -/
theorem matmul_transposedRhs_zero_apply {φ₁ φ₂ : FTy} (M K N : ℕ) (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ c : Fin K, lhs (ix2 p c) * rhs (ix2 q c) := by
  rw [Ideal.matmul_constant_zero_apply, ← Equiv.sum_comp (contrEquiv1 (DotDims.transposedRhs M K N) K rfl rfl).symm]
  refine Finset.sum_congr rfl fun c _ => ?_
  rw [tr_lhsIdx, tr_rhsIdx]

end Cert.LibTransposedDot
-- ==== Proof.LibPlainDot.lean ====
/-
  A plain matrix product M×K by K×N into a zero accumulator, read at an entry over the extended reals: entry (p, q)
  is the sum over c of lhs (p, c) · rhs (c, q). The contraction index, a one-axis multi-index, is re-indexed to its
  one coordinate.
-/
import Idealize.ShloMosaic.Lib.ValueIdx
import Idealize.ShloMosaic.PureOps.Ideal.Laws

namespace Cert.LibPlainDot

open Idealize.ShloMosaic Idealize.ShloMosaic.ValueIdx

/-- The left operand's index at result entry `(p, q)` and contraction coordinate `c` is `(p, c)`. -/
theorem plain_lhsIdx (M K N : ℕ) (p : Fin M) (q : Fin N) (c : Fin K) :
    (DotDims.plain M K N).lhsIdx (ix2 p q) ((contrEquiv1 (DotDims.plain M K N) K rfl rfl).symm c) = ix2 p c := by
  funext a
  refine Fin.ext ?_
  match a with
  | ⟨0, _⟩ => rfl
  | ⟨1, _⟩ =>
    show ((DotDims.plain M K N).lhsIdx (ix2 p q) ((contrEquiv1 (DotDims.plain M K N) K rfl rfl).symm c) 1).val = c.val
    rw [(DotDims.plain M K N).lhsIdx_val_of_single (cl := 1) rfl]
    exact contrEquiv1_symm_val (DotDims.plain M K N) K rfl rfl c

/-- The right operand's index there is `(c, q)`. -/
theorem plain_rhsIdx (M K N : ℕ) (p : Fin M) (q : Fin N) (c : Fin K) :
    (DotDims.plain M K N).rhsIdx (ix2 p q) ((contrEquiv1 (DotDims.plain M K N) K rfl rfl).symm c) = ix2 c q := by
  funext a
  refine Fin.ext ?_
  match a with
  | ⟨0, _⟩ =>
    show ((DotDims.plain M K N).rhsIdx (ix2 p q) ((contrEquiv1 (DotDims.plain M K N) K rfl rfl).symm c) 0).val = c.val
    rw [(DotDims.plain M K N).rhsIdx_val_of_single (cr := 0) rfl]
    exact contrEquiv1_symm_val (DotDims.plain M K N) K rfl rfl c
  | ⟨1, _⟩ => rfl

/-- Entry `(p, q)` of a plain product into the zero accumulator is `∑ c, lhs (p, c) · rhs (c, q)`. -/
theorem matmul_plain_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ c : Fin K, lhs (ix2 p c) * rhs (ix2 c q) := by
  rw [Ideal.matmul_constant_zero_apply, ← Equiv.sum_comp (contrEquiv1 (DotDims.plain M K N) K rfl rfl).symm]
  refine Finset.sum_congr rfl fun c _ => ?_
  rw [plain_lhsIdx, plain_rhsIdx]

end Cert.LibPlainDot
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.KerBody.lean ====
/-
  The kernel body's arithmetic at one index, over the extended reals.

  For batch row p the body forms the tile's scores (row q of the tile): (0 − ((term1 p − 2·Σ_c sw(p,c)·tr(q,c))
  + Σ_c ones(c)·((tr(q,c)·M(c))·tr(q,c)))) · inv2v, takes the running maximum, normaliser and weighted sum one
  tile further, and these three updates are exactly the online-softmax step on the row's scores.
-/
import proofs.«134671_j4312147165196_2_alg».proof.Proof.Gen.KernelIdeal.Skeleton
import proofs.«134671_j4312147165196_2_alg».proof.Proof.SoftmaxLaw
import proofs.«134671_j4312147165196_2_alg».proof.Proof.LibTransposedDot
import proofs.«134671_j4312147165196_2_alg».proof.Proof.LibPlainDot
import proofs.«134671_j4312147165196_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.OnlineSoftmax

/-- Inserting lane k into row p of an [8] index gives (p, k). -/
theorem lift_row (p : Fin 8) (k : Fin 512) : reduces_S8x512_S8.lift (ix1 p) k = ix2 p k := by
  funext a
  match a with
  | ⟨0, _⟩ => rfl
  | ⟨1, _⟩ => rfl

/-- The f32 word of −∞. -/
theorem ofBits_neg_inf : Ideal.ofBits .f32 0xFF800000#32 = ⊥ := by simp [Ideal.ofBits, Ideal.ieee]

variable (tr : Vec Ideal S512x3072 .f32) (sw : Vec Ideal S8x3072 .f32) (M ones : Vec Ideal S1x3072 .f32)
  (inv : Vec Ideal S1x1 .f32) (t1 : Vec Ideal S8x1 .f32)

/-- The score the body gives row q of the tile for batch row p. -/
def kscore (p : Fin 8) (q : Fin 512) : EReal :=
  (Ideal.ofBits .f32 0x00000000#32
    - ((t1 (ix2 p 0) - Ideal.ofBits .f32 0x40000000#32 * ∑ c : Fin 3072, sw (ix2 p c) * tr (ix2 q c))
        + ∑ c : Fin 3072, ones (ix2 0 c) * ((tr (ix2 q c) * M (ix2 0 c)) * tr (ix2 q c)))) * inv (ix2 0 0)

theorem cross_apply (a : FVec Ideal S8x3072 .f32) (b : FVec Ideal S512x3072 .f32) (p : Fin 8) (q : Fin 512) :
    matmul dot_S8x3072_S512x3072_S8x512_1_1_0_0_n_n (some .fp32) a b (constant S8x512 .f32 0x00000000#32) (ix2 p q)
      = ∑ c : Fin 3072, a (ix2 p c) * b (ix2 q c) :=
  Cert.LibTransposedDot.matmul_transposedRhs_zero_apply 8 3072 512 (some .fp32) a b p q

theorem term3_apply (a : FVec Ideal S1x3072 .f32) (b : FVec Ideal S512x3072 .f32) (p : Fin 1) (q : Fin 512) :
    matmul dot_S1x3072_S512x3072_S1x512_1_1_0_0_n_n (some .fp32) a b (constant S1x512 .f32 0x00000000#32) (ix2 p q)
      = ∑ c : Fin 3072, a (ix2 p c) * b (ix2 q c) :=
  Cert.LibTransposedDot.matmul_transposedRhs_zero_apply 1 3072 512 (some .fp32) a b p q

theorem pv_apply (a : FVec Ideal S8x512 .f32) (b : FVec Ideal S512x3072 .f32) (p : Fin 8) (d : Fin 3072) :
    matmul dot_S8x512_S512x3072_S8x3072_1_0_0_1_n_n (some .fp32) a b (constant S8x3072 .f32 0x00000000#32) (ix2 p d)
      = ∑ k : Fin 512, a (ix2 p k) * b (ix2 k d) :=
  Cert.LibPlainDot.matmul_plain_zero_apply 8 512 3072 (some .fp32) a b p d

theorem extract00 (v : Vec Ideal S1x1 .f32) : extractAt ![0, 0] v inpos_S1x1_p0_0 = v (ix2 0 0) := by
  unfold extractAt
  congr 1
  funext a
  match a with
  | ⟨0, _⟩ => rfl
  | ⟨1, _⟩ => rfl

/-- A row's maximum from −∞ over the 512 lanes. -/
theorem rowmax_apply (src : FVec Ideal S8x512 .f32) (hacc : (0xFF800000#32 : BitVec 32) = 0xFF800000#32) (p : Fin 8) :
    multiReduction .maximumf [1] S8 src 0xFF800000#32 reduces_S8x512_S8 (.inl rfl) hacc (ix1 p)
      = (Finset.univ : Finset (Fin 512)).fold max ⊥ (fun k => src (ix2 p k)) := by
  refine (Ideal.multiReduction_maximumf_single src 0xFF800000#32 reduces_S8x512_S8 (.inl rfl) hacc (ix1 p)).trans ?_
  show (Finset.univ : Finset (Fin 512)).fold max (Ideal.ofBits .f32 0xFF800000#32) _ = _
  rw [ofBits_neg_inf]
  congr 1
  funext k
  exact congrArg src (lift_row p k)

/-- A row's sum over the 512 lanes. -/
theorem rowsum_apply (src : FVec Ideal S8x512 .f32) (hacc : (0x00000000#32 : BitVec 32) = 0x00000000#32) (p : Fin 8) :
    multiReduction .add [1] S8 src 0x00000000#32 reduces_S8x512_S8 (.inl rfl) hacc (ix1 p)
      = ∑ k : Fin 512, src (ix2 p k) := by
  refine (Ideal.multiReduction_add_single src 0x00000000#32 reduces_S8x512_S8 (.inl rfl) hacc (ix1 p)).trans ?_
  exact Finset.sum_congr rfl fun k _ => congrArg src (lift_row p k)

/-- The scores payload at (p, q). -/
theorem pay12_apply (p : Fin 8) (q : Fin 512) :
    k0_pay12 (F := Ideal) tr sw M ones inv t1 (ix2 p q) = kscore tr sw M ones inv t1 p q := by
  unfold k0_pay12 k0_pay11 kscore
  simp only [shapeCast_self, mulf_apply, subf_apply, addf_apply, broadcast_apply, cross_apply, term3_apply,
    broadcastTo_a1_ab_apply, broadcastTo_1b_ab_apply]
  rw [extract00]
  rfl

/-- The scores of batch row p over the tile's rows. -/
def rowScores (p : Fin 8) : Fin 512 → EReal := fun q => kscore tr sw M ones inv t1 p q

/-- The running maximum after the tile is the online step's. -/
theorem pay13_apply (mp : Vec Ideal S8x1 .f32) (p : Fin 8) :
    k0_pay13 (F := Ideal) tr sw M ones inv t1 mp (ix2 p 0) = newM (mp (ix2 p 0)) (rowScores tr sw M ones inv t1 p) := by
  unfold k0_pay13
  simp only [maximumf_apply, shapeCast_a_a1_apply]
  refine (congrArg (max (mp (ix2 p 0))) (rowmax_apply _ _ p)).trans ?_
  unfold newM tmax
  congr 2
  funext k
  exact pay12_apply tr sw M ones inv t1 p k

/-- The rescaling factor exp (m − m'). -/
theorem pay14_apply (mp : Vec Ideal S8x1 .f32) (p : Fin 8) :
    k0_pay14 (F := Ideal) tr sw M ones inv t1 mp (ix2 p 0)
      = Ideal.exp (mp (ix2 p 0) - newM (mp (ix2 p 0)) (rowScores tr sw M ones inv t1 p)) := by
  unfold k0_pay14
  show FloatOps.exp (FloatOps.subf (mp (ix2 p 0)) (k0_pay13 (F := Ideal) tr sw M ones inv t1 mp (ix2 p 0))) = _
  rw [pay13_apply]
  rfl

/-- The tile's weights exp (score − m'). -/
theorem pay1_apply (v29 : FVec Ideal S8x512 .f32) (v33 : FVec Ideal S8x1 .f32) (p : Fin 8) (q : Fin 512) :
    k0_pay1 (F := Ideal) v29 v33 (ix2 p q) = Ideal.exp (v29 (ix2 p q) - v33 (ix2 p 0)) := by
  unfold k0_pay1
  show FloatOps.exp (FloatOps.subf (v29 (ix2 p q)) (broadcastTo S8x512 v33 broadcasts_S8x1_S8x512 (ix2 p q))) = _
  rw [broadcastTo_a1_ab_apply]
  rfl

/-- The running normaliser after the tile is the online step's. -/
theorem pay2_apply (mp lp : Vec Ideal S8x1 .f32) (p : Fin 8) :
    k0_pay2 (F := Ideal) (k0_pay12 tr sw M ones inv t1) (k0_pay13 tr sw M ones inv t1 mp) (k0_pay14 tr sw M ones inv t1 mp) lp (ix2 p 0)
      = newL (mp (ix2 p 0)) (lp (ix2 p 0)) (rowScores tr sw M ones inv t1 p) := by
  unfold k0_pay2
  simp only [shapeCast_self, addf_apply, mulf_apply, shapeCast_a_a1_apply]
  refine (congrArg (_ + ·) (rowsum_apply _ _ p)).trans ?_
  rw [pay14_apply]
  unfold newL
  congr 1
  refine Finset.sum_congr rfl fun k _ => ?_
  rw [pay1_apply, pay12_apply, pay13_apply]
  rfl

/-- The running weighted sum after the tile, at column d, is the online step's with the tile's column d as values. -/
theorem pay3_apply (mp : Vec Ideal S8x1 .f32) (ap : Vec Ideal S8x3072 .f32) (p : Fin 8) (d : Fin 3072) :
    k0_pay3 (F := Ideal) (k0_pay11 tr) (k0_pay12 tr sw M ones inv t1) (k0_pay13 tr sw M ones inv t1 mp) (k0_pay14 tr sw M ones inv t1 mp) ap (ix2 p d)
      = newA (mp (ix2 p 0)) (ap (ix2 p d)) (rowScores tr sw M ones inv t1 p) (fun k => tr (ix2 k d)) := by
  unfold k0_pay3 k0_pay11
  simp only [shapeCast_self, addf_apply, mulf_apply, broadcastTo_a1_ab_apply, pv_apply]
  rw [pay14_apply]
  unfold newA
  congr 1
  refine Finset.sum_congr rfl fun k _ => ?_
  rw [pay1_apply, pay12_apply, pay13_apply]
  rfl

/-- The stored maximum is the payload itself. -/
theorem pay4_apply (v : FVec Ideal S8x1 .f32) : k0_pay4 (F := Ideal) v = v := by
  unfold k0_pay4; exact shapeCast_self _ _

/-- The state the first tile starts from: −∞, 0, 0. -/
theorem pay8_apply (i : S8x1.Idx) : k0_pay8 (F := Ideal) i = ⊥ := by
  unfold k0_pay8
  rw [shapeCast_self]
  exact ofBits_neg_inf
theorem pay9_apply (i : S8x1.Idx) : k0_pay9 (F := Ideal) i = 0 := by
  unfold k0_pay9
  rw [shapeCast_self]
  exact Ideal.ofBits_zero_f32
theorem pay10_apply (i : S8x3072.Idx) : k0_pay10 (F := Ideal) i = 0 := by
  unfold k0_pay10
  rw [shapeCast_self]
  exact Ideal.ofBits_zero_f32

/-- The flushed copies: [8,1] → [1,8,1] and [8,3072] → [1,8,3072] put a unit axis in front. -/
theorem pay5_apply (v : Vec Ideal S8x1 .f32) (u : Fin 1) (p : Fin 8) (z : Fin 1) : k0_pay5 (F := Ideal) v (ix3 u p z) = v (ix2 p z) := by
  unfold k0_pay5; exact shapeCast_ab_1ab_apply v _ u p z
theorem pay6_apply (v : Vec Ideal S8x1 .f32) (u : Fin 1) (p : Fin 8) (z : Fin 1) : k0_pay6 (F := Ideal) v (ix3 u p z) = v (ix2 p z) := by
  unfold k0_pay6; exact shapeCast_ab_1ab_apply v _ u p z
theorem pay7_apply (v : Vec Ideal S8x3072 .f32) (u : Fin 1) (p : Fin 8) (d : Fin 3072) : k0_pay7 (F := Ideal) v (ix3 u p d) = v (ix2 p d) := by
  unfold k0_pay7; exact shapeCast_ab_1ab_apply v _ u p d

end Cert.KernelIdeal.Body

end
-- ==== Proof.KerState.lean ====
/-
  The carried state after two tiles, read at an index, over the extended reals.

  One tile's step moves the running maximum, normaliser and weighted sum of batch row p exactly as the
  online-softmax step does on the row's scores (the weighted sum at column d with the tile's column d as values),
  and a half starts from −∞, 0, 0. Two steps from the start are therefore the half's maximum, normaliser and
  weighted sum over the two tiles' scores.
-/
import proofs.«134671_j4312147165196_2_alg».proof.Proof.KerStep
import proofs.«134671_j4312147165196_2_alg».proof.Proof.KerBody

noncomputable section

namespace Cert.KernelIdeal.Arrays

open Cert.KernelIdeal Cert.KernelIdeal.Gen Idealize.ShloMosaic Idealize.ShloMosaic.ValueIdx Cert.OnlineSoftmax

variable (a0 : Vec Ideal S8x3072 .f32) (a1 : Vec Ideal S8x1 .f32) (a2 a3 : Vec Ideal S1x3072 .f32)
  (a4 : Vec Ideal S1x1 .f32) (a5 : Vec Ideal S512x3072 .f32)
  (b0 : Vec Ideal S8x3072 .f32) (b1 : Vec Ideal S8x1 .f32) (b2 b3 : Vec Ideal S1x3072 .f32)
  (b4 : Vec Ideal S1x1 .f32) (b5 : Vec Ideal S512x3072 .f32)

/-! ### One step, read at an index -/

/-- The running maximum after a tile. -/
theorem step_max (s : St Ideal) (p : Fin 8) :
    (step a0 a1 a2 a3 a4 a5 s).1 (ix2 p 0)
      = newM (s.1 (ix2 p 0)) (Body.rowScores a5 a0 a2 a3 a4 a1 p) := by
  show k0_pay4 (F := Ideal) (k0_pay13 a5 a0 a2 a3 a4 a1 s.1) (ix2 p 0) = _
  rw [Body.pay4_apply, Body.pay13_apply]

/-- The running normaliser after a tile. -/
theorem step_norm (s : St Ideal) (p : Fin 8) :
    (step a0 a1 a2 a3 a4 a5 s).2.1 (ix2 p 0)
      = newL (s.1 (ix2 p 0)) (s.2.1 (ix2 p 0)) (Body.rowScores a5 a0 a2 a3 a4 a1 p) :=
  Body.pay2_apply a5 a0 a2 a3 a4 a1 s.1 s.2.1 p

/-- The running weighted sum after a tile, at column d. -/
theorem step_acc (s : St Ideal) (p : Fin 8) (d : Fin 3072) :
    (step a0 a1 a2 a3 a4 a5 s).2.2 (ix2 p d)
      = newA (s.1 (ix2 p 0)) (s.2.2 (ix2 p d)) (Body.rowScores a5 a0 a2 a3 a4 a1 p) (fun k => a5 (ix2 k d)) :=
  Body.pay3_apply a5 a0 a2 a3 a4 a1 s.1 s.2.2 p d

/-! ### The start: −∞, 0, 0 -/

theorem init_max (i : S8x1.Idx) : (init (F := Ideal)).1 i = ⊥ := Body.pay8_apply i
theorem init_norm (i : S8x1.Idx) : (init (F := Ideal)).2.1 i = 0 := Body.pay9_apply i
theorem init_acc (i : S8x3072.Idx) : (init (F := Ideal)).2.2 i = 0 := Body.pay10_apply i

/-! ### Two tiles from the start are a half -/

/-- The maximum after two tiles is the half's maximum. -/
theorem half_max (p : Fin 8) :
    (step b0 b1 b2 b3 b4 b5 (step a0 a1 a2 a3 a4 a5 init)).1 (ix2 p 0)
      = halfM ![Body.rowScores a5 a0 a2 a3 a4 a1 p, Body.rowScores b5 b0 b2 b3 b4 b1 p] := by
  rw [step_max, step_max, init_max]
  rfl

/-- The normaliser after two tiles is the half's normaliser. -/
theorem half_norm (p : Fin 8) :
    (step b0 b1 b2 b3 b4 b5 (step a0 a1 a2 a3 a4 a5 init)).2.1 (ix2 p 0)
      = halfL ![Body.rowScores a5 a0 a2 a3 a4 a1 p, Body.rowScores b5 b0 b2 b3 b4 b1 p] := by
  rw [step_norm, step_max, step_norm, init_max, init_norm]
  rfl

/-- The weighted sum after two tiles, at column d, is the half's weighted sum with the tiles' columns d as values. -/
theorem half_acc (p : Fin 8) (d : Fin 3072) :
    (step b0 b1 b2 b3 b4 b5 (step a0 a1 a2 a3 a4 a5 init)).2.2 (ix2 p d)
      = halfA ![Body.rowScores a5 a0 a2 a3 a4 a1 p, Body.rowScores b5 b0 b2 b3 b4 b1 p]
          ![fun k => a5 (ix2 k d), fun k => b5 (ix2 k d)] := by
  rw [step_acc, step_max, step_acc, init_max, init_acc]
  rfl

/-- The three together. -/
theorem half_state (p : Fin 8) (d : Fin 3072) :
    (step b0 b1 b2 b3 b4 b5 (step a0 a1 a2 a3 a4 a5 init)).1 (ix2 p 0)
        = halfM ![Body.rowScores a5 a0 a2 a3 a4 a1 p, Body.rowScores b5 b0 b2 b3 b4 b1 p]
      ∧ (step b0 b1 b2 b3 b4 b5 (step a0 a1 a2 a3 a4 a5 init)).2.1 (ix2 p 0)
        = halfL ![Body.rowScores a5 a0 a2 a3 a4 a1 p, Body.rowScores b5 b0 b2 b3 b4 b1 p]
      ∧ (step b0 b1 b2 b3 b4 b5 (step a0 a1 a2 a3 a4 a5 init)).2.2 (ix2 p d)
        = halfA ![Body.rowScores a5 a0 a2 a3 a4 a1 p, Body.rowScores b5 b0 b2 b3 b4 b1 p]
            ![fun k => a5 (ix2 k d), fun k => b5 (ix2 k d)] :=
  ⟨half_max a0 a1 a2 a3 a4 a5 b0 b1 b2 b3 b4 b5 p, half_norm a0 a1 a2 a3 a4 a5 b0 b1 b2 b3 b4 b5 p,
    half_acc a0 a1 a2 a3 a4 a5 b0 b1 b2 b3 b4 b5 p d⟩

end Cert.KernelIdeal.Arrays

end
-- ==== Proof.Spec.lean ====
/-
  What both programs compute, written once over the extended reals.

  From the one entry g of the noise-level input: γ = 25 g − 15, ṽ = exp (−γ), the state scale √(1 + ṽ), the
  score divisor 2 ṽ, the variance 1 / (1 + exp (−(−γ))) and α = √(1 − variance), σ = √variance.
  The state is the input scaled; the score of training row n for batch row b is minus the masked squared
  distance Σ ((state − row)·mask)² over the 3·32·32 pixel coordinates, divided by 2 ṽ; the denoised image is the
  softmax-weighted mean of the training rows under those scores; the result is ((input − α · denoised) / σ) · mask.
-/
import Idealize.ShloMosaic.PureOps.Ideal
import Idealize.ShloMosaic.Lib.ValueIdx

noncomputable section

namespace Cert.Spec

open Idealize.ShloMosaic Idealize.ShloMosaic.ValueIdx

/-- The pixel coordinates (channel, row, column). -/
abbrev Pix : Type := Fin 3 × Fin 32 × Fin 32

/-- γ = g · 25 + (−15), the literals as their f32 words. -/
def gamma (g : EReal) : EReal := g * Ideal.ofBits .f32 0x41C80000#32 + Ideal.ofBits .f32 0xC1700000#32
/-- ṽ = exp (−γ). -/
def vtilde (g : EReal) : EReal := Ideal.exp (-(gamma g))
/-- The state scale √(1 + ṽ). -/
def scale (g : EReal) : EReal := Ideal.sqrt (Ideal.ofBits .f32 0x3F800000#32 + vtilde g)
/-- The score divisor 2 ṽ. -/
def twoV (g : EReal) : EReal := Ideal.ofBits .f32 0x40000000#32 * vtilde g
/-- The variance, the logistic function of −γ spelt out: 1 / (1 + exp (−(−γ))). -/
def variance (g : EReal) : EReal :=
  Ideal.div (Ideal.ofBits .f32 0x3F800000#32) (Ideal.ofBits .f32 0x3F800000#32 + Ideal.exp (-(-(gamma g))))
/-- α = √(1 − variance). -/
def alpha (g : EReal) : EReal := Ideal.sqrt (Ideal.ofBits .f32 0x3F800000#32 - variance g)
/-- σ = √variance. -/
def sigma (g : EReal) : EReal := Ideal.sqrt (variance g)

variable (x0 : (⟨4, ![8, 3, 32, 32]⟩ : Shape).Idx → EReal) (g : EReal)
  (x2 : (⟨3, ![3, 32, 32]⟩ : Shape).Idx → EReal) (x3 : (⟨4, ![2048, 3, 32, 32]⟩ : Shape).Idx → EReal)

/-- The state at batch row b and pixel p. -/
def state (b : Fin 8) (p : Pix) : EReal := x0 (ix4 b p.1 p.2.1 p.2.2) * scale g
/-- The mask at pixel p. -/
def mask (p : Pix) : EReal := x2 (ix3 p.1 p.2.1 p.2.2)
/-- Training row n at pixel p. -/
def train (n : Fin 2048) (p : Pix) : EReal := x3 (ix4 n p.1 p.2.1 p.2.2)

/-- The score of training row n for batch row b: −(Σ_p ((state − row)·mask)²) / (2 ṽ), the sum from 0. -/
def score (b : Fin 8) (n : Fin 2048) : EReal :=
  Ideal.div (-(0 + ∑ p : Pix, ((state x0 g b p - train x3 n p) * mask x2 p) * ((state x0 g b p - train x3 n p) * mask x2 p))) (twoV g)

/-- The largest score of batch row b (from −∞). -/
def scoreMax (b : Fin 8) : EReal := (Finset.univ : Finset (Fin 2048)).fold max ⊥ (score x0 g x2 x3 b)

/-- The softmax-weighted mean of the training rows at pixel p, as the one-pass reference forms it: weights
    exp (score − max) / (0 + Σ exp (score − max)), the mean summed from 0. -/
def denoised (b : Fin 8) (p : Pix) : EReal :=
  0 + ∑ n : Fin 2048,
    Ideal.div (Ideal.exp (score x0 g x2 x3 b n - scoreMax x0 g x2 x3 b))
      (0 + ∑ n' : Fin 2048, Ideal.exp (score x0 g x2 x3 b n' - scoreMax x0 g x2 x3 b)) * train x3 n p

/-- The last stage, common to both programs: ((input − α · d) / σ) · mask. -/
def finish (xin d μ : EReal) : EReal := Ideal.div (xin - alpha g * d) (sigma g) * μ

end Cert.Spec

end
-- ==== Proof.KerSpec.lean ====
/-
  What the kernel computes, in its own arrangement: pixels flattened to one axis of 3072 (channel·1024 + row·32 +
  column), the squared distance expanded as term1 − 2·cross + term3 with the mask squared folded into the state,
  the scores multiplied by 1 / (2 ṽ), and the softmax-weighted mean accumulated over two halves of two tiles of
  512 training rows each and merged.
-/
import proofs.«134671_j4312147165196_2_alg».proof.Proof.Spec
import proofs.«134671_j4312147165196_2_alg».proof.Proof.SoftmaxLaw

noncomputable section

namespace Cert.KerSpec

open Idealize.ShloMosaic Idealize.ShloMosaic.ValueIdx Cert.Spec Cert.OnlineSoftmax

/-- The flat position of a pixel. -/
def flat (p : Pix) : Fin 3072 := ⟨p.1.val * 1024 + p.2.1.val * 32 + p.2.2.val, by
  have := p.1.isLt; have := p.2.1.isLt; have := p.2.2.isLt; omega⟩
/-- The pixel at a flat position. -/
def pix (d : Fin 3072) : Pix :=
  (⟨d.val / 1024, by have := d.isLt; omega⟩, ⟨d.val / 32 % 32, Nat.mod_lt _ (by decide)⟩, ⟨d.val % 32, Nat.mod_lt _ (by decide)⟩)

variable (x0 : (⟨4, ![8, 3, 32, 32]⟩ : Shape).Idx → EReal) (g : EReal)
  (x2 : (⟨3, ![3, 32, 32]⟩ : Shape).Idx → EReal) (x3 : (⟨4, ![2048, 3, 32, 32]⟩ : Shape).Idx → EReal)

/-- State, mask and training row at a flat position. -/
def st (b : Fin 8) (d : Fin 3072) : EReal := state x0 g b (pix d)
def mk (d : Fin 3072) : EReal := mask x2 (pix d)
def tn (n : Fin 2048) (d : Fin 3072) : EReal := train x3 n (pix d)

/-- term1 of batch row b: Σ_d (state·mask²)·state, summed from the f32 word of 0. -/
def term1 (b : Fin 8) : EReal :=
  Ideal.ofBits .f32 0x00000000#32 + ∑ d : Fin 3072, (st x0 g b d * (mk x2 d * mk x2 d)) * st x0 g b d

/-- The kernel's score of training row n for batch row b. -/
def kscore (b : Fin 8) (n : Fin 2048) : EReal :=
  (Ideal.ofBits .f32 0x00000000#32
    - ((term1 x0 g x2 b
          - Ideal.ofBits .f32 0x40000000#32 * ∑ d : Fin 3072, (st x0 g b d * (mk x2 d * mk x2 d)) * tn x3 n d)
        + ∑ d : Fin 3072, Ideal.ofBits .f32 0x3F800000#32 * ((tn x3 n d * (mk x2 d * mk x2 d)) * tn x3 n d)))
    * Ideal.div (Ideal.ofBits .f32 0x3F800000#32) (twoV g)

/-- Scores and values by half, tile and row of the tile. -/
def kx (b : Fin 8) : Fin 2 → Fin 2 → Fin 512 → EReal := fun c j r => kscore x0 g x2 x3 b (rowOf c j r)
def kt (d : Fin 3072) : Fin 2 → Fin 2 → Fin 512 → EReal := fun c j r => tn x3 (rowOf c j r) d

/-- The merged online softmax mean at flat position d. -/
def kden (b : Fin 8) (d : Fin 3072) : EReal :=
  Ideal.div
    (Ideal.exp (halfM (kx x0 g x2 x3 b 0) - max (halfM (kx x0 g x2 x3 b 0)) (halfM (kx x0 g x2 x3 b 1))) * halfA (kx x0 g x2 x3 b 0) (kt x3 d 0)
      + Ideal.exp (halfM (kx x0 g x2 x3 b 1) - max (halfM (kx x0 g x2 x3 b 0)) (halfM (kx x0 g x2 x3 b 1))) * halfA (kx x0 g x2 x3 b 1) (kt x3 d 1))
    (Ideal.exp (halfM (kx x0 g x2 x3 b 0) - max (halfM (kx x0 g x2 x3 b 0)) (halfM (kx x0 g x2 x3 b 1))) * halfL (kx x0 g x2 x3 b 0)
      + Ideal.exp (halfM (kx x0 g x2 x3 b 1) - max (halfM (kx x0 g x2 x3 b 0)) (halfM (kx x0 g x2 x3 b 1))) * halfL (kx x0 g x2 x3 b 1))

end Cert.KerSpec

end
-- ==== Proof.KerHostPre.lean ====
/-
  The host operations the kernel's program runs before its region, read at an index over the extended reals.

  From the one entry g of the noise-level input the host forms the same scalars as the specification (γ, ṽ, √(1 + ṽ),
  the variance and its two square roots, and 1 / (2 ṽ)); it scales the input, flattens the three pixel axes of the
  input, the mask and the training rows to one axis of 3072 (row-major: channel·1024 + row·32 + column), squares the
  mask, multiplies the state by the squared mask, and sums (state·mask²)·state along each batch row. The definitions
  below are those operations' terms, one per array the region reads; each is then read at explicit coordinates.
-/
import proofs.«134671_j4312147165196_2_alg».proof.Proof.Gen.KernelIdeal.Frame
import proofs.«134671_j4312147165196_2_alg».proof.Proof.KerSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo

/-! ## The operations' terms -/

section Terms

variable {F : FTy → Type} [FloatOps F]
variable (a0 : (⟨S8x3x32x32, .f32⟩ : BufTy).Contents (Elt F)) (a1 : (⟨S1, .f32⟩ : BufTy).Contents (Elt F))
  (a2 : (⟨S3x32x32, .f32⟩ : BufTy).Contents (Elt F)) (a3 : (⟨S2048x3x32x32, .f32⟩ : BufTy).Contents (Elt F))

/-- γ = g · 25 + (−15). -/
def hGamma : (⟨S_, .f32⟩ : BufTy).Contents (Elt F) :=
  addf (mulf (shapeCast _ a1 shapeCasts_S1_S_) (constant S_ .f32 0x41C80000#32)) (constant S_ .f32 0xC1700000#32)
/-- ṽ = exp (−γ). -/
def hVtilde : (⟨S_, .f32⟩ : BufTy).Contents (Elt F) := Host.exp (Host.negf (hGamma (F := F) a1))
/-- √(1 + ṽ). -/
def hScale : (⟨S_, .f32⟩ : BufTy).Contents (Elt F) :=
  Host.sqrt (addf (constant S_ .f32 0x3F800000#32) (hVtilde (F := F) a1))
/-- The variance 1 / (1 + exp (−(−γ))). -/
def hVariance : (⟨S_, .f32⟩ : BufTy).Contents (Elt F) :=
  Host.divf (constant S_ .f32 0x3F800000#32)
    (addf (constant S_ .f32 0x3F800000#32) (Host.exp (Host.negf (Host.negf (hGamma (F := F) a1)))))
/-- α = √(1 − variance). -/
def hAlpha : (⟨S_, .f32⟩ : BufTy).Contents (Elt F) :=
  Host.sqrt (subf (constant S_ .f32 0x3F800000#32) (hVariance (F := F) a1))
/-- σ = √variance. -/
def hSigma : (⟨S_, .f32⟩ : BufTy).Contents (Elt F) := Host.sqrt (hVariance (F := F) a1)
/-- The scaled input: the input times √(1 + ṽ). -/
def hScaled : (⟨S8x3x32x32, .f32⟩ : BufTy).Contents (Elt F) :=
  mulf (a0) (broadcastInDim S8x3x32x32 ![] bcast_S_S8x3x32x32 (hScale (F := F) a1))
/-- The state, flattened: the pixel axes as one. -/
def hState : (⟨S8x3072, .f32⟩ : BufTy).Contents (Elt F) :=
  shapeCast _ (hScaled (F := F) a0 a1) shapeCasts_S8x3x32x32_S8x3072
/-- The mask, flattened, as one row. -/
def hMaskRow : (⟨S1x3072, .f32⟩ : BufTy).Contents (Elt F) := shapeCast _ (a2) shapeCasts_S3x32x32_S1x3072
/-- The squared mask, flattened, as one row. -/
def hMask2 : (⟨S1x3072, .f32⟩ : BufTy).Contents (Elt F) := mulf (hMaskRow (F := F) a2) (hMaskRow (F := F) a2)
/-- The state times the squared mask. -/
def hSm : (⟨S8x3072, .f32⟩ : BufTy).Contents (Elt F) :=
  mulf (hState (F := F) a0 a1) (broadcastInDim S8x3072 ![0, 1] bcast_S1x3072_S8x3072_0_1 (hMask2 (F := F) a2))
/-- The sum of (state·mask²)·state along each batch row. -/
def hRowSum : (⟨S8, .f32⟩ : BufTy).Contents (Elt F) :=
  Host.reduceAdd (mulf (hSm (F := F) a0 a1 a2) (hState (F := F) a0 a1)) (constant S_ .f32 0x00000000#32) reducesTo_S8x3072_S8_d1 h_S_
/-- That sum as a column. -/
def hTerm1 : (⟨S8x1, .f32⟩ : BufTy).Contents (Elt F) :=
  broadcastInDim S8x1 ![0] bcast_S8_S8x1_0 (hRowSum (F := F) a0 a1 a2)
/-- The training rows, flattened. -/
def hTrain : (⟨S2048x3072, .f32⟩ : BufTy).Contents (Elt F) := shapeCast _ (a3) shapeCasts_S2048x3x32x32_S2048x3072
/-- A row of ones. -/
def hOnes : (⟨S1x3072, .f32⟩ : BufTy).Contents (Elt F) :=
  broadcastInDim S1x3072 ![] bcast_S_S1x3072 (constant S_ .f32 0x3F800000#32)
/-- 1 / (2 ṽ). -/
def hInv : (⟨S_, .f32⟩ : BufTy).Contents (Elt F) :=
  Host.divf (constant S_ .f32 0x3F800000#32) (mulf (constant S_ .f32 0x40000000#32) (hVtilde (F := F) a1))
/-- 1 / (2 ṽ), as a one-by-one array. -/
def hInv2v : (⟨S1x1, .f32⟩ : BufTy).Contents (Elt F) := shapeCast _ (hInv (F := F) a1) shapeCasts_S_S1x1

end Terms

/-! ## The terms at an index, over the extended reals -/

section AtIndex

variable (a0 : (⟨S8x3x32x32, .f32⟩ : BufTy).Contents (Elt Ideal)) (a1 : (⟨S1, .f32⟩ : BufTy).Contents (Elt Ideal))
  (a2 : (⟨S3x32x32, .f32⟩ : BufTy).Contents (Elt Ideal)) (a3 : (⟨S2048x3x32x32, .f32⟩ : BufTy).Contents (Elt Ideal))

/-- The vector of one entry has one index. -/
theorem idx_S1_eq (k : S1.Idx) : k = ix1 (0 : Fin 1) := by
  funext d
  match d with
  | ⟨0, _⟩ => exact Fin.ext (by have h : (k 0).val < 1 := (k 0).isLt; show (k 0).val = 0; omega)

/-- γ. -/
theorem hGamma_apply (i : S_.Idx) : hGamma (F := Ideal) a1 i = Cert.Spec.gamma (a1 (ix1 (0 : Fin 1))) := by
  have e : shapeCast S_ a1 shapeCasts_S1_S_ i = a1 (ix1 (0 : Fin 1)) := by
    unfold shapeCast
    exact congrArg a1 (idx_S1_eq _)
  show shapeCast S_ a1 shapeCasts_S1_S_ i * Ideal.ofBits .f32 0x41C80000#32 + Ideal.ofBits .f32 0xC1700000#32 = _
  rw [e]
  rfl

/-- ṽ. -/
theorem hVtilde_apply (i : S_.Idx) : hVtilde (F := Ideal) a1 i = Cert.Spec.vtilde (a1 (ix1 (0 : Fin 1))) := by
  show Ideal.exp (-(hGamma (F := Ideal) a1 i)) = _
  rw [hGamma_apply]
  rfl

/-- √(1 + ṽ). -/
theorem hScale_apply (i : S_.Idx) : hScale (F := Ideal) a1 i = Cert.Spec.scale (a1 (ix1 (0 : Fin 1))) := by
  show Ideal.sqrt (Ideal.ofBits .f32 0x3F800000#32 + hVtilde (F := Ideal) a1 i) = _
  rw [hVtilde_apply]
  rfl

/-- The variance. -/
theorem hVariance_apply (i : S_.Idx) : hVariance (F := Ideal) a1 i = Cert.Spec.variance (a1 (ix1 (0 : Fin 1))) := by
  show Ideal.div (Ideal.ofBits .f32 0x3F800000#32) (Ideal.ofBits .f32 0x3F800000#32 + Ideal.exp (-(-(hGamma (F := Ideal) a1 i)))) = _
  rw [hGamma_apply]
  rfl

/-- α. -/
theorem hAlpha_apply (i : S_.Idx) : hAlpha (F := Ideal) a1 i = Cert.Spec.alpha (a1 (ix1 (0 : Fin 1))) := by
  show Ideal.sqrt (Ideal.ofBits .f32 0x3F800000#32 - hVariance (F := Ideal) a1 i) = _
  rw [hVariance_apply]
  rfl

/-- σ. -/
theorem hSigma_apply (i : S_.Idx) : hSigma (F := Ideal) a1 i = Cert.Spec.sigma (a1 (ix1 (0 : Fin 1))) := by
  show Ideal.sqrt (hVariance (F := Ideal) a1 i) = _
  rw [hVariance_apply]
  rfl

/-- 1 / (2 ṽ). -/
theorem hInv_apply (i : S_.Idx) :
    hInv (F := Ideal) a1 i = Ideal.div (Ideal.ofBits .f32 0x3F800000#32) (Cert.Spec.twoV (a1 (ix1 (0 : Fin 1)))) := by
  show Ideal.div (Ideal.ofBits .f32 0x3F800000#32) (Ideal.ofBits .f32 0x40000000#32 * hVtilde (F := Ideal) a1 i) = _
  rw [hVtilde_apply]
  rfl

/-- The flat position d of batch row b is the pixel of d: the two row-major positions agree. -/
theorem flat4_pos (b : Fin 8) (d : Fin 3072) :
    (S8x3x32x32.rowMajor (ix4 b (Cert.KerSpec.pix d).1 (Cert.KerSpec.pix d).2.1 (Cert.KerSpec.pix d).2.2)).val
      = (S8x3072.rowMajor (ix2 b d)).val := by
  rw [Shape.rowMajor_val_four, Shape.rowMajor_val_two]
  show ((b.val * 3 + d.val / 1024) * 32 + d.val / 32 % 32) * 32 + d.val % 32 = b.val * 3072 + d.val
  have := d.isLt
  omega

/-- The same for the training rows. -/
theorem flat4_pos_train (n : Fin 2048) (d : Fin 3072) :
    (S2048x3x32x32.rowMajor (ix4 n (Cert.KerSpec.pix d).1 (Cert.KerSpec.pix d).2.1 (Cert.KerSpec.pix d).2.2)).val
      = (S2048x3072.rowMajor (ix2 n d)).val := by
  rw [Shape.rowMajor_val_four, Shape.rowMajor_val_two]
  show ((n.val * 3 + d.val / 1024) * 32 + d.val / 32 % 32) * 32 + d.val % 32 = n.val * 3072 + d.val
  have := d.isLt
  omega

/-- The same for the mask, whose flat form has one row. -/
theorem flat3_pos (d : Fin 3072) :
    (S3x32x32.rowMajor (ix3 (Cert.KerSpec.pix d).1 (Cert.KerSpec.pix d).2.1 (Cert.KerSpec.pix d).2.2)).val
      = (S1x3072.rowMajor (ix2 (0 : Fin 1) d)).val := by
  rw [Shape.rowMajor_val_three, Shape.rowMajor_val_two]
  show (d.val / 1024 * 32 + d.val / 32 % 32) * 32 + d.val % 32 = 0 * 3072 + d.val
  have := d.isLt
  omega

/-- The flattened state at (b, d). -/
theorem hState_apply (b : Fin 8) (d : Fin 3072) :
    hState (F := Ideal) a0 a1 (ix2 b d) = Cert.KerSpec.st a0 (a1 (ix1 (0 : Fin 1))) b d := by
  unfold hState
  rw [shapeCast_apply (hScaled (F := Ideal) a0 a1) shapeCasts_S8x3x32x32_S8x3072 (ix2 b d)
    (ix4 b (Cert.KerSpec.pix d).1 (Cert.KerSpec.pix d).2.1 (Cert.KerSpec.pix d).2.2) (flat4_pos b d)]
  unfold hScaled
  rw [mulf_apply, broadcastInDim_apply _ bcast_S_S8x3x32x32 (hScale (F := Ideal) a1) _ ix0 (fun a => a.elim0), hScale_apply]
  rfl

/-- The flattened mask at d. -/
theorem hMaskRow_apply (d : Fin 3072) : hMaskRow (F := Ideal) a2 (ix2 (0 : Fin 1) d) = Cert.KerSpec.mk a2 d := by
  unfold hMaskRow
  rw [shapeCast_apply a2 shapeCasts_S3x32x32_S1x3072 (ix2 (0 : Fin 1) d)
    (ix3 (Cert.KerSpec.pix d).1 (Cert.KerSpec.pix d).2.1 (Cert.KerSpec.pix d).2.2) (flat3_pos d)]
  rfl

/-- The squared mask at d. -/
theorem hMask2_apply (d : Fin 3072) :
    hMask2 (F := Ideal) a2 (ix2 (0 : Fin 1) d) = Cert.KerSpec.mk a2 d * Cert.KerSpec.mk a2 d := by
  unfold hMask2
  rw [mulf_apply, hMaskRow_apply]

/-- The state times the squared mask at (b, d). -/
theorem hSm_apply (b : Fin 8) (d : Fin 3072) :
    hSm (F := Ideal) a0 a1 a2 (ix2 b d)
      = Cert.KerSpec.st a0 (a1 (ix1 (0 : Fin 1))) b d * (Cert.KerSpec.mk a2 d * Cert.KerSpec.mk a2 d) := by
  unfold hSm
  rw [mulf_apply, hState_apply,
    broadcastInDim_apply _ bcast_S1x3072_S8x3072_0_1 (hMask2 (F := Ideal) a2) (ix2 b d) (ix2 (0 : Fin 1) d) (fun a => by
      match a with
      | ⟨0, _⟩ => rfl
      | ⟨1, _⟩ => rfl),
    hMask2_apply]

/-- term1 of batch row b. -/
theorem hTerm1_apply (b : Fin 8) :
    hTerm1 (F := Ideal) a0 a1 a2 (ix2 b (0 : Fin 1)) = Cert.KerSpec.term1 a0 (a1 (ix1 (0 : Fin 1))) a2 b := by
  have hr : S8x3072.Reduces [1] S8 := by decide
  unfold hTerm1
  rw [broadcastInDim_apply _ bcast_S8_S8x1_0 (hRowSum (F := Ideal) a0 a1 a2) (ix2 b (0 : Fin 1)) (ix1 b) (fun a => by
      match a with
      | ⟨0, _⟩ => rfl)]
  unfold hRowSum Cert.KerSpec.term1
  simp only [Host.reduceAdd, Ideal.hostReduceAdd_def]
  rw [Ideal.hostReduceAdd_single reducesTo_S8x3072_S8_d1 hr]
  refine congrArg (_ + ·) (Finset.sum_congr rfl fun (k : Fin 3072) _ => ?_)
  have il : hr.lift (ix1 b) k = ix2 b k := by
    funext a
    apply Fin.ext
    match a with
    | ⟨0, _⟩ => rfl
    | ⟨1, _⟩ => rfl
  rw [il, mulf_apply, hSm_apply, hState_apply]

/-- The flattened training rows at (n, d). -/
theorem hTrain_apply (n : Fin 2048) (d : Fin 3072) : hTrain (F := Ideal) a3 (ix2 n d) = Cert.KerSpec.tn a3 n d := by
  unfold hTrain
  rw [shapeCast_apply a3 shapeCasts_S2048x3x32x32_S2048x3072 (ix2 n d)
    (ix4 n (Cert.KerSpec.pix d).1 (Cert.KerSpec.pix d).2.1 (Cert.KerSpec.pix d).2.2) (flat4_pos_train n d)]
  rfl

/-- The row of ones at d. -/
theorem hOnes_apply (d : Fin 3072) : hOnes (F := Ideal) (ix2 (0 : Fin 1) d) = Ideal.ofBits .f32 0x3F800000#32 := by
  unfold hOnes
  rw [broadcastInDim_apply _ bcast_S_S1x3072 (constant (F := Ideal) S_ .f32 0x3F800000#32) _ ix0 (fun a => a.elim0)]
  rfl

/-- 1 / (2 ṽ) at the one index of the one-by-one array. -/
theorem hInv2v_apply :
    hInv2v (F := Ideal) a1 (ix2 (0 : Fin 1) (0 : Fin 1))
      = Ideal.div (Ideal.ofBits .f32 0x3F800000#32) (Cert.Spec.twoV (a1 (ix1 (0 : Fin 1)))) := by
  unfold hInv2v shapeCast
  exact hInv_apply a1 _

end AtIndex

/-! ## The arrays the region finds are those terms -/

section Found

variable {F : FTy → Type} [FloatOps F] (m : (ℓ : Loc nD τ sig) → Buf (Elt F) ℓ) (c : Dev nD)

/-- The state times the squared mask. -/
theorem V_main_v21 : V m c main_v21
    = hSm (F := F) (m ((c : Thread nD τ).loc main_arg0)) (m ((c : Thread nD τ).loc main_arg1)) (m ((c : Thread nD τ).loc main_arg2)) := by
  show StableHlo.after hostOps0 (fun b => m (c, b)) (Proc.devRef .tc main_v21) = _
  after_results_simp
  rfl

/-- The column of row sums. -/
theorem V_main_v24 : V m c main_v24
    = hTerm1 (F := F) (m ((c : Thread nD τ).loc main_arg0)) (m ((c : Thread nD τ).loc main_arg1)) (m ((c : Thread nD τ).loc main_arg2)) := by
  show StableHlo.after hostOps0 (fun b => m (c, b)) (Proc.devRef .tc main_v24) = _
  after_results_simp
  rfl

/-- The squared mask. -/
theorem V_main_v19 : V m c main_v19 = hMask2 (F := F) (m ((c : Thread nD τ).loc main_arg2)) := by
  show StableHlo.after hostOps0 (fun b => m (c, b)) (Proc.devRef .tc main_v19) = _
  after_results_simp
  rfl

/-- The row of ones. -/
theorem V_main_v26 : V m c main_v26 = hOnes (F := F) := by
  show StableHlo.after hostOps0 (fun b => m (c, b)) (Proc.devRef .tc main_v26) = _
  after_results_simp
  rfl

/-- 1 / (2 ṽ). -/
theorem V_main_v29 : V m c main_v29 = hInv2v (F := F) (m ((c : Thread nD τ).loc main_arg1)) := by
  show StableHlo.after hostOps0 (fun b => m (c, b)) (Proc.devRef .tc main_v29) = _
  after_results_simp
  rfl

/-- The flattened training rows. -/
theorem V_main_v25 : V m c main_v25 = hTrain (F := F) (m ((c : Thread nD τ).loc main_arg3)) := by
  show StableHlo.after hostOps0 (fun b => m (c, b)) (Proc.devRef .tc main_v25) = _
  after_results_simp
  rfl

/-- α. -/
theorem V_main_v9 : V m c main_v9 = hAlpha (F := F) (m ((c : Thread nD τ).loc main_arg1)) := by
  show StableHlo.after hostOps0 (fun b => m (c, b)) (Proc.devRef .tc main_v9) = _
  after_results_simp
  rfl

/-- σ. -/
theorem V_main_v10 : V m c main_v10 = hSigma (F := F) (m ((c : Thread nD τ).loc main_arg1)) := by
  show StableHlo.after hostOps0 (fun b => m (c, b)) (Proc.devRef .tc main_v10) = _
  after_results_simp
  rfl

/-- The host operations before the region leave the input where it was. -/
theorem V_main_arg0 : V m c main_arg0 = m ((c : Thread nD τ).loc main_arg0) := by
  show StableHlo.after hostOps0 (fun b => m (c, b)) (Proc.devRef .tc main_arg0) = _
  after_results_simp

/-- They leave the mask where it was. -/
theorem V_main_arg2 : V m c main_arg2 = m ((c : Thread nD τ).loc main_arg2) := by
  show StableHlo.after hostOps0 (fun b => m (c, b)) (Proc.devRef .tc main_arg2) = _
  after_results_simp

end Found

/-! ## The arrays the region finds, at an index -/

section FoundAtIndex

variable (m : (ℓ : Loc nD τ sig) → Buf (Elt Ideal) ℓ) (c : Dev nD)

/-- The first window's array: state · mask² at (b, d). -/
theorem found_v21 (b : Fin 8) (d : Fin 3072) :
    (V m c main_v21 : (⟨S8x3072, .f32⟩ : BufTy).Contents (Elt Ideal)) (ix2 b d)
      = Cert.KerSpec.st (m ((c : Thread nD τ).loc main_arg0)) (m ((c : Thread nD τ).loc main_arg1) (ix1 (0 : Fin 1))) b d
        * (Cert.KerSpec.mk (m ((c : Thread nD τ).loc main_arg2)) d * Cert.KerSpec.mk (m ((c : Thread nD τ).loc main_arg2)) d) :=
  (congrFun (V_main_v21 m c) (ix2 b d)).trans (hSm_apply _ _ _ b d)

/-- The second window's array: term1 of batch row b. -/
theorem found_v24 (b : Fin 8) :
    (V m c main_v24 : (⟨S8x1, .f32⟩ : BufTy).Contents (Elt Ideal)) (ix2 b (0 : Fin 1))
      = Cert.KerSpec.term1 (m ((c : Thread nD τ).loc main_arg0)) (m ((c : Thread nD τ).loc main_arg1) (ix1 (0 : Fin 1)))
          (m ((c : Thread nD τ).loc main_arg2)) b :=
  (congrFun (V_main_v24 m c) (ix2 b (0 : Fin 1))).trans (hTerm1_apply _ _ _ b)

/-- The third window's array: the squared mask at d. -/
theorem found_v19 (d : Fin 3072) :
    (V m c main_v19 : (⟨S1x3072, .f32⟩ : BufTy).Contents (Elt Ideal)) (ix2 (0 : Fin 1) d)
      = Cert.KerSpec.mk (m ((c : Thread nD τ).loc main_arg2)) d * Cert.KerSpec.mk (m ((c : Thread nD τ).loc main_arg2)) d :=
  (congrFun (V_main_v19 m c) (ix2 (0 : Fin 1) d)).trans (hMask2_apply _ d)

/-- The fourth window's array: ones. -/
theorem found_v26 (d : Fin 3072) :
    (V m c main_v26 : (⟨S1x3072, .f32⟩ : BufTy).Contents (Elt Ideal)) (ix2 (0 : Fin 1) d) = Ideal.ofBits .f32 0x3F800000#32 :=
  (congrFun (V_main_v26 m c) (ix2 (0 : Fin 1) d)).trans (hOnes_apply d)

/-- The fifth window's array: 1 / (2 ṽ). -/
theorem found_v29 :
    (V m c main_v29 : (⟨S1x1, .f32⟩ : BufTy).Contents (Elt Ideal)) (ix2 (0 : Fin 1) (0 : Fin 1))
      = Ideal.div (Ideal.ofBits .f32 0x3F800000#32) (Cert.Spec.twoV (m ((c : Thread nD τ).loc main_arg1) (ix1 (0 : Fin 1)))) :=
  (congrFun (V_main_v29 m c) (ix2 (0 : Fin 1) (0 : Fin 1))).trans (hInv2v_apply _)

/-- The sixth window's array: training row n at flat position d. -/
theorem found_v25 (n : Fin 2048) (d : Fin 3072) :
    (V m c main_v25 : (⟨S2048x3072, .f32⟩ : BufTy).Contents (Elt Ideal)) (ix2 n d)
      = Cert.KerSpec.tn (m ((c : Thread nD τ).loc main_arg3)) n d :=
  (congrFun (V_main_v25 m c) (ix2 n d)).trans (hTrain_apply _ n d)

/-- α, as the operations after the region read it. -/
theorem found_v9 :
    (V0 m c (Proc.devRef .tc main_v9) : (⟨S_, .f32⟩ : BufTy).Contents (Elt Ideal)) ix0
      = Cert.Spec.alpha (m ((c : Thread nD τ).loc main_arg1) (ix1 (0 : Fin 1))) :=
  (congrFun (V_main_v9 m c) ix0).trans (hAlpha_apply _ ix0)

/-- σ, as the operations after the region read it. -/
theorem found_v10 :
    (V0 m c (Proc.devRef .tc main_v10) : (⟨S_, .f32⟩ : BufTy).Contents (Elt Ideal)) ix0
      = Cert.Spec.sigma (m ((c : Thread nD τ).loc main_arg1) (ix1 (0 : Fin 1))) :=
  (congrFun (V_main_v10 m c) ix0).trans (hSigma_apply _ ix0)

end FoundAtIndex

end Cert.KernelIdeal.HostSide

end
-- ==== Proof.KerValue.lean ====
/-
  The kernel's three result arrays, at an index, in the kernel-form specification.

  A window's block at a grid point is a rectangle of the array the region found: the five small operands whole, the
  training rows 512 at a time (point t reads rows 512 t … 512 t + 511). Reading the row scores of a point off those
  arrays gives the specification's scores of those rows, so the state after a half's two tiles is the online-softmax
  state of the half's 1024 rows.
-/
import proofs.«134671_j4312147165196_2_alg».proof.Proof.KerArrays
import proofs.«134671_j4312147165196_2_alg».proof.Proof.KerState
import proofs.«134671_j4312147165196_2_alg».proof.Proof.KerHostPre

noncomputable section

namespace Cert.KernelIdeal.ValueSide

open Cert.KernelIdeal Cert.KernelIdeal.Gen Cert.KernelIdeal.Arrays Cert.KernelIdeal.HostSide
open Idealize.ShloMosaic Idealize.ShloMosaic.TcCoe Idealize.ShloMosaic.ValueIdx Idealize.SL.Sem Cert.OnlineSoftmax

variable (m : (ℓ : Loc nD τ sig) → Buf (Elt Ideal) ℓ) (c : Dev nD)

theorem idx_facts0 : ∀ t : Fin cfg0.N, win0_0.index t (0 : Fin 2) = 0 ∧ win0_0.index t (1 : Fin 2) = 0 :=
  (by decide +kernel : ∀ t : Fin grid0.N, _)

theorem idx_facts1 : ∀ t : Fin cfg0.N, win0_1.index t (0 : Fin 2) = 0 ∧ win0_1.index t (1 : Fin 2) = 0 :=
  (by decide +kernel : ∀ t : Fin grid0.N, _)

theorem idx_facts2 : ∀ t : Fin cfg0.N, win0_2.index t (0 : Fin 2) = 0 ∧ win0_2.index t (1 : Fin 2) = 0 :=
  (by decide +kernel : ∀ t : Fin grid0.N, _)

theorem idx_facts3 : ∀ t : Fin cfg0.N, win0_3.index t (0 : Fin 2) = 0 ∧ win0_3.index t (1 : Fin 2) = 0 :=
  (by decide +kernel : ∀ t : Fin grid0.N, _)

theorem idx_facts4 : ∀ t : Fin cfg0.N, win0_4.index t (0 : Fin 2) = 0 ∧ win0_4.index t (1 : Fin 2) = 0 :=
  (by decide +kernel : ∀ t : Fin grid0.N, _)

theorem idx_facts5 : ∀ t : Fin cfg0.N, win0_5.index t (0 : Fin 2) = t.val ∧ win0_5.index t (1 : Fin 2) = 0 :=
  (by decide +kernel : ∀ t : Fin grid0.N, _)

/-! ## Block reads -/

theorem blk0 (t : Fin cfg0.N) (p : Fin 8) (q : Fin 3072) :
    (iblk m c 0 t : Vec Ideal S8x3072 .f32) (ix2 p q)
      = (V m c main_v21 : (⟨S8x3072, .f32⟩ : BufTy).Contents (Elt Ideal)) (ix2 p q) := by
  obtain ⟨i0, i1⟩ := idx_facts0 t
  unfold iblk
  rw [View.read_apply]
  show V m c main_v21 _ = V m c main_v21 _
  refine congrArg (V m c main_v21) ?_
  funext a
  apply Fin.ext
  match a with
  | ⟨0, _⟩ => show win0_0.index t (0 : Fin 2) * 8 + 1 * p.val = p.val; omega
  | ⟨1, _⟩ => show win0_0.index t (1 : Fin 2) * 3072 + 1 * q.val = q.val; omega

theorem blk1 (t : Fin cfg0.N) (p : Fin 8) (q : Fin 1) :
    (iblk m c 1 t : Vec Ideal S8x1 .f32) (ix2 p q)
      = (V m c main_v24 : (⟨S8x1, .f32⟩ : BufTy).Contents (Elt Ideal)) (ix2 p q) := by
  obtain ⟨i0, i1⟩ := idx_facts1 t
  unfold iblk
  rw [View.read_apply]
  show V m c main_v24 _ = V m c main_v24 _
  refine congrArg (V m c main_v24) ?_
  funext a
  apply Fin.ext
  match a with
  | ⟨0, _⟩ => show win0_1.index t (0 : Fin 2) * 8 + 1 * p.val = p.val; omega
  | ⟨1, _⟩ => show win0_1.index t (1 : Fin 2) * 1 + 1 * q.val = q.val; omega

theorem blk2 (t : Fin cfg0.N) (p : Fin 1) (q : Fin 3072) :
    (iblk m c 2 t : Vec Ideal S1x3072 .f32) (ix2 p q)
      = (V m c main_v19 : (⟨S1x3072, .f32⟩ : BufTy).Contents (Elt Ideal)) (ix2 p q) := by
  obtain ⟨i0, i1⟩ := idx_facts2 t
  unfold iblk
  rw [View.read_apply]
  show V m c main_v19 _ = V m c main_v19 _
  refine congrArg (V m c main_v19) ?_
  funext a
  apply Fin.ext
  match a with
  | ⟨0, _⟩ => show win0_2.index t (0 : Fin 2) * 1 + 1 * p.val = p.val; omega
  | ⟨1, _⟩ => show win0_2.index t (1 : Fin 2) * 3072 + 1 * q.val = q.val; omega

theorem blk3 (t : Fin cfg0.N) (p : Fin 1) (q : Fin 3072) :
    (iblk m c 3 t : Vec Ideal S1x3072 .f32) (ix2 p q)
      = (V m c main_v26 : (⟨S1x3072, .f32⟩ : BufTy).Contents (Elt Ideal)) (ix2 p q) := by
  obtain ⟨i0, i1⟩ := idx_facts3 t
  unfold iblk
  rw [View.read_apply]
  show V m c main_v26 _ = V m c main_v26 _
  refine congrArg (V m c main_v26) ?_
  funext a
  apply Fin.ext
  match a with
  | ⟨0, _⟩ => show win0_3.index t (0 : Fin 2) * 1 + 1 * p.val = p.val; omega
  | ⟨1, _⟩ => show win0_3.index t (1 : Fin 2) * 3072 + 1 * q.val = q.val; omega

theorem blk4 (t : Fin cfg0.N) (p : Fin 1) (q : Fin 1) :
    (iblk m c 4 t : Vec Ideal S1x1 .f32) (ix2 p q)
      = (V m c main_v29 : (⟨S1x1, .f32⟩ : BufTy).Contents (Elt Ideal)) (ix2 p q) := by
  obtain ⟨i0, i1⟩ := idx_facts4 t
  unfold iblk
  rw [View.read_apply]
  show V m c main_v29 _ = V m c main_v29 _
  refine congrArg (V m c main_v29) ?_
  funext a
  apply Fin.ext
  match a with
  | ⟨0, _⟩ => show win0_4.index t (0 : Fin 2) * 1 + 1 * p.val = p.val; omega
  | ⟨1, _⟩ => show win0_4.index t (1 : Fin 2) * 1 + 1 * q.val = q.val; omega

/-- Row p of the tile at point t is training row 512 t + p. -/
def rowAt (t : Fin cfg0.N) (p : Fin 512) : Fin 2048 := ⟨t.val * 512 + p.val, by
  have : cfg0.N = 4 := N_0; have := t.isLt; have := p.isLt; omega⟩

theorem blk5 (t : Fin cfg0.N) (p : Fin 512) (q : Fin 3072) :
    (iblk m c 5 t : Vec Ideal S512x3072 .f32) (ix2 p q)
      = (V m c main_v25 : (⟨S2048x3072, .f32⟩ : BufTy).Contents (Elt Ideal)) (ix2 (rowAt t p) q) := by
  obtain ⟨i0, i1⟩ := idx_facts5 t
  unfold iblk
  rw [View.read_apply]
  show V m c main_v25 _ = V m c main_v25 _
  refine congrArg (V m c main_v25) ?_
  funext a
  apply Fin.ext
  match a with
  | ⟨0, _⟩ => show win0_5.index t (0 : Fin 2) * 512 + 1 * p.val = (rowAt t p).val; show _ = t.val * 512 + p.val; omega
  | ⟨1, _⟩ => show win0_5.index t (1 : Fin 2) * 3072 + 1 * q.val = q.val; omega

/-! ## The row scores of a point -/

/-- The body's score on operands whose entries are the specification's is the specification's score. -/
theorem rowScores_of (tr : Vec Ideal S512x3072 .f32) (sw : Vec Ideal S8x3072 .f32) (M ones : Vec Ideal S1x3072 .f32)
    (inv : Vec Ideal S1x1 .f32) (t1 : Vec Ideal S8x1 .f32)
    (x0 : (⟨4, ![8, 3, 32, 32]⟩ : Shape).Idx → EReal) (g : EReal) (x2 : (⟨3, ![3, 32, 32]⟩ : Shape).Idx → EReal)
    (x3 : (⟨4, ![2048, 3, 32, 32]⟩ : Shape).Idx → EReal) (p : Fin 8) (q : Fin 512) (n : Fin 2048)
    (hsw : ∀ d, sw (ix2 p d) = Cert.KerSpec.st x0 g p d * (Cert.KerSpec.mk x2 d * Cert.KerSpec.mk x2 d))
    (ht1 : t1 (ix2 p 0) = Cert.KerSpec.term1 x0 g x2 p)
    (hM : ∀ d, M (ix2 0 d) = Cert.KerSpec.mk x2 d * Cert.KerSpec.mk x2 d)
    (hones : ∀ d, ones (ix2 0 d) = Ideal.ofBits .f32 0x3F800000#32)
    (hinv : inv (ix2 0 0) = Ideal.div (Ideal.ofBits .f32 0x3F800000#32) (Cert.Spec.twoV g))
    (htr : ∀ d, tr (ix2 q d) = Cert.KerSpec.tn x3 n d) :
    Body.rowScores tr sw M ones inv t1 p q = Cert.KerSpec.kscore x0 g x2 x3 p n := by
  unfold Body.rowScores Body.kscore Cert.KerSpec.kscore
  rw [ht1, hinv]
  simp only [hsw, hM, hones, htr]

/-- The body's score of row q of point t's tile, for batch row p, is the specification's score of training row 512 t + q. -/
theorem rowScores_at (t : Fin cfg0.N) (p : Fin 8) (q : Fin 512) :
    Body.rowScores (iblk m c 5 t) (iblk m c 0 t) (iblk m c 2 t) (iblk m c 3 t) (iblk m c 4 t) (iblk m c 1 t) p q
      = Cert.KerSpec.kscore (m ((c : Thread nD τ).loc main_arg0)) (m ((c : Thread nD τ).loc main_arg1) (ix1 (0 : Fin 1))) (m ((c : Thread nD τ).loc main_arg2)) (m ((c : Thread nD τ).loc main_arg3)) p (rowAt t q) :=
  rowScores_of (iblk m c 5 t) (iblk m c 0 t) (iblk m c 2 t) (iblk m c 3 t) (iblk m c 4 t) (iblk m c 1 t)
    (m ((c : Thread nD τ).loc main_arg0)) (m ((c : Thread nD τ).loc main_arg1) (ix1 (0 : Fin 1))) (m ((c : Thread nD τ).loc main_arg2)) (m ((c : Thread nD τ).loc main_arg3)) p q (rowAt t q)
    (fun d => (blk0 m c t p d).trans (found_v21 m c p d))
    ((blk1 m c t p 0).trans (found_v24 m c p))
    (fun d => (blk2 m c t 0 d).trans (found_v19 m c d))
    (fun d => (blk3 m c t 0 d).trans (found_v26 m c d))
    ((blk4 m c t 0 0).trans (found_v29 m c))
    (fun d => (blk5 m c t q d).trans (found_v25 m c (rowAt t q) d))

/-- Row q of tile j of half h. -/
theorem rowAt_pt (h j : Fin 2) (q : Fin 512) : rowAt (pt h j) q = rowOf h j q :=
  Fin.ext (by show (2 * h.val + j.val) * 512 + q.val = (h.val * 2 + j.val) * 512 + q.val; omega)

/-- The two tiles' row scores of a half are the specification's scores by half, tile and row. -/
theorem scores_half (h : Fin 2) (p : Fin 8) :
    (![Body.rowScores (iblk m c 5 (pt h 0)) (iblk m c 0 (pt h 0)) (iblk m c 2 (pt h 0)) (iblk m c 3 (pt h 0)) (iblk m c 4 (pt h 0)) (iblk m c 1 (pt h 0)) p,
       Body.rowScores (iblk m c 5 (pt h 1)) (iblk m c 0 (pt h 1)) (iblk m c 2 (pt h 1)) (iblk m c 3 (pt h 1)) (iblk m c 4 (pt h 1)) (iblk m c 1 (pt h 1)) p] : Fin 2 → Fin 512 → EReal)
      = Cert.KerSpec.kx (m ((c : Thread nD τ).loc main_arg0)) (m ((c : Thread nD τ).loc main_arg1) (ix1 (0 : Fin 1))) (m ((c : Thread nD τ).loc main_arg2)) (m ((c : Thread nD τ).loc main_arg3)) p h := by
  funext j q
  match j with
  | ⟨0, _⟩ =>
    show Body.rowScores (iblk m c 5 (pt h 0)) _ _ _ _ _ p q = Cert.KerSpec.kscore _ _ _ _ p (rowOf h 0 q)
    rw [rowScores_at, rowAt_pt]
  | ⟨1, _⟩ =>
    show Body.rowScores (iblk m c 5 (pt h 1)) _ _ _ _ _ p q = Cert.KerSpec.kscore _ _ _ _ p (rowOf h 1 q)
    rw [rowScores_at, rowAt_pt]

/-- The two tiles' columns d of a half are the specification's training values by half, tile and row. -/
theorem values_half (h : Fin 2) (d : Fin 3072) :
    (![fun k => (iblk m c 5 (pt h 0) : Vec Ideal S512x3072 .f32) (ix2 k d),
       fun k => (iblk m c 5 (pt h 1) : Vec Ideal S512x3072 .f32) (ix2 k d)] : Fin 2 → Fin 512 → EReal)
      = Cert.KerSpec.kt (m ((c : Thread nD τ).loc main_arg3)) d h := by
  funext j q
  match j with
  | ⟨0, _⟩ =>
    show (iblk m c 5 (pt h 0) : Vec Ideal S512x3072 .f32) (ix2 q d) = Cert.KerSpec.tn _ (rowOf h 0 q) d
    rw [blk5 m c (pt h 0) q d, found_v25, rowAt_pt]
  | ⟨1, _⟩ =>
    show (iblk m c 5 (pt h 1) : Vec Ideal S512x3072 .f32) (ix2 q d) = Cert.KerSpec.tn _ (rowOf h 1 q) d
    rw [blk5 m c (pt h 1) q d, found_v25, rowAt_pt]

/-! ## The result arrays at an index -/

theorem G6_apply (h : Fin 2) (p : Fin 8) :
    G6 m c (ix3 h p (0 : Fin 1)) = halfM (Cert.KerSpec.kx (m ((c : Thread nD τ).loc main_arg0)) (m ((c : Thread nD τ).loc main_arg1) (ix1 (0 : Fin 1))) (m ((c : Thread nD τ).loc main_arg2)) (m ((c : Thread nD τ).loc main_arg3)) p h) := by
  show (halfState m c h).1 (ix2 p (0 : Fin 1)) = _
  unfold halfState stepAt
  refine (half_max (iblk m c 0 (pt h 0)) (iblk m c 1 (pt h 0)) (iblk m c 2 (pt h 0)) (iblk m c 3 (pt h 0)) (iblk m c 4 (pt h 0)) (iblk m c 5 (pt h 0))
    (iblk m c 0 (pt h 1)) (iblk m c 1 (pt h 1)) (iblk m c 2 (pt h 1)) (iblk m c 3 (pt h 1)) (iblk m c 4 (pt h 1)) (iblk m c 5 (pt h 1)) p).trans ?_
  rw [scores_half m c h p]

theorem G7_apply (h : Fin 2) (p : Fin 8) :
    G7 m c (ix3 h p (0 : Fin 1)) = halfL (Cert.KerSpec.kx (m ((c : Thread nD τ).loc main_arg0)) (m ((c : Thread nD τ).loc main_arg1) (ix1 (0 : Fin 1))) (m ((c : Thread nD τ).loc main_arg2)) (m ((c : Thread nD τ).loc main_arg3)) p h) := by
  show (halfState m c h).2.1 (ix2 p (0 : Fin 1)) = _
  unfold halfState stepAt
  refine (half_norm (iblk m c 0 (pt h 0)) (iblk m c 1 (pt h 0)) (iblk m c 2 (pt h 0)) (iblk m c 3 (pt h 0)) (iblk m c 4 (pt h 0)) (iblk m c 5 (pt h 0))
    (iblk m c 0 (pt h 1)) (iblk m c 1 (pt h 1)) (iblk m c 2 (pt h 1)) (iblk m c 3 (pt h 1)) (iblk m c 4 (pt h 1)) (iblk m c 5 (pt h 1)) p).trans ?_
  rw [scores_half m c h p]

theorem G8_apply (h : Fin 2) (p : Fin 8) (d : Fin 3072) :
    G8 m c (ix3 h p d) = halfA (Cert.KerSpec.kx (m ((c : Thread nD τ).loc main_arg0)) (m ((c : Thread nD τ).loc main_arg1) (ix1 (0 : Fin 1))) (m ((c : Thread nD τ).loc main_arg2)) (m ((c : Thread nD τ).loc main_arg3)) p h) (Cert.KerSpec.kt (m ((c : Thread nD τ).loc main_arg3)) d h) := by
  show (halfState m c h).2.2 (ix2 p d) = _
  unfold halfState stepAt
  refine (half_acc (iblk m c 0 (pt h 0)) (iblk m c 1 (pt h 0)) (iblk m c 2 (pt h 0)) (iblk m c 3 (pt h 0)) (iblk m c 4 (pt h 0)) (iblk m c 5 (pt h 0))
    (iblk m c 0 (pt h 1)) (iblk m c 1 (pt h 1)) (iblk m c 2 (pt h 1)) (iblk m c 3 (pt h 1)) (iblk m c 4 (pt h 1)) (iblk m c 5 (pt h 1)) p d).trans ?_
  rw [scores_half m c h p, values_half m c h d]

end Cert.KernelIdeal.ValueSide

end
-- ==== Proof.KerHost.lean ====
/-
  The host operations the kernel's program runs after its region, read at an index over the extended reals.

  The region leaves, for each of two halves of the training rows, a running maximum of the scores (per batch row), the
  sum of the exponentials of the scores minus that maximum, and those exponentials' weighted sums of the training rows.
  The host merges the two halves: with M the larger of the two maxima, the merged sums are the halves' sums rescaled
  by exp (maximum − M) and added; their quotient is the weighted mean, whose flat pixel axis is split back into
  (channel, row, column); the result is ((input − α · mean) / σ) · mask.
-/
import proofs.«134671_j4312147165196_2_alg».proof.Proof.KerHostPre

noncomputable section

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo

/-! ## The operations after the region, as one term -/

section TailTerms

variable {F : FTy → Type} [FloatOps F]

/-- The first half of a two-half column array, as a column. -/
def half0 (X : (⟨S2x8x1, .f32⟩ : BufTy).Contents (Elt F)) : (⟨S8x1, .f32⟩ : BufTy).Contents (Elt F) :=
  shapeCast _ ((extractStridedSlice S1x8x1 ![0, 0, 0] · slices_S2x8x1_S1x8x1_0_0_0) X) shapeCasts_S1x8x1_S8x1
/-- The second half. -/
def half1 (X : (⟨S2x8x1, .f32⟩ : BufTy).Contents (Elt F)) : (⟨S8x1, .f32⟩ : BufTy).Contents (Elt F) :=
  shapeCast _ ((extractStridedSlice S1x8x1 ![1, 0, 0] · slices_S2x8x1_S1x8x1_1_0_0) X) shapeCasts_S1x8x1_S8x1
/-- The first half of a two-half array of rows. -/
def rows0 (X : (⟨S2x8x3072, .f32⟩ : BufTy).Contents (Elt F)) : (⟨S8x3072, .f32⟩ : BufTy).Contents (Elt F) :=
  shapeCast _ ((extractStridedSlice S1x8x3072 ![0, 0, 0] · slices_S2x8x3072_S1x8x3072_0_0_0) X) shapeCasts_S1x8x3072_S8x3072
/-- The second half. -/
def rows1 (X : (⟨S2x8x3072, .f32⟩ : BufTy).Contents (Elt F)) : (⟨S8x3072, .f32⟩ : BufTy).Contents (Elt F) :=
  shapeCast _ ((extractStridedSlice S1x8x3072 ![1, 0, 0] · slices_S2x8x3072_S1x8x3072_1_0_0) X) shapeCasts_S1x8x3072_S8x3072

variable (M L : (⟨S2x8x1, .f32⟩ : BufTy).Contents (Elt F)) (A : (⟨S2x8x3072, .f32⟩ : BufTy).Contents (Elt F))
  (a0 : (⟨S8x3x32x32, .f32⟩ : BufTy).Contents (Elt F)) (a2 : (⟨S3x32x32, .f32⟩ : BufTy).Contents (Elt F))
  (al sg : (⟨S_, .f32⟩ : BufTy).Contents (Elt F))

/-- The larger of the two halves' maxima. -/
def tMax : (⟨S8x1, .f32⟩ : BufTy).Contents (Elt F) := maximumf (half0 (F := F) M) (half1 (F := F) M)
/-- exp (first maximum − merged maximum). -/
def tE0 : (⟨S8x1, .f32⟩ : BufTy).Contents (Elt F) := Host.exp (subf (half0 (F := F) M) (tMax (F := F) M))
/-- exp (second maximum − merged maximum). -/
def tE1 : (⟨S8x1, .f32⟩ : BufTy).Contents (Elt F) := Host.exp (subf (half1 (F := F) M) (tMax (F := F) M))
/-- The merged sum of exponentials. -/
def tDen : (⟨S8x1, .f32⟩ : BufTy).Contents (Elt F) :=
  addf (mulf (tE0 (F := F) M) (half0 (F := F) L)) (mulf (tE1 (F := F) M) (half1 (F := F) L))
/-- The merged weighted sums of the training rows. -/
def tNum : (⟨S8x3072, .f32⟩ : BufTy).Contents (Elt F) :=
  addf (mulf (broadcastInDim S8x3072 ![0, 1] bcast_S8x1_S8x3072_0_1 (tE0 (F := F) M)) (rows0 (F := F) A))
    (mulf (broadcastInDim S8x3072 ![0, 1] bcast_S8x1_S8x3072_0_1 (tE1 (F := F) M)) (rows1 (F := F) A))
/-- The merged weighted mean, with the pixel axes restored. -/
def tMean : (⟨S8x3x32x32, .f32⟩ : BufTy).Contents (Elt F) :=
  shapeCast _ (Host.divf (tNum (F := F) M A) (broadcastInDim S8x3072 ![0, 1] bcast_S8x1_S8x3072_0_1 (tDen (F := F) M L)))
    shapeCasts_S8x3072_S8x3x32x32
/-- The program's result: ((input − α · mean) / σ) · mask. -/
def tailOf : (⟨S8x3x32x32, .f32⟩ : BufTy).Contents (Elt F) :=
  mulf (Host.divf (subf (a0) (mulf (broadcastInDim S8x3x32x32 ![] bcast_S_S8x3x32x32 al) (tMean (F := F) M L A)))
      (broadcastInDim S8x3x32x32 ![] bcast_S_S8x3x32x32 sg))
    (broadcastInDim S8x3x32x32 ![0, 1, 2, 3] bcast_S1x3x32x32_S8x3x32x32_0_1_2_3
      (broadcastInDim S1x3x32x32 ![1, 2, 3] bcast_S3x32x32_S1x3x32x32_1_2_3 (a2)))

end TailTerms

/-! ## The term after the region at an index, over the extended reals -/

section TailAtIndex

variable (M L : (⟨S2x8x1, .f32⟩ : BufTy).Contents (Elt Ideal)) (A : (⟨S2x8x3072, .f32⟩ : BufTy).Contents (Elt Ideal))
  (a0 : (⟨S8x3x32x32, .f32⟩ : BufTy).Contents (Elt Ideal)) (a2 : (⟨S3x32x32, .f32⟩ : BufTy).Contents (Elt Ideal))
  (al sg : (⟨S_, .f32⟩ : BufTy).Contents (Elt Ideal))

/-- Half 0 of a two-half column array at batch row b. -/
theorem half0_apply (X : (⟨S2x8x1, .f32⟩ : BufTy).Contents (Elt Ideal)) (b : Fin 8) :
    half0 (F := Ideal) X (ix2 b (0 : Fin 1)) = X (ix3 (0 : Fin 2) b (0 : Fin 1)) := by
  unfold half0
  rw [shapeCast_1ab_ab_apply]
  exact extractStridedSlice_apply _ X slices_S2x8x1_S1x8x1_0_0_0 (ix3 (0 : Fin 1) b (0 : Fin 1)) (ix3 (0 : Fin 2) b (0 : Fin 1)) (fun a => by
    match a with
    | ⟨0, _⟩ => rfl
    | ⟨1, _⟩ => exact (Nat.zero_add _).symm
    | ⟨2, _⟩ => rfl)

/-- Half 1 of a two-half column array at batch row b. -/
theorem half1_apply (X : (⟨S2x8x1, .f32⟩ : BufTy).Contents (Elt Ideal)) (b : Fin 8) :
    half1 (F := Ideal) X (ix2 b (0 : Fin 1)) = X (ix3 (1 : Fin 2) b (0 : Fin 1)) := by
  unfold half1
  rw [shapeCast_1ab_ab_apply]
  exact extractStridedSlice_apply _ X slices_S2x8x1_S1x8x1_1_0_0 (ix3 (0 : Fin 1) b (0 : Fin 1)) (ix3 (1 : Fin 2) b (0 : Fin 1)) (fun a => by
    match a with
    | ⟨0, _⟩ => rfl
    | ⟨1, _⟩ => exact (Nat.zero_add _).symm
    | ⟨2, _⟩ => rfl)

/-- Half 0 of a two-half array of rows at (b, d). -/
theorem rows0_apply (X : (⟨S2x8x3072, .f32⟩ : BufTy).Contents (Elt Ideal)) (b : Fin 8) (d : Fin 3072) :
    rows0 (F := Ideal) X (ix2 b d) = X (ix3 (0 : Fin 2) b d) := by
  unfold rows0
  rw [shapeCast_1ab_ab_apply]
  exact extractStridedSlice_apply _ X slices_S2x8x3072_S1x8x3072_0_0_0 (ix3 (0 : Fin 1) b d) (ix3 (0 : Fin 2) b d) (fun a => by
    match a with
    | ⟨0, _⟩ => rfl
    | ⟨1, _⟩ => exact (Nat.zero_add _).symm
    | ⟨2, _⟩ => exact (Nat.zero_add _).symm)

/-- Half 1 of a two-half array of rows at (b, d). -/
theorem rows1_apply (X : (⟨S2x8x3072, .f32⟩ : BufTy).Contents (Elt Ideal)) (b : Fin 8) (d : Fin 3072) :
    rows1 (F := Ideal) X (ix2 b d) = X (ix3 (1 : Fin 2) b d) := by
  unfold rows1
  rw [shapeCast_1ab_ab_apply]
  exact extractStridedSlice_apply _ X slices_S2x8x3072_S1x8x3072_1_0_0 (ix3 (0 : Fin 1) b d) (ix3 (1 : Fin 2) b d) (fun a => by
    match a with
    | ⟨0, _⟩ => rfl
    | ⟨1, _⟩ => exact (Nat.zero_add _).symm
    | ⟨2, _⟩ => exact (Nat.zero_add _).symm)

/-- A column spread along the flat pixel axis reads the column's entry of its row. -/
theorem spread_apply (v : (⟨S8x1, .f32⟩ : BufTy).Contents (Elt Ideal)) (b : Fin 8) (d : Fin 3072) :
    broadcastInDim S8x3072 ![0, 1] bcast_S8x1_S8x3072_0_1 v (ix2 b d) = v (ix2 b (0 : Fin 1)) :=
  broadcastInDim_apply _ bcast_S8x1_S8x3072_0_1 v (ix2 b d) (ix2 b (0 : Fin 1)) (fun a => by
    match a with
    | ⟨0, _⟩ => rfl
    | ⟨1, _⟩ => rfl)

/-- The merged maximum at batch row b. -/
theorem tMax_apply (b : Fin 8) :
    tMax (F := Ideal) M (ix2 b (0 : Fin 1)) = max (M (ix3 (0 : Fin 2) b (0 : Fin 1))) (M (ix3 (1 : Fin 2) b (0 : Fin 1))) := by
  unfold tMax
  rw [maximumf_apply, half0_apply, half1_apply]

/-- exp (first maximum − merged maximum) at batch row b. -/
theorem tE0_apply (b : Fin 8) :
    tE0 (F := Ideal) M (ix2 b (0 : Fin 1))
      = Ideal.exp (M (ix3 (0 : Fin 2) b (0 : Fin 1)) - max (M (ix3 (0 : Fin 2) b (0 : Fin 1))) (M (ix3 (1 : Fin 2) b (0 : Fin 1)))) := by
  show Ideal.exp (half0 (F := Ideal) M (ix2 b (0 : Fin 1)) - tMax (F := Ideal) M (ix2 b (0 : Fin 1))) = _
  rw [half0_apply, tMax_apply]

/-- exp (second maximum − merged maximum) at batch row b. -/
theorem tE1_apply (b : Fin 8) :
    tE1 (F := Ideal) M (ix2 b (0 : Fin 1))
      = Ideal.exp (M (ix3 (1 : Fin 2) b (0 : Fin 1)) - max (M (ix3 (0 : Fin 2) b (0 : Fin 1))) (M (ix3 (1 : Fin 2) b (0 : Fin 1)))) := by
  show Ideal.exp (half1 (F := Ideal) M (ix2 b (0 : Fin 1)) - tMax (F := Ideal) M (ix2 b (0 : Fin 1))) = _
  rw [half1_apply, tMax_apply]

/-- The merged sum of exponentials at batch row b. -/
theorem tDen_apply (b : Fin 8) :
    tDen (F := Ideal) M L (ix2 b (0 : Fin 1))
      = tE0 (F := Ideal) M (ix2 b (0 : Fin 1)) * L (ix3 (0 : Fin 2) b (0 : Fin 1))
        + tE1 (F := Ideal) M (ix2 b (0 : Fin 1)) * L (ix3 (1 : Fin 2) b (0 : Fin 1)) := by
  unfold tDen
  rw [addf_apply, mulf_apply, mulf_apply, half0_apply, half1_apply]

/-- The merged weighted sums at (b, d). -/
theorem tNum_apply (b : Fin 8) (d : Fin 3072) :
    tNum (F := Ideal) M A (ix2 b d)
      = tE0 (F := Ideal) M (ix2 b (0 : Fin 1)) * A (ix3 (0 : Fin 2) b d)
        + tE1 (F := Ideal) M (ix2 b (0 : Fin 1)) * A (ix3 (1 : Fin 2) b d) := by
  unfold tNum
  rw [addf_apply, mulf_apply, mulf_apply, spread_apply, spread_apply, rows0_apply, rows1_apply]

/-- The pixel (cc, h, w) of batch row b is the flat position of the pixel: the two row-major positions agree. -/
theorem unflat4_pos (b : Fin 8) (cc : Fin 3) (h w : Fin 32) :
    (S8x3072.rowMajor (ix2 b (Cert.KerSpec.flat (cc, h, w)))).val = (S8x3x32x32.rowMajor (ix4 b cc h w)).val := by
  rw [Shape.rowMajor_val_four, Shape.rowMajor_val_two]
  show b.val * 3072 + (cc.val * 1024 + h.val * 32 + w.val) = ((b.val * 3 + cc.val) * 32 + h.val) * 32 + w.val
  omega

/-- The merged weighted mean at (b, cc, h, w). -/
theorem tMean_apply (b : Fin 8) (cc : Fin 3) (h w : Fin 32) :
    tMean (F := Ideal) M L A (ix4 b cc h w)
      = Ideal.div
          (tE0 (F := Ideal) M (ix2 b (0 : Fin 1)) * A (ix3 (0 : Fin 2) b (Cert.KerSpec.flat (cc, h, w)))
            + tE1 (F := Ideal) M (ix2 b (0 : Fin 1)) * A (ix3 (1 : Fin 2) b (Cert.KerSpec.flat (cc, h, w))))
          (tE0 (F := Ideal) M (ix2 b (0 : Fin 1)) * L (ix3 (0 : Fin 2) b (0 : Fin 1))
            + tE1 (F := Ideal) M (ix2 b (0 : Fin 1)) * L (ix3 (1 : Fin 2) b (0 : Fin 1))) := by
  unfold tMean
  rw [shapeCast_apply _ shapeCasts_S8x3072_S8x3x32x32 (ix4 b cc h w) (ix2 b (Cert.KerSpec.flat (cc, h, w))) (unflat4_pos b cc h w)]
  show Ideal.div (tNum (F := Ideal) M A (ix2 b (Cert.KerSpec.flat (cc, h, w))))
    (broadcastInDim S8x3072 ![0, 1] bcast_S8x1_S8x3072_0_1 (tDen (F := Ideal) M L) (ix2 b (Cert.KerSpec.flat (cc, h, w)))) = _
  rw [tNum_apply, spread_apply, tDen_apply]

/-- The program's result at (b, cc, h, w), in terms of the two scalars and the merged mean. -/
theorem tailOf_apply (b : Fin 8) (cc : Fin 3) (h w : Fin 32) :
    tailOf (F := Ideal) M L A a0 a2 al sg (ix4 b cc h w)
      = Ideal.div (a0 (ix4 b cc h w) - al ix0 * tMean (F := Ideal) M L A (ix4 b cc h w)) (sg ix0) * a2 (ix3 cc h w) := by
  have e1 : broadcastInDim S8x3x32x32 ![] bcast_S_S8x3x32x32 al (ix4 b cc h w) = al ix0 :=
    broadcastInDim_apply _ bcast_S_S8x3x32x32 al _ ix0 (fun a => a.elim0)
  have e2 : broadcastInDim S8x3x32x32 ![] bcast_S_S8x3x32x32 sg (ix4 b cc h w) = sg ix0 :=
    broadcastInDim_apply _ bcast_S_S8x3x32x32 sg _ ix0 (fun a => a.elim0)
  have e3 : broadcastInDim S8x3x32x32 ![0, 1, 2, 3] bcast_S1x3x32x32_S8x3x32x32_0_1_2_3
      (broadcastInDim S1x3x32x32 ![1, 2, 3] bcast_S3x32x32_S1x3x32x32_1_2_3 a2) (ix4 b cc h w) = a2 (ix3 cc h w) := by
    rw [broadcastInDim_apply _ bcast_S1x3x32x32_S8x3x32x32_0_1_2_3 _ (ix4 b cc h w) (ix4 (0 : Fin 1) cc h w) (fun a => by
      match a with
      | ⟨0, _⟩ => rfl
      | ⟨1, _⟩ => rfl
      | ⟨2, _⟩ => rfl
      | ⟨3, _⟩ => rfl)]
    exact broadcastInDim_apply _ bcast_S3x32x32_S1x3x32x32_1_2_3 a2 (ix4 (0 : Fin 1) cc h w) (ix3 cc h w) (fun a => by
      match a with
      | ⟨0, _⟩ => rfl
      | ⟨1, _⟩ => rfl
      | ⟨2, _⟩ => rfl)
  show Ideal.div (a0 (ix4 b cc h w) - broadcastInDim S8x3x32x32 ![] bcast_S_S8x3x32x32 al (ix4 b cc h w) * tMean (F := Ideal) M L A (ix4 b cc h w))
      (broadcastInDim S8x3x32x32 ![] bcast_S_S8x3x32x32 sg (ix4 b cc h w))
    * broadcastInDim S8x3x32x32 ![0, 1, 2, 3] bcast_S1x3x32x32_S8x3x32x32_0_1_2_3
      (broadcastInDim S1x3x32x32 ![1, 2, 3] bcast_S3x32x32_S1x3x32x32_1_2_3 a2) (ix4 b cc h w) = _
  rw [e1, e2, e3]

end TailAtIndex

/-! ## The program's result is that term of what the region leaves -/

section TailRun

variable {F : FTy → Type} [FloatOps F] (m : (ℓ : Loc nD τ sig) → Buf (Elt F) ℓ) (c : Dev nD)

/-- The two halves' running maxima, as the region leaves them. -/
abbrev outM : (⟨S2x8x1, .f32⟩ : BufTy).Contents (Elt F) := (dats (F := F) m 0 c).arrAt 6 cfg0.N
/-- The two halves' sums of exponentials, as the region leaves them. -/
abbrev outL : (⟨S2x8x1, .f32⟩ : BufTy).Contents (Elt F) := (dats (F := F) m 0 c).arrAt 7 cfg0.N
/-- The two halves' weighted sums of the training rows, as the region leaves them. -/
abbrev outA : (⟨S2x8x3072, .f32⟩ : BufTy).Contents (Elt F) := (dats (F := F) m 0 c).arrAt 8 cfg0.N

/-- After the region the three output arrays hold what the region left … -/
theorem wa_v30_0 : Pipeline.withArrays (cfgs 0).spec c (V0 m c) (fun w => (dats (F := F) m 0 c).arrAt w (cfgs 0).N) (Proc.devRef .tc main_v30_0)
    = outM m c := Pipeline.withArrays_arr spec0 launch0.win.arr_inj c _ _ 6
theorem wa_v30_1 : Pipeline.withArrays (cfgs 0).spec c (V0 m c) (fun w => (dats (F := F) m 0 c).arrAt w (cfgs 0).N) (Proc.devRef .tc main_v30_1)
    = outL m c := Pipeline.withArrays_arr spec0 launch0.win.arr_inj c _ _ 7
theorem wa_v30_2 : Pipeline.withArrays (cfgs 0).spec c (V0 m c) (fun w => (dats (F := F) m 0 c).arrAt w (cfgs 0).N) (Proc.devRef .tc main_v30_2)
    = outA m c := Pipeline.withArrays_arr spec0 launch0.win.arr_inj c _ _ 8
/-- … and every buffer that is no window's array holds what it held when the region was entered. -/
theorem wa_arg0 : Pipeline.withArrays (cfgs 0).spec c (V0 m c) (fun w => (dats (F := F) m 0 c).arrAt w (cfgs 0).N) (Proc.devRef .tc main_arg0)
    = m ((c : Thread nD τ).loc main_arg0) :=
  (Pipeline.withArrays_of_ne spec0 c (V0 m c) _ main_arg0 (by decide)).trans (V_main_arg0 m c)
theorem wa_arg2 : Pipeline.withArrays (cfgs 0).spec c (V0 m c) (fun w => (dats (F := F) m 0 c).arrAt w (cfgs 0).N) (Proc.devRef .tc main_arg2)
    = m ((c : Thread nD τ).loc main_arg2) :=
  (Pipeline.withArrays_of_ne spec0 c (V0 m c) _ main_arg2 (by decide)).trans (V_main_arg2 m c)
theorem wa_v9 : Pipeline.withArrays (cfgs 0).spec c (V0 m c) (fun w => (dats (F := F) m 0 c).arrAt w (cfgs 0).N) (Proc.devRef .tc main_v9)
    = V m c main_v9 := Pipeline.withArrays_of_ne spec0 c (V0 m c) _ main_v9 (by decide)
theorem wa_v10 : Pipeline.withArrays (cfgs 0).spec c (V0 m c) (fun w => (dats (F := F) m 0 c).arrAt w (cfgs 0).N) (Proc.devRef .tc main_v10)
    = V m c main_v10 := Pipeline.withArrays_of_ne spec0 c (V0 m c) _ main_v10 (by decide)

/-- The program's result buffer after the operations that follow the region. -/
theorem tail_eq : Pipeline.afterTail₀ cfgs (dats (F := F) m) 0 (V0 m) [hostOps1] c main_v66
    = tailOf (F := F) (outM m c) (outL m c) (outA m c)
        (m ((c : Thread nD τ).loc main_arg0)) (m ((c : Thread nD τ).loc main_arg2)) (V m c main_v9) (V m c main_v10) := by
  unfold Pipeline.afterTail₀
  show StableHlo.after hostOps1 _ (Proc.devRef .tc main_v66) = _
  after_results_simp
  rw [wa_v30_0, wa_v30_1, wa_v30_2, wa_arg0, wa_arg2, wa_v9, wa_v10]
  rfl

end TailRun

/-! ## The program's result at an index -/

section TailResult

variable (m : (ℓ : Loc nD τ sig) → Buf (Elt Ideal) ℓ) (c : Dev nD)

/-- THE RESULT AT (b, cc, h, w): the last stage of the specification applied to the input entry, the merged weighted
    mean of the two halves at the pixel's flat position, and the mask entry. -/
theorem tail_apply (b : Fin 8) (cc : Fin 3) (h w : Fin 32) :
    (Pipeline.afterTail₀ cfgs (dats (F := Ideal) m) 0 (V0 m) [hostOps1] c main_v66 : (⟨S8x3x32x32, .f32⟩ : BufTy).Contents (Elt Ideal)) (ix4 b cc h w)
      = Cert.Spec.finish (m ((c : Thread nD τ).loc main_arg1) (ix1 (0 : Fin 1))) (m ((c : Thread nD τ).loc main_arg0) (ix4 b cc h w))
          (Ideal.div
            (Ideal.exp (outM m c (ix3 (0 : Fin 2) b (0 : Fin 1)) - max (outM m c (ix3 (0 : Fin 2) b (0 : Fin 1))) (outM m c (ix3 (1 : Fin 2) b (0 : Fin 1))))
                * outA m c (ix3 (0 : Fin 2) b (Cert.KerSpec.flat (cc, h, w)))
              + Ideal.exp (outM m c (ix3 (1 : Fin 2) b (0 : Fin 1)) - max (outM m c (ix3 (0 : Fin 2) b (0 : Fin 1))) (outM m c (ix3 (1 : Fin 2) b (0 : Fin 1))))
                * outA m c (ix3 (1 : Fin 2) b (Cert.KerSpec.flat (cc, h, w))))
            (Ideal.exp (outM m c (ix3 (0 : Fin 2) b (0 : Fin 1)) - max (outM m c (ix3 (0 : Fin 2) b (0 : Fin 1))) (outM m c (ix3 (1 : Fin 2) b (0 : Fin 1))))
                * outL m c (ix3 (0 : Fin 2) b (0 : Fin 1))
              + Ideal.exp (outM m c (ix3 (1 : Fin 2) b (0 : Fin 1)) - max (outM m c (ix3 (0 : Fin 2) b (0 : Fin 1))) (outM m c (ix3 (1 : Fin 2) b (0 : Fin 1))))
                * outL m c (ix3 (1 : Fin 2) b (0 : Fin 1))))
          (m ((c : Thread nD τ).loc main_arg2) (ix3 cc h w)) := by
  refine (congrFun (tail_eq m c) (ix4 b cc h w)).trans ?_
  rw [tailOf_apply, tMean_apply, tE0_apply, tE1_apply]
  have e9 : (V m c main_v9 : (⟨S_, .f32⟩ : BufTy).Contents (Elt Ideal)) ix0
      = Cert.Spec.alpha (m ((c : Thread nD τ).loc main_arg1) (ix1 (0 : Fin 1))) := found_v9 m c
  have e10 : (V m c main_v10 : (⟨S_, .f32⟩ : BufTy).Contents (Elt Ideal)) ix0
      = Cert.Spec.sigma (m ((c : Thread nD τ).loc main_arg1) (ix1 (0 : Fin 1))) := found_v10 m c
  rw [e9, e10]
  rfl

end TailResult

end Cert.KernelIdeal.HostSide

end
-- ==== Proof.KerIsSpec.lean ====
/-
  The kernel's arrangement of the softmax-weighted mean equals the one-pass form, for real inputs.

  With every input entry real, the scalars derived from the noise level are real (ṽ = exp (−γ) is positive, so the
  state scale √(1 + ṽ) is real and the score divisor 2 ṽ is real and non-zero); hence state, mask and training rows are
  real. The kernel's score — the squared distance expanded into three sums over the flattened pixel axis and multiplied
  by 1 / (2 ṽ) — is then the masked squared distance over pixels divided by 2 ṽ, and it is real. The mean accumulated
  over two halves of two tiles and merged is the one-pass softmax-weighted mean over the four tiles, which re-indexed
  along the 2048 rows is the sum the one-pass form spells.
-/
import proofs.«134671_j4312147165196_2_alg».proof.Proof.KerSpec
import Idealize.ShloMosaic.Lib.IdealHost

noncomputable section

namespace Cert.KerSpec

open Idealize.ShloMosaic Idealize.ShloMosaic.ValueIdx Cert.Spec Cert.OnlineSoftmax

/-! ### The f32 words -/

/-- The f32 pattern 0x40000000 is the extended real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- The f32 pattern 0x41C80000 (a normal number) denotes a real. -/
theorem ofBits_41C80000_real : ∃ r : ℝ, Ideal.ofBits .f32 0x41C80000#32 = (r : EReal) := by
  simp [Ideal.ofBits, Ideal.ieee, -EReal.coe_mul]

/-- The f32 pattern 0xC1700000 (a normal number) denotes a real. -/
theorem ofBits_C1700000_real : ∃ r : ℝ, Ideal.ofBits .f32 0xC1700000#32 = (r : EReal) := by
  simp [Ideal.ofBits, Ideal.ieee, -EReal.coe_mul, -EReal.coe_neg]

/-! ### The scalars of a real noise level are real -/

theorem gamma_real {g : EReal} (hg : g ≠ ⊥ ∧ g ≠ ⊤) : ∃ r : ℝ, gamma g = (r : EReal) := by
  obtain ⟨a, ha⟩ := ofBits_41C80000_real
  obtain ⟨c, hc⟩ := ofBits_C1700000_real
  obtain ⟨gr, rfl⟩ : ∃ gr : ℝ, g = (gr : EReal) := ⟨g.toReal, (EReal.coe_toReal hg.2 hg.1).symm⟩
  exact ⟨gr * a + c, by rw [gamma, ha, hc, ← EReal.coe_mul, ← EReal.coe_add]⟩

/-- ṽ = exp (−γ) is a positive real. -/
theorem vtilde_real {g : EReal} (hg : g ≠ ⊥ ∧ g ≠ ⊤) : ∃ r : ℝ, 0 < r ∧ vtilde g = (r : EReal) := by
  obtain ⟨γ, hγ⟩ := gamma_real hg
  exact ⟨Real.exp (-γ), Real.exp_pos _, by rw [vtilde, hγ, ← EReal.coe_neg, Ideal.exp_coe]⟩

/-- The state scale √(1 + ṽ) is real. -/
theorem scale_real {g : EReal} (hg : g ≠ ⊥ ∧ g ≠ ⊤) : ∃ r : ℝ, scale g = (r : EReal) := by
  obtain ⟨v, hv, hv'⟩ := vtilde_real hg
  refine ⟨Real.sqrt (1 + v), ?_⟩
  rw [scale, Ideal.ofBits_one_f32, hv', ← EReal.coe_one, ← EReal.coe_add, Ideal.sqrt_coe,
    if_neg (by linarith : ¬ (1 + v < 0))]

/-- The score divisor 2 ṽ is a non-zero real. -/
theorem twoV_real {g : EReal} (hg : g ≠ ⊥ ∧ g ≠ ⊤) : ∃ r : ℝ, r ≠ 0 ∧ twoV g = (r : EReal) := by
  obtain ⟨v, hv, hv'⟩ := vtilde_real hg
  refine ⟨2 * v, by positivity, ?_⟩
  rw [twoV, ofBits_two_f32, hv', show (2 : EReal) = ((2 : ℝ) : EReal) by norm_cast, ← EReal.coe_mul]

theorem twoV_ne {g : EReal} (hg : g ≠ ⊥ ∧ g ≠ ⊤) : (twoV g ≠ ⊥ ∧ twoV g ≠ ⊤) ∧ twoV g ≠ 0 := by
  obtain ⟨v, hv0, hv⟩ := twoV_real hg
  rw [hv]
  exact ⟨⟨EReal.coe_ne_bot _, EReal.coe_ne_top _⟩, by exact_mod_cast hv0⟩

/-! ### Pixels and flat positions -/

/-- Pixels and flat positions correspond one to one. -/
def pixEquiv : Pix ≃ Fin 3072 where
  toFun := flat
  invFun := pix
  left_inv := by
    rintro ⟨c, i, j⟩
    simp only [flat, pix]
    ext <;> simp <;> omega
  right_inv := by
    intro d
    simp only [flat, pix]
    ext
    simp
    omega

theorem pix_flat (p : Pix) : pix (flat p) = p := pixEquiv.left_inv p

variable (x0 : (⟨4, ![8, 3, 32, 32]⟩ : Shape).Idx → EReal) (g : EReal)
  (x2 : (⟨3, ![3, 32, 32]⟩ : Shape).Idx → EReal) (x3 : (⟨4, ![2048, 3, 32, 32]⟩ : Shape).Idx → EReal)

/-! ### State and scores are real; the two scores agree -/

theorem state_real (h0 : ∀ i, x0 i ≠ ⊥ ∧ x0 i ≠ ⊤) (hg : g ≠ ⊥ ∧ g ≠ ⊤) (b : Fin 8) (p : Pix) :
    state x0 g b p ≠ ⊥ ∧ state x0 g b p ≠ ⊤ := by
  obtain ⟨σ, hσ⟩ := scale_real hg
  obtain ⟨xr, hxr⟩ : ∃ xr : ℝ, x0 (ix4 b p.1 p.2.1 p.2.2) = (xr : EReal) :=
    ⟨_, (EReal.coe_toReal (h0 _).2 (h0 _).1).symm⟩
  rw [state, hσ, hxr, ← EReal.coe_mul]
  exact ⟨EReal.coe_ne_bot _, EReal.coe_ne_top _⟩

/-- The one-pass score is real. -/
theorem score_ne (h0 : ∀ i, x0 i ≠ ⊥ ∧ x0 i ≠ ⊤) (hg : g ≠ ⊥ ∧ g ≠ ⊤) (h2 : ∀ i, x2 i ≠ ⊥ ∧ x2 i ≠ ⊤)
    (h3 : ∀ i, x3 i ≠ ⊥ ∧ x3 i ≠ ⊤) (b : Fin 8) (n : Fin 2048) :
    score x0 g x2 x3 b n ≠ ⊥ ∧ score x0 g x2 x3 b n ≠ ⊤ :=
  score_real (state x0 g b) (mask x2) (train x3 n) (twoV g) (fun p => state_real x0 g h0 hg b p)
    (fun _ => h2 _) (fun _ => h3 _) (twoV_ne hg).1 (twoV_ne hg).2

/-- The kernel's expanded score is the one-pass score. -/
theorem kscore_eq_score (h0 : ∀ i, x0 i ≠ ⊥ ∧ x0 i ≠ ⊤) (hg : g ≠ ⊥ ∧ g ≠ ⊤) (h2 : ∀ i, x2 i ≠ ⊥ ∧ x2 i ≠ ⊤)
    (h3 : ∀ i, x3 i ≠ ⊥ ∧ x3 i ≠ ⊤) (b : Fin 8) (n : Fin 2048) :
    kscore x0 g x2 x3 b n = score x0 g x2 x3 b n := by
  have key := scores_eq (st x0 g b) (mk x2) (tn x3 n) (twoV g) (fun d => state_real x0 g h0 hg b (pix d))
    (fun _ => h2 _) (fun _ => h3 _) (twoV_ne hg).1 (twoV_ne hg).2
  rw [kscore, term1, Ideal.ofBits_zero_f32, ofBits_two_f32, Ideal.ofBits_one_f32, key, score]
  -- the sum over flat positions is the sum over pixels
  have hsum : (∑ d : Fin 3072, ((st x0 g b d - tn x3 n d) * mk x2 d) * ((st x0 g b d - tn x3 n d) * mk x2 d))
      = ∑ p : Pix, ((state x0 g b p - train x3 n p) * mask x2 p) * ((state x0 g b p - train x3 n p) * mask x2 p) :=
    Equiv.sum_comp pixEquiv.symm
      (fun p => ((state x0 g b p - train x3 n p) * mask x2 p) * ((state x0 g b p - train x3 n p) * mask x2 p))
  rw [hsum]

/-! ### The merged mean is the one-pass mean -/

theorem kden_eq_denoised (h0 : ∀ i, x0 i ≠ ⊥ ∧ x0 i ≠ ⊤) (hg : g ≠ ⊥ ∧ g ≠ ⊤) (h2 : ∀ i, x2 i ≠ ⊥ ∧ x2 i ≠ ⊤)
    (h3 : ∀ i, x3 i ≠ ⊥ ∧ x3 i ≠ ⊤) (b : Fin 8) (p : Pix) :
    kden x0 g x2 x3 b (flat p) = denoised x0 g x2 x3 b p := by
  have hkx : kx x0 g x2 x3 b = fun c j r => score x0 g x2 x3 b (rowOf c j r) := by
    funext c j r
    exact kscore_eq_score x0 g x2 x3 h0 hg h2 h3 b (rowOf c j r)
  have hx : ∀ c j r, kx x0 g x2 x3 b c j r ≠ ⊥ ∧ kx x0 g x2 x3 b c j r ≠ ⊤ := by
    intro c j r
    rw [hkx]
    exact score_ne x0 g x2 x3 h0 hg h2 h3 b (rowOf c j r)
  have ht : ∀ c j r, kt x3 (flat p) c j r ≠ ⊥ ∧ kt x3 (flat p) c j r ≠ ⊤ := fun _ _ _ => h3 _
  have hkt : ∀ c j r, kt x3 (flat p) c j r = train x3 (rowOf c j r) p := by
    intro c j r
    show train x3 (rowOf c j r) (pix (flat p)) = _
    rw [pix_flat]
  refine (merged_eq_softmax (kx x0 g x2 x3 b) (kt x3 (flat p)) hx ht).trans ?_
  simp only [hkt]
  rw [hkx]
  have hmax : allMax (fun c j r => score x0 g x2 x3 b (rowOf c j r)) = scoreMax x0 g x2 x3 b :=
    (fold_max_rows (score x0 g x2 x3 b)).symm
  rw [hmax]
  have hZ : (∑ q : Fin 2 × Fin 2 × Fin 512,
        Ideal.exp (score x0 g x2 x3 b (rowOf q.1 q.2.1 q.2.2) - scoreMax x0 g x2 x3 b))
      = ∑ n : Fin 2048, Ideal.exp (score x0 g x2 x3 b n - scoreMax x0 g x2 x3 b) :=
    (sum_rows (fun n => Ideal.exp (score x0 g x2 x3 b n - scoreMax x0 g x2 x3 b))).symm
  simp only [denoised, zero_add]
  rw [hZ]
  exact (sum_rows (fun n =>
    Ideal.div (Ideal.exp (score x0 g x2 x3 b n - scoreMax x0 g x2 x3 b))
      (∑ n' : Fin 2048, Ideal.exp (score x0 g x2 x3 b n' - scoreMax x0 g x2 x3 b)) * train x3 n p)).symm

end Cert.KerSpec

end
-- ==== Proof.KerRun.lean ====
/-
  The idealized kernel's run with its result named, and that result entry by entry: the last stage of the shared
  specification applied to the input entry, the softmax-weighted mean of the training rows, and the mask entry —
  once every input entry is a real number.
-/
import proofs.«134671_j4312147165196_2_alg».proof.Proof.KerValue
import proofs.«134671_j4312147165196_2_alg».proof.Proof.KerHost
import proofs.«134671_j4312147165196_2_alg».proof.Proof.KerIsSpec

noncomputable section

namespace Cert.KernelIdeal.ValueSide

open Cert.KernelIdeal Cert.KernelIdeal.Gen Cert.KernelIdeal.Arrays Cert.KernelIdeal.HostSide
open Idealize.ShloMosaic Idealize.ShloMosaic.TcCoe Idealize.ShloMosaic.ValueIdx Idealize.SL.Sem Cert.OnlineSoftmax

variable (m : (ℓ : Loc nD τ sig) → Buf (Elt Ideal) ℓ) (ρ : Dev nD → PrngReg)

/-- What the kernel's result array ends holding. -/
def result (c : Dev nD) : Buf (Elt Ideal) ((c : Thread nD τ).loc main_v66) :=
  Pipeline.afterTail₀ cfgs (dats (F := Ideal) m) 0 (V0 m) [hostOps1] c main_v66

/-- The frame run re-posted: the result array named, the arguments unchanged. -/
theorem run : θ_run defs (onTc (τ := τ) (main (F := Ideal))) ⟨m, fun _ => 0, ρ⟩ fun r => ∀ c : Dev nD,
      r.2.mem ((c.tc : Thread nD τ).loc main_v66) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).2 main_v66 (Pipeline.mem_restRefs_of main_v66 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

/-- Every entry is a real number. -/
abbrev AllReal {ι : Type} (f : ι → EReal) : Prop := ∀ i, f i ≠ ⊥ ∧ f i ≠ ⊤

/-- The result at (b, cc, h, w), for real inputs. -/
theorem result_apply (c : Dev nD)
    (h0 : AllReal (m ((c : Thread nD τ).loc main_arg0))) (h1 : AllReal (m ((c : Thread nD τ).loc main_arg1)))
    (h2 : AllReal (m ((c : Thread nD τ).loc main_arg2))) (h3 : AllReal (m ((c : Thread nD τ).loc main_arg3)))
    (b : Fin 8) (cc : Fin 3) (h w : Fin 32) :
    (result m c : (⟨S8x3x32x32, .f32⟩ : BufTy).Contents (Elt Ideal)) (ix4 b cc h w)
      = Cert.Spec.finish (m ((c : Thread nD τ).loc main_arg1) (ix1 (0 : Fin 1))) ((m ((c : Thread nD τ).loc main_arg0)) (ix4 b cc h w))
          (Cert.Spec.denoised (m ((c : Thread nD τ).loc main_arg0)) (m ((c : Thread nD τ).loc main_arg1) (ix1 (0 : Fin 1))) (m ((c : Thread nD τ).loc main_arg2)) (m ((c : Thread nD τ).loc main_arg3)) b (cc, h, w)) ((m ((c : Thread nD τ).loc main_arg2)) (ix3 cc h w)) := by
  unfold result
  rw [tail_apply]
  dsimp only [outM, outL, outA]
  rw [final6, final7, final8, G6_apply, G6_apply, G7_apply, G7_apply, G8_apply, G8_apply]
  exact congrArg (fun d => Cert.Spec.finish (m ((c : Thread nD τ).loc main_arg1) (ix1 (0 : Fin 1))) ((m ((c : Thread nD τ).loc main_arg0)) (ix4 b cc h w)) d ((m ((c : Thread nD τ).loc main_arg2)) (ix3 cc h w)))
    (Cert.KerSpec.kden_eq_denoised (m ((c : Thread nD τ).loc main_arg0)) (m ((c : Thread nD τ).loc main_arg1) (ix1 (0 : Fin 1))) (m ((c : Thread nD τ).loc main_arg2)) (m ((c : Thread nD τ).loc main_arg3)) h0 (h1 _) h2 h3 b (cc, h, w))

end Cert.KernelIdeal.ValueSide

end
-- ==== Proof.LibHostReduceMax.lean ====
/-
  The host's reduction with a maximum body over one axis, read at an index.
-/
import Idealize.ShloMosaic.PureOps.Ideal
import Idealize.ShloMosaic.PureOps.Ideal.Laws
import Idealize.ShloMosaic.PureOps.Reduce

noncomputable section

namespace Cert.ReferenceIdeal.RefValue

open Idealize.ShloMosaic

/-- The host's reduction with a maximum body over ONE axis, from an initial value that is −∞, read at an index: the
    fold of max from ⊥ over that axis's coordinates (the reduced index with the coordinate inserted). -/
theorem hostReduce_max_single {s t u : Shape} {a : Fin s.rank} (x : s.Idx → EReal) (init : u.Idx → EReal)
    (h' : s.ReducesTo [a] t) (h : s.Reduces [a] t) (hu : 0 < u.numel) (j : t.Idx) (hinit : init (Shape.Idx.first hu) = ⊥) :
    Host.reduce (FloatOps.maximumf (F := Ideal) (φ := .f32)) x init h' hu j
      = (Finset.univ : Finset (Fin (s.size a))).fold max ⊥ (fun k => x (h.lift j k)) := by
  rw [Host.reduce_eq_fold_single (FloatOps.maximumf (F := Ideal) (φ := .f32)) x init h' h hu j, hinit]
  rfl

end Cert.ReferenceIdeal.RefValue

end
-- ==== Proof.RefIsSpec.lean ====
/-
  The reference program read as the specification, index by index, over the extended reals.

  The reference forms, from the one entry g of the noise-level input, the scalars γ, ṽ = exp (−γ), √(1 + ṽ), 2 ṽ,
  the variance 1 / (1 + exp γ) and its two square roots; then for every batch row b and training row n the score
  −(Σ_p ((state − row)·mask)²) / (2 ṽ), the sum running over the 3·32·32 pixel coordinates; the largest score of
  each batch row; the exponentials of the scores minus that maximum and their sum; the quotient weights; the
  weighted mean of the training rows; and the last stage ((input − α · mean) / σ) · mask. Each of these is one
  stage of the generated reading; the lemmas below read each stage at explicit coordinates and identify it with
  the specification's function of the same name.
-/
import proofs.«134671_j4312147165196_2_alg».proof.Proof.Gen.ReferenceIdeal.Read
import proofs.«134671_j4312147165196_2_alg».proof.Proof.Spec
import proofs.«134671_j4312147165196_2_alg».proof.Proof.LibHostReduceMax

noncomputable section

namespace Cert.RefSide

open Cert.ReferenceIdeal Cert.ReferenceIdeal.Gen Cert.ReferenceIdeal.Read Idealize.ShloMosaic Idealize.ShloMosaic.ValueIdx

variable (x0 : (⟨S8x3x32x32, .f32⟩ : BufTy).Contents (Elt Ideal)) (x1 : (⟨S1, .f32⟩ : BufTy).Contents (Elt Ideal))
  (x2 : (⟨S3x32x32, .f32⟩ : BufTy).Contents (Elt Ideal)) (x3 : (⟨S2048x3x32x32, .f32⟩ : BufTy).Contents (Elt Ideal))

/-! ## The scalars -/

/-- The vector of one entry has one index. -/
theorem idx_S1_eq (k : S1.Idx) : k = ix1 (0 : Fin 1) := by
  funext d
  match d with
  | ⟨0, _⟩ => exact Fin.ext (by have h : (k 0).val < 1 := (k 0).isLt; show (k 0).val = 0; omega)

/-- The reshape of the one-entry vector to a scalar reads the entry. -/
theorem v0_apply (i : S_.Idx) : val_main_v0 (F := Ideal) x1 i = x1 (ix1 (0 : Fin 1)) := by
  unfold val_main_v0 shapeCast
  exact congrArg x1 (idx_S1_eq _)

/-- γ. -/
theorem v2_apply (i : S_.Idx) : val_main_v2 (F := Ideal) x1 i = Cert.Spec.gamma (x1 (ix1 (0 : Fin 1))) := by
  rw [val_main_v2_apply, val_main_v1_apply, v0_apply]
  rfl

/-- ṽ = exp (−γ). -/
theorem v12_apply (i : S_.Idx) : val_main_v12 (F := Ideal) x1 i = Cert.Spec.vtilde (x1 (ix1 (0 : Fin 1))) := by
  rw [val_main_v12_apply, val_main_v11_apply, v2_apply]
  rfl

/-- The state scale √(1 + ṽ). -/
theorem v14_apply (i : S_.Idx) : val_main_v14 (F := Ideal) x1 i = Cert.Spec.scale (x1 (ix1 (0 : Fin 1))) := by
  rw [val_main_v14_apply, val_main_v13_apply, v12_apply]
  rfl

/-- The score divisor 2 ṽ. -/
theorem v29_apply (i : S_.Idx) : val_main_v29 (F := Ideal) x1 i = Cert.Spec.twoV (x1 (ix1 (0 : Fin 1))) := by
  rw [val_main_v29_apply, v12_apply]
  rfl

/-- The variance 1 / (1 + exp (−(−γ))). -/
theorem v7_apply (i : S_.Idx) : val_main_v7 (F := Ideal) x1 i = Cert.Spec.variance (x1 (ix1 (0 : Fin 1))) := by
  rw [val_main_v7_apply, val_main_v6_apply, val_main_v5_apply, val_main_v4_apply, val_main_v3_apply, v2_apply]
  rfl

/-- α = √(1 − variance). -/
theorem v9_apply (i : S_.Idx) : val_main_v9 (F := Ideal) x1 i = Cert.Spec.alpha (x1 (ix1 (0 : Fin 1))) := by
  rw [val_main_v9_apply, val_main_v8_apply, v7_apply]
  rfl

/-- σ = √variance. -/
theorem v10_apply (i : S_.Idx) : val_main_v10 (F := Ideal) x1 i = Cert.Spec.sigma (x1 (ix1 (0 : Fin 1))) := by
  rw [val_main_v10_apply, v7_apply]
  rfl

/-! ## The sum over the pixel coordinates -/

/-- The host's sum over the three pixel axes of a rank-5 array, read at (b, n): the initial value plus the sum, over
    the pixel coordinates, of the array at (b, n, pixel). The indices that drop to (b, n) are exactly those whose
    first two coordinates are b and n, and they correspond to the triples of the remaining coordinates. -/
theorem hostReduceAdd_pix (y : S8x2048x3x32x32.Idx → EReal) (init : EReal) (b : Fin 8) (n : Fin 2048) :
    Ideal.hostReduceAdd reducesTo_S8x2048x3x32x32_S8x2048_d2_3_4 y init (ix2 b n)
      = init + ∑ p : Cert.Spec.Pix, y (ix5 b n p.1 p.2.1 p.2.2) := by
  unfold Ideal.hostReduceAdd
  refine congrArg (init + ·) ?_
  refine Finset.sum_nbij' (fun i => ((i 2, i 3, i 4) : Cert.Spec.Pix)) (fun p => ix5 b n p.1 p.2.1 p.2.2) ?_ ?_ ?_ ?_ ?_
  · intro i _; exact Finset.mem_univ _
  · intro p _
    rw [Finset.mem_filter]
    refine ⟨Finset.mem_univ _, ?_⟩
    funext a
    apply Fin.ext
    match a with
    | ⟨0, _⟩ => exact Shape.ReducesTo.drop_apply_val_of_eq reducesTo_S8x2048x3x32x32_S8x2048_d2_3_4 (ix5 b n p.1 p.2.1 p.2.2) (⟨0, by decide⟩ : Fin 2) (⟨0, by decide⟩ : Fin 5)
    | ⟨1, _⟩ => exact Shape.ReducesTo.drop_apply_val_of_eq reducesTo_S8x2048x3x32x32_S8x2048_d2_3_4 (ix5 b n p.1 p.2.1 p.2.2) (⟨1, by decide⟩ : Fin 2) (⟨1, by decide⟩ : Fin 5)
  · intro i hi
    rw [Finset.mem_filter] at hi
    have e0 : (i 0).val = b.val :=
      (Shape.ReducesTo.drop_apply_val_of_eq reducesTo_S8x2048x3x32x32_S8x2048_d2_3_4 i (⟨0, by decide⟩ : Fin 2) (⟨0, by decide⟩ : Fin 5)).symm.trans
        (congrArg (fun j : S8x2048.Idx => (j 0).val) hi.2)
    have e1 : (i 1).val = n.val :=
      (Shape.ReducesTo.drop_apply_val_of_eq reducesTo_S8x2048x3x32x32_S8x2048_d2_3_4 i (⟨1, by decide⟩ : Fin 2) (⟨1, by decide⟩ : Fin 5)).symm.trans
        (congrArg (fun j : S8x2048.Idx => (j 1).val) hi.2)
    funext a
    match a with
    | ⟨0, _⟩ => exact Fin.ext e0.symm
    | ⟨1, _⟩ => exact Fin.ext e1.symm
    | ⟨2, _⟩ => rfl
    | ⟨3, _⟩ => rfl
    | ⟨4, _⟩ => rfl
  · intro p _; rfl
  · intro i hi
    rw [Finset.mem_filter] at hi
    have e0 : (i 0).val = b.val :=
      (Shape.ReducesTo.drop_apply_val_of_eq reducesTo_S8x2048x3x32x32_S8x2048_d2_3_4 i (⟨0, by decide⟩ : Fin 2) (⟨0, by decide⟩ : Fin 5)).symm.trans
        (congrArg (fun j : S8x2048.Idx => (j 0).val) hi.2)
    have e1 : (i 1).val = n.val :=
      (Shape.ReducesTo.drop_apply_val_of_eq reducesTo_S8x2048x3x32x32_S8x2048_d2_3_4 i (⟨1, by decide⟩ : Fin 2) (⟨1, by decide⟩ : Fin 5)).symm.trans
        (congrArg (fun j : S8x2048.Idx => (j 1).val) hi.2)
    refine congrArg y (funext fun a => ?_)
    match a with
    | ⟨0, _⟩ => exact Fin.ext e0
    | ⟨1, _⟩ => exact Fin.ext e1
    | ⟨2, _⟩ => rfl
    | ⟨3, _⟩ => rfl
    | ⟨4, _⟩ => rfl

/-! ## The score -/

/-- The masked difference (state − training row) · mask at (b, n, pixel). -/
theorem v24_apply (b : Fin 8) (n : Fin 2048) (c : Fin 3) (h w : Fin 32) :
    val_main_v24 (F := Ideal) x0 x1 x2 x3 (ix5 b n c h w)
      = (Cert.Spec.state x0 (x1 (ix1 (0 : Fin 1))) b (c, h, w) - Cert.Spec.train x3 n (c, h, w)) * Cert.Spec.mask x2 (c, h, w) := by
  have i17 : idx_main_v17 (idx_main_v19 (ix5 b n c h w)) = ix4 b c h w := by
    funext a; match a with | ⟨0, _⟩ => rfl | ⟨1, _⟩ => rfl | ⟨2, _⟩ => rfl | ⟨3, _⟩ => rfl
  have i18 : idx_main_v18 (idx_main_v20 (ix5 b n c h w)) = ix4 n c h w := by
    funext a; match a with | ⟨0, _⟩ => rfl | ⟨1, _⟩ => rfl | ⟨2, _⟩ => rfl | ⟨3, _⟩ => rfl
  have i22 : idx_main_v22 (idx_main_v23 (ix5 b n c h w)) = ix3 c h w := by
    funext a; match a with | ⟨0, _⟩ => rfl | ⟨1, _⟩ => rfl | ⟨2, _⟩ => rfl
  rw [val_main_v24_apply, val_main_v21_apply, val_main_v19_apply, val_main_v17_apply, val_main_v16_apply, val_main_v15_apply,
    v14_apply, val_main_v20_apply, val_main_v18_apply, val_main_v23_apply, val_main_v22_apply, i17, i18, i22]
  rfl

/-- The sum of the squared masked differences over the pixel coordinates, from 0, at (b, n). -/
theorem v26_apply (b : Fin 8) (n : Fin 2048) :
    val_main_v26 (F := Ideal) x0 x1 x2 x3 (ix2 b n)
      = 0 + ∑ p : Cert.Spec.Pix,
          ((Cert.Spec.state x0 (x1 (ix1 (0 : Fin 1))) b p - Cert.Spec.train x3 n p) * Cert.Spec.mask x2 p)
            * ((Cert.Spec.state x0 (x1 (ix1 (0 : Fin 1))) b p - Cert.Spec.train x3 n p) * Cert.Spec.mask x2 p) := by
  unfold val_main_v26
  simp only [Host.reduceAdd, Ideal.hostReduceAdd_def]
  rw [hostReduceAdd_pix, val_main_cst_5_apply, Ideal.ofBits_def, Ideal.ofBits_zero_f32]
  refine congrArg (0 + ·) (Finset.sum_congr rfl fun p _ => ?_)
  obtain ⟨c, h, w⟩ := p
  rw [val_main_v25_apply, v24_apply]
  rfl

/-- The score of training row n for batch row b. -/
theorem v31_apply (b : Fin 8) (n : Fin 2048) :
    val_main_v31 (F := Ideal) x0 x1 x2 x3 (ix5 b n (0 : Fin 1) (0 : Fin 1) (0 : Fin 1))
      = Cert.Spec.score x0 (x1 (ix1 (0 : Fin 1))) x2 x3 b n := by
  have i27 : idx_main_v27 (ix5 b n (0 : Fin 1) (0 : Fin 1) (0 : Fin 1)) = ix2 b n := by
    funext a; match a with | ⟨0, _⟩ => rfl | ⟨1, _⟩ => rfl
  rw [val_main_v31_apply, val_main_v28_apply, val_main_v27_apply, i27, v26_apply, val_main_v30_apply, v29_apply]
  rfl

/-! ## The largest score -/

/-- The f32 word of −∞. -/
theorem ofBits_neg_inf : Ideal.ofBits .f32 0xFF800000#32 = (⊥ : EReal) := by simp [Ideal.ofBits, Ideal.ieee]

/-- The maximum, from −∞, over the training rows of the scores of batch row b. -/
theorem v32_apply (b : Fin 8) :
    val_main_v32 (F := Ideal) x0 x1 x2 x3 (ix4 b (0 : Fin 1) (0 : Fin 1) (0 : Fin 1))
      = Cert.Spec.scoreMax x0 (x1 (ix1 (0 : Fin 1))) x2 x3 b := by
  have hr : S8x2048x1x1x1.Reduces [1] S8x1x1x1 := by decide
  have hinit : val_main_cst_7 (F := Ideal) (Shape.Idx.first h_S_) = (⊥ : EReal) := by
    rw [val_main_cst_7_apply, Ideal.ofBits_def, ofBits_neg_inf]
  unfold val_main_v32
  refine (Cert.ReferenceIdeal.RefValue.hostReduce_max_single (val_main_v31 (F := Ideal) x0 x1 x2 x3) (val_main_cst_7 (F := Ideal))
    reducesTo_S8x2048x1x1x1_S8x1x1x1_d1 hr h_S_ (ix4 b (0 : Fin 1) (0 : Fin 1) (0 : Fin 1)) hinit).trans ?_
  unfold Cert.Spec.scoreMax
  show (Finset.univ : Finset (Fin 2048)).fold max ⊥
      (fun k => val_main_v31 (F := Ideal) x0 x1 x2 x3 (hr.lift (ix4 b (0 : Fin 1) (0 : Fin 1) (0 : Fin 1)) k)) = _
  refine congrArg (fun f => (Finset.univ : Finset (Fin 2048)).fold max ⊥ f) (funext fun k => ?_)
  have il : hr.lift (ix4 b (0 : Fin 1) (0 : Fin 1) (0 : Fin 1)) k = ix5 b k (0 : Fin 1) (0 : Fin 1) (0 : Fin 1) := by
    funext a
    apply Fin.ext
    match a with
    | ⟨0, _⟩ => rfl
    | ⟨1, _⟩ => rfl
    | ⟨2, _⟩ => rfl
    | ⟨3, _⟩ => rfl
    | ⟨4, _⟩ => rfl
  rw [il]
  exact v31_apply x0 x1 x2 x3 b k

/-- The maximum with −∞ changes nothing: what the reference subtracts from a score is the largest score of its batch row. -/
theorem v36_apply (b : Fin 8) (n : Fin 2048) :
    val_main_v36 (F := Ideal) x0 x1 x2 x3 (ix5 b n (0 : Fin 1) (0 : Fin 1) (0 : Fin 1))
      = Cert.Spec.scoreMax x0 (x1 (ix1 (0 : Fin 1))) x2 x3 b := by
  have i35 : idx_main_v35 (idx_main_v36 (ix5 b n (0 : Fin 1) (0 : Fin 1) (0 : Fin 1))) = ix4 b (0 : Fin 1) (0 : Fin 1) (0 : Fin 1) := by
    funext a; match a with | ⟨0, _⟩ => rfl | ⟨1, _⟩ => rfl | ⟨2, _⟩ => rfl | ⟨3, _⟩ => rfl
  rw [val_main_v36_apply, val_main_v35_apply, i35, val_main_v34_apply, val_main_v33_apply, val_main_cst_8_apply, v32_apply,
    Ideal.maximumf_def, Ideal.ofBits_def, ofBits_neg_inf]
  exact max_bot_left _

/-! ## The weights -/

/-- exp (score − largest score) at (b, n). -/
theorem v38_apply (b : Fin 8) (n : Fin 2048) :
    val_main_v38 (F := Ideal) x0 x1 x2 x3 (ix5 b n (0 : Fin 1) (0 : Fin 1) (0 : Fin 1))
      = Ideal.exp (Cert.Spec.score x0 (x1 (ix1 (0 : Fin 1))) x2 x3 b n - Cert.Spec.scoreMax x0 (x1 (ix1 (0 : Fin 1))) x2 x3 b) := by
  rw [val_main_v38_apply, val_main_v37_apply, v31_apply, v36_apply]
  rfl

/-- The sum of those exponentials over the training rows, from 0. -/
theorem v39_apply (b : Fin 8) :
    val_main_v39 (F := Ideal) x0 x1 x2 x3 (ix4 b (0 : Fin 1) (0 : Fin 1) (0 : Fin 1))
      = 0 + ∑ n' : Fin 2048,
          Ideal.exp (Cert.Spec.score x0 (x1 (ix1 (0 : Fin 1))) x2 x3 b n' - Cert.Spec.scoreMax x0 (x1 (ix1 (0 : Fin 1))) x2 x3 b) := by
  rw [val_main_v39_apply, val_main_cst_9_apply, Ideal.ofBits_def, Ideal.ofBits_zero_f32]
  refine congrArg (0 + ·) (Finset.sum_congr rfl fun k _ => ?_)
  have i39 : idx_main_v39 (ix4 b (0 : Fin 1) (0 : Fin 1) (0 : Fin 1)) k = ix5 b k (0 : Fin 1) (0 : Fin 1) (0 : Fin 1) := by
    funext a; match a with | ⟨0, _⟩ => rfl | ⟨1, _⟩ => rfl | ⟨2, _⟩ => rfl | ⟨3, _⟩ => rfl | ⟨4, _⟩ => rfl
  rw [i39, v38_apply]

/-- The weight of training row n for batch row b: its exponential over the sum of the exponentials. -/
theorem v42_apply (b : Fin 8) (n : Fin 2048) :
    val_main_v42 (F := Ideal) x0 x1 x2 x3 (ix5 b n (0 : Fin 1) (0 : Fin 1) (0 : Fin 1))
      = Ideal.div (Ideal.exp (Cert.Spec.score x0 (x1 (ix1 (0 : Fin 1))) x2 x3 b n - Cert.Spec.scoreMax x0 (x1 (ix1 (0 : Fin 1))) x2 x3 b))
          (0 + ∑ n' : Fin 2048,
            Ideal.exp (Cert.Spec.score x0 (x1 (ix1 (0 : Fin 1))) x2 x3 b n' - Cert.Spec.scoreMax x0 (x1 (ix1 (0 : Fin 1))) x2 x3 b)) := by
  have i40 : idx_main_v40 (idx_main_v41 (ix5 b n (0 : Fin 1) (0 : Fin 1) (0 : Fin 1))) = ix4 b (0 : Fin 1) (0 : Fin 1) (0 : Fin 1) := by
    funext a; match a with | ⟨0, _⟩ => rfl | ⟨1, _⟩ => rfl | ⟨2, _⟩ => rfl | ⟨3, _⟩ => rfl
  rw [val_main_v42_apply, v38_apply, val_main_v41_apply, val_main_v40_apply, i40, v39_apply]
  rfl

/-! ## The weighted mean and the last stage -/

/-- The weighted mean of the training rows at pixel (c, h, w), summed from 0. -/
theorem v47_apply (b : Fin 8) (c : Fin 3) (h w : Fin 32) :
    val_main_v47 (F := Ideal) x0 x1 x2 x3 (ix4 b c h w)
      = Cert.Spec.denoised x0 (x1 (ix1 (0 : Fin 1))) x2 x3 b (c, h, w) := by
  rw [val_main_v47_apply, val_main_cst_10_apply, Ideal.ofBits_def, Ideal.ofBits_zero_f32]
  unfold Cert.Spec.denoised
  refine congrArg (0 + ·) (Finset.sum_congr rfl fun k _ => ?_)
  have i47 : idx_main_v47 (ix4 b c h w) k = ix5 b k c h w := by
    funext a; match a with | ⟨0, _⟩ => rfl | ⟨1, _⟩ => rfl | ⟨2, _⟩ => rfl | ⟨3, _⟩ => rfl | ⟨4, _⟩ => rfl
  have i44 : idx_main_v44 (ix5 b k c h w) = ix5 b k (0 : Fin 1) (0 : Fin 1) (0 : Fin 1) := by
    funext a; match a with | ⟨0, _⟩ => rfl | ⟨1, _⟩ => rfl | ⟨2, _⟩ => rfl | ⟨3, _⟩ => rfl | ⟨4, _⟩ => rfl
  have i43 : idx_main_v43 (idx_main_v45 (ix5 b k c h w)) = ix4 k c h w := by
    funext a; match a with | ⟨0, _⟩ => rfl | ⟨1, _⟩ => rfl | ⟨2, _⟩ => rfl | ⟨3, _⟩ => rfl
  rw [i47, val_main_v46_apply, val_main_v44_apply, i44, v42_apply, val_main_v45_apply, val_main_v43_apply, i43]
  rfl

/-- THE REFERENCE IS THE SPECIFICATION: at every index (b, c, h, w) the reference's result is the last stage applied
    to the input entry, the weighted mean there and the mask entry. -/
theorem ref_is_spec (b : Fin 8) (c : Fin 3) (h w : Fin 32) :
    val_main_v55 (F := Ideal) x0 x1 x2 x3 (ix4 b c h w)
      = Cert.Spec.finish (x1 (ix1 (0 : Fin 1))) (x0 (ix4 b c h w))
          (Cert.Spec.denoised x0 (x1 (ix1 (0 : Fin 1))) x2 x3 b (c, h, w)) (x2 (ix3 c h w)) := by
  have i53 : idx_main_v53 (idx_main_v54 (ix4 b c h w)) = ix3 c h w := by
    funext a; match a with | ⟨0, _⟩ => rfl | ⟨1, _⟩ => rfl | ⟨2, _⟩ => rfl
  rw [val_main_v55_apply, val_main_v52_apply, val_main_v50_apply, val_main_v49_apply, val_main_v48_apply, v9_apply, v47_apply,
    val_main_v51_apply, v10_apply, val_main_v54_apply, val_main_v53_apply, i53]
  rfl

end Cert.RefSide

end
-- ==== Proof.LibFiniteEntries.lean ====
/-
  "Every entry is finite", decoded on the extended reals. A precondition `all(|a| < +∞)` prints as a reduction by `and`,
  into a rank-0 result, of the comparison of `|a|` with the f32 word of +∞ spread over the array's shape. When that
  reduction is 1, every entry of `a` is a real number: neither −∞ nor +∞.
-/
import Idealize.ShloMosaic.PureOps.Ideal
import Idealize.ShloMosaic.Lib.ReduceAll
import Idealize.ShloMosaic.Lib.ValueIdx

noncomputable section

namespace Cert.FiniteEntries

open Idealize.ShloMosaic

/-- The rank-0 shape has one index. -/
instance : Subsingleton (⟨0, ![]⟩ : Shape).Idx := ⟨fun a b => funext fun d => d.elim0⟩

/-- An entry whose absolute value compares below the f32 word of +∞ is real. -/
theorem elt_real (x : EReal)
    (h : FloatOps.cmpf (F := Ideal) (φ := .f32) .olt (FloatOps.hostAbsf (F := Ideal) (φ := .f32) x) (Ideal.ofBits .f32 0x7F800000#32) = 1#1) :
    x ≠ ⊥ ∧ x ≠ ⊤ := by
  have htop : Ideal.ofBits .f32 0x7F800000#32 = ⊤ := by simp [Ideal.ofBits, Ideal.ieee]
  rw [htop] at h
  have hlt : max x (-x) < ⊤ := by
    by_contra hn
    have h0 : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [h0] at h; exact absurd h (by decide)
  constructor
  · rintro rfl; simp at hlt
  · rintro rfl; simp at hlt

/-- An f32 array whose `all(|a| < +∞)` is 1 has real entries. -/
theorem arr_real {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi (cmpf .olt (Host.absf a) (broadcastInDim s ![] hb (constant (⟨0, ![]⟩ : Shape) .f32 0x7F800000#32)))
      (constantI (⟨0, ![]⟩ : Shape) 1 1#1) hr hu ValueIdx.ix0 = 1#1) (i : s.Idx) : a i ≠ ⊥ ∧ a i ≠ ⊤ :=
  elt_real (a i) (Host.reduce_andi_all _ _ hr hu _ e i)

end Cert.FiniteEntries

end
-- ==== Proof.FiniteInputs.lean ====
/-
  From the printed precondition "all inputs are finite" to the statement that every entry of each of the four input
  arrays is a real number (neither −∞ nor +∞) on the extended reals.

  The precondition is the conjunction, by `and`, of four reductions `all(|a| < +∞)`, one per input. When the
  conjunction is 1 each reduction is 1, and a reduction by `and` that is 1 met only 1s: every entry's absolute
  value compares below +∞, so the entry is real.
-/
import proofs.«134671_j4312147165196_2_alg».proof.Pre_finite_inputs
import proofs.«134671_j4312147165196_2_alg».proof.Proof.LibFiniteEntries
import Idealize.ShloMosaic.Lib.ReduceAll
import Idealize.ShloMosaic.Lib.ValueIdx

noncomputable section

namespace Cert.FiniteInputs

open Idealize.ShloMosaic Cert.Pre_finite_inputs

/-- When the printed precondition holds, every entry of every input is a real number. -/
theorem all_real [Facts] (a0 : FVec Ideal S8x3x32x32 .f32) (a1 : FVec Ideal S1 .f32)
    (a2 : FVec Ideal S3x32x32 .f32) (a3 : FVec Ideal S2048x3x32x32 .f32)
    (h : fn (F := Ideal) a0 a1 a2 a3 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤)
      ∧ (∀ i, a3 i ≠ ⊥ ∧ a3 i ≠ ⊤) := by
  -- the rank-0 result read at its one index
  have h0 := congrFun h ValueIdx.ix0
  dsimp only [fn, fn_part1, andi] at h0
  -- a conjunction of four that is 1 has all four 1
  rw [IntOp.andi_eq_one, IntOp.andi_eq_one, IntOp.andi_eq_one] at h0
  obtain ⟨⟨⟨e0, e1⟩, e2⟩, e3⟩ := h0
  exact ⟨Cert.FiniteEntries.arr_real a0 _ _ _ e0, Cert.FiniteEntries.arr_real a1 _ _ _ e1,
    Cert.FiniteEntries.arr_real a2 _ _ _ e2, Cert.FiniteEntries.arr_real a3 _ _ _ e3⟩

end Cert.FiniteInputs

end
-- ==== Proof.lean ====
/-
  The certificate's claims.

  The kernel computes, per batch row, the scores of the 2048 training rows as term1 − 2·cross + term3 (the masked
  squared distance expanded, the mask squared folded into the state) times 1/(2ṽ), and accumulates the
  softmax-weighted mean of the training rows tile by tile (two halves of two tiles of 512 rows, each half with a running
  maximum, normaliser and weighted sum, the halves merged after the region). The reference forms the masked squared
  distance directly, divides by 2ṽ, and takes one softmax over all rows. On real inputs the expanded distance is the
  direct one (a finite sum of real products distributes), and the tile-by-tile accumulation is the one-pass mean by
  exp (u − w) = exp (u − v)·exp (v − w); everything after the mean is the same function in both programs. The
  precondition gives that every input entry is real. The frames are the generated frame runs (the reference's: its run
  with the result dropped); the ideal pass rewrote nothing, so the kernel's idealization is its own text.
-/
import proofs.«134671_j4312147165196_2_alg».proof.Defs
import proofs.«134671_j4312147165196_2_alg».proof.Proof.Gen.Kernel
import proofs.«134671_j4312147165196_2_alg».proof.Proof.Gen.Kernel.Frame
import proofs.«134671_j4312147165196_2_alg».proof.Proof.Gen.KernelIdeal
import proofs.«134671_j4312147165196_2_alg».proof.Proof.Gen.KernelIdeal.Frame
import proofs.«134671_j4312147165196_2_alg».proof.Proof.Gen.ReferenceIdeal
import proofs.«134671_j4312147165196_2_alg».proof.Proof.Gen.ReferenceIdeal.Run
import proofs.«134671_j4312147165196_2_alg».proof.Proof.Gen.ReferenceIdeal.Read
import proofs.«134671_j4312147165196_2_alg».proof.Proof.Gen.Pre_finite_inputs
import proofs.«134671_j4312147165196_2_alg».proof.Proof.KerRun
import proofs.«134671_j4312147165196_2_alg».proof.Proof.RefIsSpec
import proofs.«134671_j4312147165196_2_alg».proof.Proof.FiniteInputs
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

theorem preserves : Cert.preserves_Kernel_KernelIdeal := trivial

/-- Both idealized programs end at the shared specification of arguments that agree. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.ValueSide.result m c, Cert.KernelIdeal.ValueSide.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3⟩ := Cert.FiniteInputs.all_real _ _ _ _ (hpre c)
  rw [Cert.ReferenceIdeal.Read.val_main_v55_eq, (hagree c).1, (hagree c).2.1, (hagree c).2.2.1, (hagree c).2.2.2]
  funext i
  obtain ⟨b, cc, h, w, rfl⟩ : ∃ (b : Fin 8) (cc : Fin 3) (h w : Fin 32), i = ix4 b cc h w := ⟨i 0, i 1, i 2, i 3, eq_ix4 i⟩
  exact (Cert.RefSide.ref_is_spec _ _ _ _ b cc h w).trans
    (Cert.KernelIdeal.ValueSide.result_apply m c r0 r1 r2 r3 b cc h w).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
